-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x500 : Shape := ⟨2, ![50000, 500]⟩
abbrev S2x800000 : Shape := ⟨2, ![2, 800000]⟩
abbrev S500x160 : Shape := ⟨2, ![500, 160]⟩
abbrev S160 : Shape := ⟨1, ![160]⟩
abbrev S160x40 : Shape := ⟨2, ![160, 40]⟩
abbrev S40 : Shape := ⟨1, ![40]⟩
abbrev S_ : Shape := ⟨0, ![]⟩

class Facts : Prop where
  bcast_S_S50000x500 : S_.BroadcastsInDim S50000x500 (![] : Fin 0 → Fin S50000x500.rank)
  reducesTo_S50000x500_S_d0_1 : S50000x500.ReducesTo [0, 1] S_
  h_S_ : 0 < S_.numel
  bcast_S_S500x160 : S_.BroadcastsInDim S500x160 (![] : Fin 0 → Fin S500x160.rank)
  reducesTo_S500x160_S_d0_1 : S500x160.ReducesTo [0, 1] S_
  bcast_S_S160 : S_.BroadcastsInDim S160 (![] : Fin 0 → Fin S160.rank)
  reducesTo_S160_S_d0 : S160.ReducesTo [0] S_
  bcast_S_S160x40 : S_.BroadcastsInDim S160x40 (![] : Fin 0 → Fin S160x40.rank)
  reducesTo_S160x40_S_d0_1 : S160x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S160x40 1) : IVec S_ 1 :=
  let main_c_5 : IVec S_ 1 := constantI S_ 1 1#1
  let main_v17 : IVec S_ 1 := (fun x v => Host.reduce IntOp.andi x v reducesTo_S160x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x500 .f32) (main_arg1 : IVec S2x800000 32) (main_arg2 : FVec F S500x160 .f32) (main_arg3 : FVec F S160 .f32) (main_arg4 : FVec F S160x40 .f32) (main_arg5 : FVec F S40 .f32) : IVec S_ 1 :=
  let main_v0 : FVec F S50000x500 .f32 := Host.absf main_arg0
  let main_cst : FVec F S_ .f32 := constant S_ .f32 0x7F800000#32
  let main_v1 : FVec F S50000x500 .f32 := broadcastInDim S50000x500 ![] bcast_S_S50000x500 main_cst
  let main_v2 : IVec S50000x500 1 := cmpf .olt main_v0 main_v1
  let main_c : IVec S_ 1 := constantI S_ 1 1#1
  let main_v3 : IVec S_ 1 := (fun x v => Host.reduce IntOp.andi x v reducesTo_S50000x500_S_d0_1 h_S_) main_v2 main_c
  let main_v4 : FVec F S500x160 .f32 := Host.absf main_arg2
  let main_cst_0 : FVec F S_ .f32 := constant S_ .f32 0x7F800000#32
  let main_v5 : FVec F S500x160 .f32 := broadcastInDim S500x160 ![] bcast_S_S500x160 main_cst_0
  let main_v6 : IVec S500x160 1 := cmpf .olt main_v4 main_v5
  let main_c_1 : IVec S_ 1 := constantI S_ 1 1#1
  let main_v7 : IVec S_ 1 := (fun x v => Host.reduce IntOp.andi x v reducesTo_S500x160_S_d0_1 h_S_) main_v6 main_c_1
  let main_v8 : IVec S_ 1 := andi main_v3 main_v7
  let main_v9 : FVec F S160 .f32 := Host.absf main_arg3
  let main_cst_2 : FVec F S_ .f32 := constant S_ .f32 0x7F800000#32
  let main_v10 : FVec F S160 .f32 := broadcastInDim S160 ![] bcast_S_S160 main_cst_2
  let main_v11 : IVec S160 1 := cmpf .olt main_v9 main_v10
  let main_c_3 : IVec S_ 1 := constantI S_ 1 1#1
  let main_v12 : IVec S_ 1 := (fun x v => Host.reduce IntOp.andi x v reducesTo_S160_S_d0 h_S_) main_v11 main_c_3
  let main_v13 : IVec S_ 1 := andi main_v8 main_v12
  let main_v14 : FVec F S160x40 .f32 := Host.absf main_arg4
  let main_cst_4 : FVec F S_ .f32 := constant S_ .f32 0x7F800000#32
  let main_v15 : FVec F S160x40 .f32 := broadcastInDim S160x40 ![] bcast_S_S160x40 main_cst_4
  let main_v16 : IVec S160x40 1 := cmpf .olt main_v14 main_v15
  fn_part1 (F := F) main_arg5 main_v13 main_v16
-- ==== Kernel.lean ====
abbrev S50000x500 : Shape := ⟨2, ![50000, 500]⟩
abbrev S2x800000 : Shape := ⟨2, ![2, 800000]⟩
abbrev S500x160 : Shape := ⟨2, ![500, 160]⟩
abbrev S160 : Shape := ⟨1, ![160]⟩
abbrev S160x40 : Shape := ⟨2, ![160, 40]⟩
abbrev S40 : Shape := ⟨1, ![40]⟩
abbrev S160x10 : Shape := ⟨2, ![160, 10]⟩
abbrev S10x160 : Shape := ⟨2, ![10, 160]⟩
abbrev S1x800000 : Shape := ⟨2, ![1, 800000]⟩
abbrev S800000 : Shape := ⟨1, ![800000]⟩
abbrev S50000x160 : Shape := ⟨2, ![50000, 160]⟩
abbrev S2000x500 : Shape := ⟨2, ![2000, 500]⟩
abbrev S2000x160 : Shape := ⟨2, ![2000, 160]⟩
abbrev S1x160 : Shape := ⟨2, ![1, 160]⟩
abbrev S2000x10 : Shape := ⟨2, ![2000, 10]⟩
abbrev S_ : Shape := ⟨0, ![]⟩
abbrev S800000x1 : Shape := ⟨2, ![800000, 1]⟩
abbrev S800000x160 : Shape := ⟨2, ![800000, 160]⟩
abbrev S2000 : Shape := ⟨1, ![2000]⟩
abbrev S2000x1 : Shape := ⟨2, ![2000, 1]⟩
abbrev S50000x40 : Shape := ⟨2, ![50000, 40]⟩
abbrev S2000x40 : Shape := ⟨2, ![2000, 40]⟩
abbrev S1x40 : Shape := ⟨2, ![1, 40]⟩

abbrev nBuf : Space → Nat
  | .hbm => 67
  | .vmem => 58
  | .smem => 0
  | _ => 0

abbrev bufTy : (tb : Table) → Fin (tcTables nBuf tb) → BufTy
  | .hbm, ⟨0, _⟩ => ⟨S50000x500, .f32⟩
  | .hbm, ⟨1, _⟩ => ⟨S2x800000, .i32⟩
  | .hbm, ⟨2, _⟩ => ⟨S500x160, .f32⟩
  | .hbm, ⟨3, _⟩ => ⟨S160, .f32⟩
  | .hbm, ⟨4, _⟩ => ⟨S160x40, .f32⟩
  | .hbm, ⟨5, _⟩ => ⟨S40, .f32⟩
  | .hbm, ⟨6, _⟩ => ⟨S160x10, .f32⟩
  | .hbm, ⟨7, _⟩ => ⟨S10x160, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x160, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x160, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x160, .f32⟩
  | .hbm, ⟨31, _⟩ => ⟨S800000x160, .f32⟩
  | .hbm, ⟨32, _⟩ => ⟨S_, .f32⟩
  | .hbm, ⟨33, _⟩ => ⟨S50000x160, .f32⟩
  | .hbm, ⟨34, _⟩ => ⟨S800000x1, .i32⟩
  | .hbm, ⟨35, _⟩ => ⟨S50000x160, .f32⟩
  | .hbm, ⟨36, _⟩ => ⟨S50000x160, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x160, .f32⟩
  | .hbm, ⟨46, _⟩ => ⟨S800000x160, .f32⟩
  | .hbm, ⟨47, _⟩ => ⟨S_, .f32⟩
  | .hbm, ⟨48, _⟩ => ⟨S50000x160, .f32⟩
  | .hbm, ⟨49, _⟩ => ⟨S800000x1, .i32⟩
  | .hbm, ⟨50, _⟩ => ⟨S50000x160, .f32⟩
  | .hbm, ⟨51, _⟩ => ⟨S50000x160, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x160, .f32⟩
  | .hbm, ⟨61, _⟩ => ⟨S800000x160, .f32⟩
  | .hbm, ⟨62, _⟩ => ⟨S_, .f32⟩
  | .hbm, ⟨63, _⟩ => ⟨S50000x160, .f32⟩
  | .hbm, ⟨64, _⟩ => ⟨S800000x1, .i32⟩
  | .hbm, ⟨65, _⟩ => ⟨S50000x160, .f32⟩
  | .hbm, ⟨66, _⟩ => ⟨S50000x40, .f32⟩
  | .local _ .vmem, ⟨0, _⟩ => ⟨S2000x500, .f32⟩
  | .local _ .vmem, ⟨1, _⟩ => ⟨S2000x500, .f32⟩
  | .local _ .vmem, ⟨2, _⟩ => ⟨S500x160, .f32⟩
  | .local _ .vmem, ⟨3, _⟩ => ⟨S160, .f32⟩
  | .local _ .vmem, ⟨4, _⟩ => ⟨S160x10, .f32⟩
  | .local _ .vmem, ⟨5, _⟩ => ⟨S10x160, .f32⟩
  | .local _ .vmem, ⟨6, _⟩ => ⟨S2000x160, .f32⟩
  | .local _ .vmem, ⟨7, _⟩ => ⟨S2000x160, .f32⟩
  | .local _ .vmem, ⟨8, _⟩ => ⟨S2000x160, .f32⟩
  | .local _ .vmem, ⟨9, _⟩ => ⟨S2000x160, .f32⟩
  | .local _ .vmem, ⟨10, _⟩ => ⟨S2000x160, .f32⟩
  | .local _ .vmem, ⟨11, _⟩ => ⟨S2000x160, .f32⟩
  | .local _ .vmem, ⟨12, _⟩ => ⟨S160x10, .f32⟩
  | .local _ .vmem, ⟨13, _⟩ => ⟨S10x160, .f32⟩
  | .local _ .vmem, ⟨14, _⟩ => ⟨S2000x160, .f32⟩
  | .local _ .vmem, ⟨15, _⟩ => ⟨S2000x160, .f32⟩
  | .local _ .vmem, ⟨16, _⟩ => ⟨S2000x160, .f32⟩
  | .local _ .vmem, ⟨17, _⟩ => ⟨S2000x160, .f32⟩
  | .local _ .vmem, ⟨18, _⟩ => ⟨S2000x160, .f32⟩
  | .local _ .vmem, ⟨19, _⟩ => ⟨S2000x160, .f32⟩
  | .local _ .vmem, ⟨20, _⟩ => ⟨S160x10, .f32⟩
  | .local _ .vmem, ⟨21, _⟩ => ⟨S10x160, .f32⟩
  | .local _ .vmem, ⟨22, _⟩ => ⟨S2000x160, .f32⟩
  | .local _ .vmem, ⟨23, _⟩ => ⟨S2000x160, .f32⟩
  | .local _ .vmem, ⟨24, _⟩ => ⟨S2000x160, .f32⟩
  | .local _ .vmem, ⟨25, _⟩ => ⟨S2000x160, .f32⟩
  | .local _ .vmem, ⟨26, _⟩ => ⟨S2000x160, .f32⟩
  | .local _ .vmem, ⟨27, _⟩ => ⟨S2000x160, .f32⟩
  | .local _ .vmem, ⟨28, _⟩ => ⟨S160x10, .f32⟩
  | .local _ .vmem, ⟨29, _⟩ => ⟨S10x160, .f32⟩
  | .local _ .vmem, ⟨30, _⟩ => ⟨S2000x160, .f32⟩
  | .local _ .vmem, ⟨31, _⟩ => ⟨S2000x160, .f32⟩
  | .local _ .vmem, ⟨32, _⟩ => ⟨S2000x160, .f32⟩
  | .local _ .vmem, ⟨33, _⟩ => ⟨S2000x160, .f32⟩
  | .local _ .vmem, ⟨34, _⟩ => ⟨S2000x160, .f32⟩
  | .local _ .vmem, ⟨35, _⟩ => ⟨S2000x160, .f32⟩
  | .local _ .vmem, ⟨36, _⟩ => ⟨S160x10, .f32⟩
  | .local _ .vmem, ⟨37, _⟩ => ⟨S10x160, .f32⟩
  | .local _ .vmem, ⟨38, _⟩ => ⟨S2000x160, .f32⟩
  | .local _ .vmem, ⟨39, _⟩ => ⟨S2000x160, .f32⟩
  | .local _ .vmem, ⟨40, _⟩ => ⟨S2000x160, .f32⟩
  | .local _ .vmem, ⟨41, _⟩ => ⟨S2000x160, .f32⟩
  | .local _ .vmem, ⟨42, _⟩ => ⟨S2000x160, .f32⟩
  | .local _ .vmem, ⟨43, _⟩ => ⟨S2000x160, .f32⟩
  | .local _ .vmem, ⟨44, _⟩ => ⟨S160x10, .f32⟩
  | .local _ .vmem, ⟨45, _⟩ => ⟨S10x160, .f32⟩
  | .local _ .vmem, ⟨46, _⟩ => ⟨S2000x160, .f32⟩
  | .local _ .vmem, ⟨47, _⟩ => ⟨S2000x160, .f32⟩
  | .local _ .vmem, ⟨48, _⟩ => ⟨S2000x160, .f32⟩
  | .local _ .vmem, ⟨49, _⟩ => ⟨S2000x160, .f32⟩
  | .local _ .vmem, ⟨50, _⟩ => ⟨S2000x160, .f32⟩
  | .local _ .vmem, ⟨51, _⟩ => ⟨S2000x160, .f32⟩
  | .local _ .vmem, ⟨52, _⟩ => ⟨S160x10, .f32⟩
  | .local _ .vmem, ⟨53, _⟩ => ⟨S10x160, .f32⟩
  | .local _ .vmem, ⟨54, _⟩ => ⟨S160x40, .f32⟩
  | .local _ .vmem, ⟨55, _⟩ => ⟨S40, .f32⟩
  | .local _ .vmem, ⟨56, _⟩ => ⟨S2000x40, .f32⟩
  | .local _ .vmem, ⟨57, _⟩ => ⟨S2000x40, .f32⟩
  | _, _ => ⟨S50000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg5_0 : Ref sig .tc := ⟨.vmem, 55, rfl⟩
abbrev cc6_stg6_0 : Ref sig .tc := ⟨.vmem, 56, rfl⟩
abbrev cc6_stg6_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem5_0 : DmaSem sig := 55
abbrev cc6_sem6_0 : DmaSem sig := 56
abbrev cc6_sem6_1 : DmaSem sig := 57

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S160x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x160 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x160 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S160x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10x160 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x160 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x160 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x160 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S160x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10x160 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x160 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![400], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x160 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x160 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S160x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S10x160 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x160 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x160 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x160 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S160x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S10x160 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x160 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![400], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x160 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x160 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S160x10 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S10x160 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x160 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x160 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x160 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S160x10 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S10x160 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S160x40 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S40 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x40 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  transposes_S160x10_S10x160_1_0 : S160x10.Transposes [1, 0] S10x160
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x160_S500x160_0_0 : ∀ a, (![0, 0] : Fin 2 → Nat) a + S500x160.size a ≤ S500x160.size a
  h_S500x160 : 0 < S500x160.numel
  inb_S160_S160_0 : ∀ a, (![0] : Fin 1 → Nat) a + S160.size a ≤ S160.size a
  h_S160 : 0 < S160.numel
  shapeCasts_S160_S1x160 : S160.ShapeCasts S1x160
  broadcasts_S1x160_S2000x160 : S1x160.Broadcasts S2000x160
  inb_S160x10_S160x10_0_0 : ∀ a, (![0, 0] : Fin 2 → Nat) a + S160x10.size a ≤ S160x10.size a
  h_S160x10 : 0 < S160x10.numel
  inb_S10x160_S10x160_0_0 : ∀ a, (![0, 0] : Fin 2 → Nat) a + S10x160.size a ≤ S10x160.size a
  h_S10x160 : 0 < S10x160.numel
  shapeCasts_S10x160_S10x160 : S10x160.ShapeCasts S10x160
  inb_S2000x160_S2000x160_0_0 : ∀ a, (![0, 0] : Fin 2 → Nat) a + S2000x160.size a ≤ S2000x160.size a
  h_S2000x160 : 0 < S2000x160.numel
  bcast_S_S800000 : S_.BroadcastsInDim S800000 (![] : Fin 0 → Fin S800000.rank)
  bcast_S800000_S800000x1_0 : S800000.BroadcastsInDim S800000x1 (![0] : Fin 1 → Fin S800000x1.rank)
  shapeCasts_S2000x160_S2000x160 : S2000x160.ShapeCasts S2000x160
  reduces_S2000x10_S2000 : S2000x10.Reduces [1] S2000
  shapeCasts_S2000_S2000x1 : S2000.ShapeCasts S2000x1
  broadcasts_S2000x1_S2000x10 : S2000x1.Broadcasts S2000x10
  bcast_S_S50000x160 : S_.BroadcastsInDim S50000x160 (![] : Fin 0 → Fin S50000x160.rank)
  inb_S160x40_S160x40_0_0 : ∀ a, (![0, 0] : Fin 2 → Nat) a + S160x40.size a ≤ S160x40.size a
  h_S160x40 : 0 < S160x40.numel
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  dot_S2000x500_S500x160_S2000x160_1_0_0_1_n_n_wf : DotDims.WF S2000x500 S500x160 S2000x160 [1] [0] [0] [1] [] []
  dot_S2000x160_S160x10_S2000x10_1_0_0_1_n_n_wf : DotDims.WF S2000x160 S160x10 S2000x10 [1] [0] [0] [1] [] []
  dot_S2000x10_S10x160_S2000x160_1_0_0_1_n_n_wf : DotDims.WF S2000x10 S10x160 S2000x160 [1] [0] [0] [1] [] []
  gather_S50000x160_S800000x1_S800000x160_1_0_n_n_0_1_1160_wf : GatherDims.WF S50000x160 S800000x1 S800000x160 [1] [0] [] [0] [] 1 ![1, 160]
  scatter_S50000x160_S800000x1_S800000x160_1_0_0_1_wf : ScatterDims.WF S50000x160 S800000x1 S800000x160 [1] [0] [0] 1
  dot_S2000x160_S160x40_S2000x40_1_0_0_1_n_n_wf : DotDims.WF S2000x160 S160x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S50000x500.size a
  hwx0_0 : ∀ i : grid0.Coords, EltTy.bits .f32 = 32 ∨ (Rect.block (s := S50000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x160.size a ≤ S500x160.size a
  hwx0_1 : ∀ i : grid0.Coords, EltTy.bits .f32 = 32 ∨ (Rect.block (s := S500x160) S500x160.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S160.size a ≤ S160.size a
  hwx0_2 : ∀ i : grid0.Coords, EltTy.bits .f32 = 32 ∨ (Rect.block (s := S160) S160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x10.size a ≤ S160x10.size a
  hwx0_3 : ∀ i : grid0.Coords, EltTy.bits .f32 = 32 ∨ (Rect.block (s := S160x10) S160x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x160.size a ≤ S10x160.size a
  hwx0_4 : ∀ i : grid0.Coords, EltTy.bits .f32 = 32 ∨ (Rect.block (s := S10x160) S10x160.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x160.size a ≤ S50000x160.size a
  hwx0_5 : ∀ i : grid0.Coords, EltTy.bits .f32 = 32 ∨ (Rect.block (s := S50000x160) S2000x160.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x160.size a ≤ S800000x160.size a
  hwx1_0 : ∀ i : grid1.Coords, EltTy.bits .f32 = 32 ∨ (Rect.block (s := S800000x160) S2000x160.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x160.size a ≤ S800000x160.size a
  hwx1_1 : ∀ i : grid1.Coords, EltTy.bits .f32 = 32 ∨ (Rect.block (s := S800000x160) S2000x160.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S160x10.size a ≤ S160x10.size a
  hwx1_2 : ∀ i : grid1.Coords, EltTy.bits .f32 = 32 ∨ (Rect.block (s := S160x10) S160x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10x160.size a ≤ S10x160.size a
  hwx1_3 : ∀ i : grid1.Coords, EltTy.bits .f32 = 32 ∨ (Rect.block (s := S10x160) S10x160.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x160.size a ≤ S800000x160.size a
  hwx1_4 : ∀ i : grid1.Coords, EltTy.bits .f32 = 32 ∨ (Rect.block (s := S800000x160) S2000x160.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x160.size a ≤ S50000x160.size a
  hwx2_0 : ∀ i : grid2.Coords, EltTy.bits .f32 = 32 ∨ (Rect.block (s := S50000x160) S2000x160.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x160.size a ≤ S50000x160.size a
  hwx2_1 : ∀ i : grid2.Coords, EltTy.bits .f32 = 32 ∨ (Rect.block (s := S50000x160) S2000x160.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S160x10.size a ≤ S160x10.size a
  hwx2_2 : ∀ i : grid2.Coords, EltTy.bits .f32 = 32 ∨ (Rect.block (s := S160x10) S160x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10x160.size a ≤ S10x160.size a
  hwx2_3 : ∀ i : grid2.Coords, EltTy.bits .f32 = 32 ∨ (Rect.block (s := S10x160) S10x160.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x160.size a ≤ S50000x160.size a
  hwx2_4 : ∀ i : grid2.Coords, EltTy.bits .f32 = 32 ∨ (Rect.block (s := S50000x160) S2000x160.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x160.size a ≤ S800000x160.size a
  hwx3_0 : ∀ i : grid3.Coords, EltTy.bits .f32 = 32 ∨ (Rect.block (s := S800000x160) S2000x160.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x160.size a ≤ S800000x160.size a
  hwx3_1 : ∀ i : grid3.Coords, EltTy.bits .f32 = 32 ∨ (Rect.block (s := S800000x160) S2000x160.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S160x10.size a ≤ S160x10.size a
  hwx3_2 : ∀ i : grid3.Coords, EltTy.bits .f32 = 32 ∨ (Rect.block (s := S160x10) S160x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S10x160.size a ≤ S10x160.size a
  hwx3_3 : ∀ i : grid3.Coords, EltTy.bits .f32 = 32 ∨ (Rect.block (s := S10x160) S10x160.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x160.size a ≤ S800000x160.size a
  hwx3_4 : ∀ i : grid3.Coords, EltTy.bits .f32 = 32 ∨ (Rect.block (s := S800000x160) S2000x160.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x160.size a ≤ S50000x160.size a
  hwx4_0 : ∀ i : grid4.Coords, EltTy.bits .f32 = 32 ∨ (Rect.block (s := S50000x160) S2000x160.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x160.size a ≤ S50000x160.size a
  hwx4_1 : ∀ i : grid4.Coords, EltTy.bits .f32 = 32 ∨ (Rect.block (s := S50000x160) S2000x160.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S160x10.size a ≤ S160x10.size a
  hwx4_2 : ∀ i : grid4.Coords, EltTy.bits .f32 = 32 ∨ (Rect.block (s := S160x10) S160x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S10x160.size a ≤ S10x160.size a
  hwx4_3 : ∀ i : grid4.Coords, EltTy.bits .f32 = 32 ∨ (Rect.block (s := S10x160) S10x160.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x160.size a ≤ S50000x160.size a
  hwx4_4 : ∀ i : grid4.Coords, EltTy.bits .f32 = 32 ∨ (Rect.block (s := S50000x160) S2000x160.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x160.size a ≤ S800000x160.size a
  hwx5_0 : ∀ i : grid5.Coords, EltTy.bits .f32 = 32 ∨ (Rect.block (s := S800000x160) S2000x160.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x160.size a ≤ S800000x160.size a
  hwx5_1 : ∀ i : grid5.Coords, EltTy.bits .f32 = 32 ∨ (Rect.block (s := S800000x160) S2000x160.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S160x10.size a ≤ S160x10.size a
  hwx5_2 : ∀ i : grid5.Coords, EltTy.bits .f32 = 32 ∨ (Rect.block (s := S160x10) S160x10.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S10x160.size a ≤ S10x160.size a
  hwx5_3 : ∀ i : grid5.Coords, EltTy.bits .f32 = 32 ∨ (Rect.block (s := S10x160) S10x160.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x160.size a ≤ S800000x160.size a
  hwx5_4 : ∀ i : grid5.Coords, EltTy.bits .f32 = 32 ∨ (Rect.block (s := S800000x160) S2000x160.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x160.size a ≤ S50000x160.size a
  hwx6_0 : ∀ i : grid6.Coords, EltTy.bits .f32 = 32 ∨ (Rect.block (s := S50000x160) S2000x160.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x160.size a ≤ S50000x160.size a
  hwx6_1 : ∀ i : grid6.Coords, EltTy.bits .f32 = 32 ∨ (Rect.block (s := S50000x160) S2000x160.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S160x10.size a ≤ S160x10.size a
  hwx6_2 : ∀ i : grid6.Coords, EltTy.bits .f32 = 32 ∨ (Rect.block (s := S160x10) S160x10.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S10x160.size a ≤ S10x160.size a
  hwx6_3 : ∀ i : grid6.Coords, EltTy.bits .f32 = 32 ∨ (Rect.block (s := S10x160) S10x160.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S160x40.size a ≤ S160x40.size a
  hwx6_4 : ∀ i : grid6.Coords, EltTy.bits .f32 = 32 ∨ (Rect.block (s := S160x40) S160x40.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S40.size a ≤ S40.size a
  hwx6_5 : ∀ i : grid6.Coords, EltTy.bits .f32 = 32 ∨ (Rect.block (s := S40) S40.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x40.size a ≤ S50000x40.size a
  hwx6_6 : ∀ i : grid6.Coords, EltTy.bits .f32 = 32 ∨ (Rect.block (s := S50000x40) S2000x40.size (cc6_transform_6 i) (hinb6_6 i)).WholeWords (EltTy.packing .f32)

variable [Facts₀]

def dot_S2000x500_S500x160_S2000x160_1_0_0_1_n_n : DotDims S2000x500 S500x160 S2000x160 where
  lhsContracting := [1]
  rhsContracting := [0]
  lhsNonContracting := [0]
  rhsNonContracting := [1]
  lhsBatch := []
  rhsBatch := []
  wf := dot_S2000x500_S500x160_S2000x160_1_0_0_1_n_n_wf
def dot_S2000x160_S160x10_S2000x10_1_0_0_1_n_n : DotDims S2000x160 S160x10 S2000x10 where
  lhsContracting := [1]
  rhsContracting := [0]
  lhsNonContracting := [0]
  rhsNonContracting := [1]
  lhsBatch := []
  rhsBatch := []
  wf := dot_S2000x160_S160x10_S2000x10_1_0_0_1_n_n_wf
def dot_S2000x10_S10x160_S2000x160_1_0_0_1_n_n : DotDims S2000x10 S10x160 S2000x160 where
  lhsContracting := [1]
  rhsContracting := [0]
  lhsNonContracting := [0]
  rhsNonContracting := [1]
  lhsBatch := []
  rhsBatch := []
  wf := dot_S2000x10_S10x160_S2000x160_1_0_0_1_n_n_wf
def gather_S50000x160_S800000x1_S800000x160_1_0_n_n_0_1_1160 : GatherDims S50000x160 S800000x1 S800000x160 where
  offsetDims := [1]
  collapsedSliceDims := [0]
  operandBatchingDims := []
  startIndicesBatchingDims := []
  startIndexMap := [0]
  indexVectorDim := 1
  sliceSizes := ![1, 160]
  wf := gather_S50000x160_S800000x1_S800000x160_1_0_n_n_0_1_1160_wf
def scatter_S50000x160_S800000x1_S800000x160_1_0_0_1 : ScatterDims S50000x160 S800000x1 S800000x160 where
  updateWindowDims := [1]
  insertedWindowDims := [0]
  scatterDimsToOperandDims := [0]
  indexVectorDim := 1
  wf := scatter_S50000x160_S800000x1_S800000x160_1_0_0_1_wf
def dot_S2000x160_S160x40_S2000x40_1_0_0_1_n_n : DotDims S2000x160 S160x40 S2000x40 where
  lhsContracting := [1]
  rhsContracting := [0]
  lhsNonContracting := [0]
  rhsNonContracting := [1]
  lhsBatch := []
  rhsBatch := []
  wf := dot_S2000x160_S160x40_S2000x40_1_0_0_1_n_n_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_cst) S160x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S10x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2000x160.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12) S2000x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x160.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_cst) S160x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S10x160.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S2000x160.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v23) S2000x160.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S2000x160.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_cst) S160x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S10x160.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S2000x160.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v12) S2000x160.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S2000x160.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_cst) S160x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v0) S10x160.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v32) S2000x160.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v35) S2000x160.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S2000x160.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_cst) S160x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v0) S10x160.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v36) S2000x160.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v12) S2000x160.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43) S2000x160.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_cst) S160x10.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v0) S10x160.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v44) S2000x160.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v47) S2000x160.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v5) S2000x160.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_cst) S160x10.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v0) S10x160.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg4) S160x40.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg5) S40.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v48) S2000x40.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S50000x500 : Shape := ⟨2, ![50000, 500]⟩
abbrev S2x800000 : Shape := ⟨2, ![2, 800000]⟩
abbrev S500x160 : Shape := ⟨2, ![500, 160]⟩
abbrev S160 : Shape := ⟨1, ![160]⟩
abbrev S160x40 : Shape := ⟨2, ![160, 40]⟩
abbrev S40 : Shape := ⟨1, ![40]⟩
abbrev S1x800000 : Shape := ⟨2, ![1, 800000]⟩
abbrev S800000 : Shape := ⟨1, ![800000]⟩
abbrev S50000x160 : Shape := ⟨2, ![50000, 160]⟩
abbrev S1x160 : Shape := ⟨2, ![1, 160]⟩
abbrev S_ : Shape := ⟨0, ![]⟩
abbrev S50000x10x16 : Shape := ⟨3, ![50000, 10, 16]⟩
abbrev S50000x10 : Shape := ⟨2, ![50000, 10]⟩
abbrev S50000x10x1 : Shape := ⟨3, ![50000, 10, 1]⟩
abbrev S800000x1 : Shape := ⟨2, ![800000, 1]⟩
abbrev S800000x160 : Shape := ⟨2, ![800000, 160]⟩
abbrev S800000x10x16 : Shape := ⟨3, ![800000, 10, 16]⟩
abbrev S800000x10 : Shape := ⟨2, ![800000, 10]⟩
abbrev S800000x10x1 : Shape := ⟨3, ![800000, 10, 1]⟩
abbrev S50000x40 : Shape := ⟨2, ![50000, 40]⟩
abbrev S1x40 : Shape := ⟨2, ![1, 40]⟩

abbrev nBuf : Space → Nat
  | .hbm => 209
  | .vmem => 0
  | .smem => 0
  | _ => 0

abbrev hbmTy0_0 (i : Nat) : BufTy := match i % 128 with
  | 0 => ⟨S50000x500, .f32⟩
  | 1 => ⟨S2x800000, .i32⟩
  | 2 => ⟨S500x160, .f32⟩
  | 3 => ⟨S160, .f32⟩
  | 4 => ⟨S160x40, .f32⟩
  | 5 => ⟨S40, .f32⟩
  | 6 => ⟨S1x800000, .i32⟩
  | 7 => ⟨S800000, .i32⟩
  | 8 => ⟨S1x800000, .i32⟩
  | 9 => ⟨S800000, .i32⟩
  | 10 => ⟨S50000x160, .f32⟩
  | 11 => ⟨S1x160, .f32⟩
  | 12 => ⟨S50000x160, .f32⟩
  | 13 => ⟨S50000x160, .f32⟩
  | 14 => ⟨S_, .f32⟩
  | 15 => ⟨S_, .f32⟩
  | 16 => ⟨S50000x160, .f32⟩
  | 17 => ⟨S50000x160, .i1⟩
  | 18 => ⟨S_, .f32⟩
  | 19 => ⟨S50000x160, .f32⟩
  | 20 => ⟨S50000x160, .f32⟩
  | 21 => ⟨S50000x160, .f32⟩
  | 22 => ⟨S50000x10x16, .f32⟩
  | 23 => ⟨S50000x10x16, .f32⟩
  | 24 => ⟨S_, .f32⟩
  | 25 => ⟨S50000x10, .f32⟩
  | 26 => ⟨S50000x10x1, .f32⟩
  | 27 => ⟨S50000x10x1, .f32⟩
  | 28 => ⟨S_, .f32⟩
  | 29 => ⟨S50000x10x1, .f32⟩
  | 30 => ⟨S50000x10x1, .f32⟩
  | 31 => ⟨S50000x10x16, .f32⟩
  | 32 => ⟨S50000x10x16, .f32⟩
  | 33 => ⟨S50000x160, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x160, .f32⟩
  | 43 => ⟨S800000x10x16, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x160, .f32⟩
  | 53 => ⟨S800000x10x16, .f32⟩
  | 54 => ⟨S800000x10x16, .f32⟩
  | 55 => ⟨S_, .f32⟩
  | 56 => ⟨S800000x10, .f32⟩
  | 57 => ⟨S_, .f32⟩
  | 58 => ⟨S800000x10, .f32⟩
  | 59 => ⟨S800000x10, .f32⟩
  | 60 => ⟨S_, .f32⟩
  | 61 => ⟨S800000, .f32⟩
  | 62 => ⟨S_, .f32⟩
  | 63 => ⟨S800000, .f32⟩
  | 64 => ⟨S800000, .f32⟩
  | 65 => ⟨S800000x1, .f32⟩
  | 66 => ⟨S800000x10, .f32⟩
  | 67 => ⟨S800000x10, .f32⟩
  | 68 => ⟨S800000x10, .f32⟩
  | 69 => ⟨S_, .f32⟩
  | 70 => ⟨S800000, .f32⟩
  | 71 => ⟨S800000x1, .f32⟩
  | 72 => ⟨S800000x10, .f32⟩
  | 73 => ⟨S800000x10, .f32⟩
  | 74 => ⟨S800000x10x1, .f32⟩
  | 75 => ⟨S800000x10x16, .f32⟩
  | 76 => ⟨S800000x10x16, .f32⟩
  | 77 => ⟨S800000x160, .f32⟩
  | 78 => ⟨S_, .f32⟩
  | 79 => ⟨S50000x160, .f32⟩
  | 80 => ⟨S800000x1, .i32⟩
  | 81 => ⟨S50000x160, .f32⟩
  | 82 => ⟨S50000x160, .f32⟩
  | 83 => ⟨S50000x10x16, .f32⟩
  | 84 => ⟨S50000x10x16, .f32⟩
  | 85 => ⟨S_, .f32⟩
  | 86 => ⟨S50000x10, .f32⟩
  | 87 => ⟨S50000x10x1, .f32⟩
  | 88 => ⟨S50000x10x1, .f32⟩
  | 89 => ⟨S_, .f32⟩
  | 90 => ⟨S50000x10x1, .f32⟩
  | 91 => ⟨S50000x10x1, .f32⟩
  | 92 => ⟨S50000x10x16, .f32⟩
  | 93 => ⟨S50000x10x16, .f32⟩
  | 94 => ⟨S50000x160, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x160, .f32⟩
  | 104 => ⟨S800000x10x16, .f32⟩
  | 105 => ⟨S800000x10x16, .f32⟩
  | 106 => ⟨S_, .f32⟩
  | 107 => ⟨S800000x10, .f32⟩
  | 108 => ⟨S_, .f32⟩
  | 109 => ⟨S800000x10, .f32⟩
  | 110 => ⟨S800000x10, .f32⟩
  | 111 => ⟨S_, .f32⟩
  | 112 => ⟨S800000, .f32⟩
  | 113 => ⟨S_, .f32⟩
  | 114 => ⟨S800000, .f32⟩
  | 115 => ⟨S800000, .f32⟩
  | 116 => ⟨S800000x1, .f32⟩
  | 117 => ⟨S800000x10, .f32⟩
  | 118 => ⟨S800000x10, .f32⟩
  | 119 => ⟨S800000x10, .f32⟩
  | 120 => ⟨S_, .f32⟩
  | 121 => ⟨S800000, .f32⟩
  | 122 => ⟨S800000x1, .f32⟩
  | 123 => ⟨S800000x10, .f32⟩
  | 124 => ⟨S800000x10, .f32⟩
  | 125 => ⟨S800000x10x1, .f32⟩
  | 126 => ⟨S800000x10x16, .f32⟩
  | 127 => ⟨S800000x10x16, .f32⟩
  | _ => ⟨S50000x500, .f32⟩

abbrev hbmTy0_1 (i : Nat) : BufTy := match i % 128 with
  | 0 => ⟨S800000x160, .f32⟩
  | 1 => ⟨S_, .f32⟩
  | 2 => ⟨S50000x160, .f32⟩
  | 3 => ⟨S800000x1, .i32⟩
  | 4 => ⟨S50000x160, .f32⟩
  | 5 => ⟨S50000x160, .f32⟩
  | 6 => ⟨S50000x10x16, .f32⟩
  | 7 => ⟨S50000x10x16, .f32⟩
  | 8 => ⟨S_, .f32⟩
  | 9 => ⟨S50000x10, .f32⟩
  | 10 => ⟨S50000x10x1, .f32⟩
  | 11 => ⟨S50000x10x1, .f32⟩
  | 12 => ⟨S_, .f32⟩
  | 13 => ⟨S50000x10x1, .f32⟩
  | 14 => ⟨S50000x10x1, .f32⟩
  | 15 => ⟨S50000x10x16, .f32⟩
  | 16 => ⟨S50000x10x16, .f32⟩
  | 17 => ⟨S50000x160, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x160, .f32⟩
  | 27 => ⟨S800000x10x16, .f32⟩
  | 28 => ⟨S800000x10x16, .f32⟩
  | 29 => ⟨S_, .f32⟩
  | 30 => ⟨S800000x10, .f32⟩
  | 31 => ⟨S_, .f32⟩
  | 32 => ⟨S800000x10, .f32⟩
  | 33 => ⟨S800000x10, .f32⟩
  | 34 => ⟨S_, .f32⟩
  | 35 => ⟨S800000, .f32⟩
  | 36 => ⟨S_, .f32⟩
  | 37 => ⟨S800000, .f32⟩
  | 38 => ⟨S800000, .f32⟩
  | 39 => ⟨S800000x1, .f32⟩
  | 40 => ⟨S800000x10, .f32⟩
  | 41 => ⟨S800000x10, .f32⟩
  | 42 => ⟨S800000x10, .f32⟩
  | 43 => ⟨S_, .f32⟩
  | 44 => ⟨S800000, .f32⟩
  | 45 => ⟨S800000x1, .f32⟩
  | 46 => ⟨S800000x10, .f32⟩
  | 47 => ⟨S800000x10, .f32⟩
  | 48 => ⟨S800000x10x1, .f32⟩
  | 49 => ⟨S800000x10x16, .f32⟩
  | 50 => ⟨S800000x10x16, .f32⟩
  | 51 => ⟨S800000x160, .f32⟩
  | 52 => ⟨S_, .f32⟩
  | 53 => ⟨S50000x160, .f32⟩
  | 54 => ⟨S800000x1, .i32⟩
  | 55 => ⟨S50000x160, .f32⟩
  | 56 => ⟨S50000x160, .f32⟩
  | 57 => ⟨S50000x10x16, .f32⟩
  | 58 => ⟨S50000x10x16, .f32⟩
  | 59 => ⟨S_, .f32⟩
  | 60 => ⟨S50000x10, .f32⟩
  | 61 => ⟨S50000x10x1, .f32⟩
  | 62 => ⟨S50000x10x1, .f32⟩
  | 63 => ⟨S_, .f32⟩
  | 64 => ⟨S50000x10x1, .f32⟩
  | 65 => ⟨S50000x10x1, .f32⟩
  | 66 => ⟨S50000x10x16, .f32⟩
  | 67 => ⟨S50000x10x16, .f32⟩
  | 68 => ⟨S50000x160, .f32⟩
  | 69 => ⟨S_, .f32⟩
  | 70 => ⟨S_, .f32⟩
  | 71 => ⟨S50000x160, .f32⟩
  | 72 => ⟨S50000x160, .i1⟩
  | 73 => ⟨S_, .f32⟩
  | 74 => ⟨S50000x160, .f32⟩
  | 75 => ⟨S50000x160, .f32⟩
  | 76 => ⟨S50000x160, .f32⟩
  | 77 => ⟨S50000x40, .f32⟩
  | 78 => ⟨S1x40, .f32⟩
  | 79 => ⟨S50000x40, .f32⟩
  | 80 => ⟨S50000x40, .f32⟩
  | _ => ⟨S50000x500, .f32⟩

abbrev hbmTy (i : Nat) : BufTy := match i / 128 with
  | 0 => hbmTy0_0 i
  | 1 => hbmTy0_1 i
  | _ => ⟨S50000x500, .f32⟩

abbrev bufTy : (tb : Table) → Fin (tcTables nBuf tb) → BufTy
  | .hbm, ⟨i, _⟩ => hbmTy i
  | _, _ => ⟨S50000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_c_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_cst_16 : Ref sig .tc := ⟨.hbm, 108, rfl⟩
abbrev main_v78 : Ref sig .tc := ⟨.hbm, 109, rfl⟩
abbrev main_v79 : Ref sig .tc := ⟨.hbm, 110, rfl⟩
abbrev main_cst_17 : Ref sig .tc := ⟨.hbm, 111, rfl⟩
abbrev main_v80 : Ref sig .tc := ⟨.hbm, 112, rfl⟩
abbrev main_cst_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_20 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_21 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_22 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_23 : Ref sig .tc := ⟨.hbm, 146, rfl⟩
abbrev main_v109 : Ref sig .tc := ⟨.hbm, 147, rfl⟩
abbrev main_v110 : Ref sig .tc := ⟨.hbm, 148, rfl⟩
abbrev main_c_24 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_25 : Ref sig .tc := ⟨.hbm, 157, rfl⟩
abbrev main_v118 : Ref sig .tc := ⟨.hbm, 158, rfl⟩
abbrev main_cst_26 : Ref sig .tc := ⟨.hbm, 159, rfl⟩
abbrev main_v119 : Ref sig .tc := ⟨.hbm, 160, rfl⟩
abbrev main_v120 : Ref sig .tc := ⟨.hbm, 161, rfl⟩
abbrev main_cst_27 : Ref sig .tc := ⟨.hbm, 162, rfl⟩
abbrev main_v121 : Ref sig .tc := ⟨.hbm, 163, rfl⟩
abbrev main_cst_28 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_29 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_30 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_31 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_32 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_cst_33 : Ref sig .tc := ⟨.hbm, 197, rfl⟩
abbrev main_call1_cst : Ref sig .tc := ⟨.hbm, 198, rfl⟩
abbrev main_call1_v0 : Ref sig .tc := ⟨.hbm, 199, rfl⟩
abbrev main_call1_v1 : Ref sig .tc := ⟨.hbm, 200, rfl⟩
abbrev main_call1_v2 : Ref sig .tc := ⟨.hbm, 201, rfl⟩
abbrev main_call1_v3 : Ref sig .tc := ⟨.hbm, 202, rfl⟩
abbrev main_call1_v4 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S160_S1x160_1 : S160.BroadcastsInDim S1x160 (![1] : Fin 1 → Fin S1x160.rank)
  bcast_S1x160_S50000x160_0_1 : S1x160.BroadcastsInDim S50000x160 (![0, 1] : Fin 2 → Fin S50000x160.rank)
  bcast_S_S50000x160 : S_.BroadcastsInDim S50000x160 (![] : Fin 0 → Fin S50000x160.rank)
  shapeCasts_S50000x160_S50000x10x16 : S50000x160.ShapeCasts S50000x10x16
  reducesTo_S50000x10x16_S50000x10_d2 : S50000x10x16.ReducesTo [2] S50000x10
  h_S_ : 0 < S_.numel
  bcast_S50000x10_S50000x10x1_0_1 : S50000x10.BroadcastsInDim S50000x10x1 (![0, 1] : Fin 2 → Fin S50000x10x1.rank)
  bcast_S_S50000x10x1 : S_.BroadcastsInDim S50000x10x1 (![] : Fin 0 → Fin S50000x10x1.rank)
  bcast_S50000x10x1_S50000x10x16_0_1_2 : S50000x10x1.BroadcastsInDim S50000x10x16 (![0, 1, 2] : Fin 3 → Fin S50000x10x16.rank)
  shapeCasts_S50000x10x16_S50000x160 : S50000x10x16.ShapeCasts S50000x160
  bcast_S_S800000 : S_.BroadcastsInDim S800000 (![] : Fin 0 → Fin S800000.rank)
  bcast_S800000_S800000x1_0 : S800000.BroadcastsInDim S800000x1 (![0] : Fin 1 → Fin S800000x1.rank)
  shapeCasts_S800000x160_S800000x10x16 : S800000x160.ShapeCasts S800000x10x16
  reducesTo_S800000x10x16_S800000x10_d2 : S800000x10x16.ReducesTo [2] S800000x10
  bcast_S_S800000x10 : S_.BroadcastsInDim S800000x10 (![] : Fin 0 → Fin S800000x10.rank)
  reducesTo_S800000x10_S800000_d1 : S800000x10.ReducesTo [1] S800000
  bcast_S800000x1_S800000x10_0_1 : S800000x1.BroadcastsInDim S800000x10 (![0, 1] : Fin 2 → Fin S800000x10.rank)
  bcast_S800000x10_S800000x10x1_0_1 : S800000x10.BroadcastsInDim S800000x10x1 (![0, 1] : Fin 2 → Fin S800000x10x1.rank)
  bcast_S800000x10x1_S800000x10x16_0_1_2 : S800000x10x1.BroadcastsInDim S800000x10x16 (![0, 1, 2] : Fin 3 → Fin S800000x10x16.rank)
  shapeCasts_S800000x10x16_S800000x160 : S800000x10x16.ShapeCasts S800000x160
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x500_S500x160_S50000x160_1_0_0_1_n_n_wf : DotDims.WF S50000x500 S500x160 S50000x160 [1] [0] [0] [1] [] []
  gather_S50000x160_S800000x1_S800000x160_1_0_n_n_0_1_1160_wf : GatherDims.WF S50000x160 S800000x1 S800000x160 [1] [0] [] [0] [] 1 ![1, 160]
  scatter_S50000x160_S800000x1_S800000x160_1_0_0_1_wf : ScatterDims.WF S50000x160 S800000x1 S800000x160 [1] [0] [0] 1
  dot_S50000x160_S160x40_S50000x40_1_0_0_1_n_n_wf : DotDims.WF S50000x160 S160x40 S50000x40 [1] [0] [0] [1] [] []

variable [Facts₀]

def dot_S50000x500_S500x160_S50000x160_1_0_0_1_n_n : DotDims S50000x500 S500x160 S50000x160 where
  lhsContracting := [1]
  rhsContracting := [0]
  lhsNonContracting := [0]
  rhsNonContracting := [1]
  lhsBatch := []
  rhsBatch := []
  wf := dot_S50000x500_S500x160_S50000x160_1_0_0_1_n_n_wf
def gather_S50000x160_S800000x1_S800000x160_1_0_n_n_0_1_1160 : GatherDims S50000x160 S800000x1 S800000x160 where
  offsetDims := [1]
  collapsedSliceDims := [0]
  operandBatchingDims := []
  startIndicesBatchingDims := []
  startIndexMap := [0]
  indexVectorDim := 1
  sliceSizes := ![1, 160]
  wf := gather_S50000x160_S800000x1_S800000x160_1_0_n_n_0_1_1160_wf
def scatter_S50000x160_S800000x1_S800000x160_1_0_0_1 : ScatterDims S50000x160 S800000x1 S800000x160 where
  updateWindowDims := [1]
  insertedWindowDims := [0]
  scatterDimsToOperandDims := [0]
  indexVectorDim := 1
  wf := scatter_S50000x160_S800000x1_S800000x160_1_0_0_1_wf
def dot_S50000x160_S160x40_S50000x40_1_0_0_1_n_n : DotDims S50000x160 S160x40 S50000x40 where
  lhsContracting := [1]
  rhsContracting := [0]
  lhsNonContracting := [0]
  rhsNonContracting := [1]
  lhsBatch := []
  rhsBatch := []
  wf := dot_S50000x160_S160x40_S50000x40_1_0_0_1_n_n_wf

class Facts : Prop extends Facts₀ where

variable [Facts]
-- ==== Proof.KRun.lean ====
/-
  The tiled program's run with its result named: every weakly fair execution ends, and the result buffer then holds what
  the fold of buffer contents through the program's fourteen segments (seven stretches of host operations, seven tiled
  regions) leaves there; the six arguments end as launched. The fold's last valuation is the one the segments' thread
  state holds every unscoped buffer at, so the result is read off exactly as the arguments are.
-/
import proofs.«157490_j26834955665983_2_alg».proof.Proof.PatchedKernelIdealFrame

set_option maxRecDepth 16384

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v48) = W14 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v48 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c)⟩)

end Cert.KernelIdeal.KRun

end
-- ==== Proof.FoldWalk.lean ====
/-
  Reading a buffer at a boundary of the tiled program's run. The run's buffer contents are a fold through fourteen segments:
  a stretch of host operations leaves every buffer it does not write as it was and each buffer it writes at the operation's
  value; a tiled region leaves every buffer that is not one of its arrays as it was, an array it only reads as it was, and
  an output array at what its write-backs leave. The lemmas below are the "as it was" steps, one per region and buffer that
  a later segment still reads; with the library's results of the host operations they evaluate any buffer at any boundary
  down to the launch memory and the regions' output arrays (tactic `fold_eval`).
-/
import proofs.«157490_j26834955665983_2_alg».proof.Proof.PatchedKernelIdealFrame
import Idealize.ShloMosaic.Lib.StableHlo.Run
import Idealize.ShloMosaic.PureOps.Ideal

set_option maxRecDepth 16384

noncomputable section

namespace Cert.KernelIdeal.Fold

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## A region leaves a buffer that is none of its arrays as it was -/

theorem W2_skip (b : Ref sig .tc) (hb : ∀ w, Pipeline.arrRef spec0 w ≠ b) :
    W2 m ρ c (no_index (Proc.devRef .tc b)) = W1 m ρ c (Proc.devRef .tc b) := W2_of_ne m ρ c b hb
theorem W4_skip (b : Ref sig .tc) (hb : ∀ w, Pipeline.arrRef spec1 w ≠ b) :
    W4 m ρ c (no_index (Proc.devRef .tc b)) = W3 m ρ c (Proc.devRef .tc b) := W4_of_ne m ρ c b hb
theorem W6_skip (b : Ref sig .tc) (hb : ∀ w, Pipeline.arrRef spec2 w ≠ b) :
    W6 m ρ c (no_index (Proc.devRef .tc b)) = W5 m ρ c (Proc.devRef .tc b) := W6_of_ne m ρ c b hb
theorem W8_skip (b : Ref sig .tc) (hb : ∀ w, Pipeline.arrRef spec3 w ≠ b) :
    W8 m ρ c (no_index (Proc.devRef .tc b)) = W7 m ρ c (Proc.devRef .tc b) := W8_of_ne m ρ c b hb
theorem W10_skip (b : Ref sig .tc) (hb : ∀ w, Pipeline.arrRef spec4 w ≠ b) :
    W10 m ρ c (no_index (Proc.devRef .tc b)) = W9 m ρ c (Proc.devRef .tc b) := W10_of_ne m ρ c b hb
theorem W12_skip (b : Ref sig .tc) (hb : ∀ w, Pipeline.arrRef spec5 w ≠ b) :
    W12 m ρ c (no_index (Proc.devRef .tc b)) = W11 m ρ c (Proc.devRef .tc b) := W12_of_ne m ρ c b hb

/-! ## A region leaves an array it only reads as it was -/

theorem W2_cst : W2 m ρ c (no_index (Proc.devRef .tc main_cst)) = W1 m ρ c (Proc.devRef .tc main_cst) :=
  (W2_arr m ρ c 3).trans (((dat0 (V1 m ρ) c).arrAt_in 3 rfl _).trans (A_eq0 (V1 m ρ) c 3))
theorem W2_v0 : W2 m ρ c (no_index (Proc.devRef .tc main_v0)) = W1 m ρ c (Proc.devRef .tc main_v0) :=
  (W2_arr m ρ c 4).trans (((dat0 (V1 m ρ) c).arrAt_in 4 rfl _).trans (A_eq0 (V1 m ρ) c 4))
theorem W4_v12 : W4 m ρ c (no_index (Proc.devRef .tc main_v12)) = W3 m ρ c (Proc.devRef .tc main_v12) :=
  (W4_arr m ρ c 0).trans (((dat1 (V3 m ρ) c).arrAt_in 0 rfl _).trans (A_eq1 (V3 m ρ) c 0))
theorem W4_cst : W4 m ρ c (no_index (Proc.devRef .tc main_cst)) = W3 m ρ c (Proc.devRef .tc main_cst) :=
  (W4_arr m ρ c 2).trans (((dat1 (V3 m ρ) c).arrAt_in 2 rfl _).trans (A_eq1 (V3 m ρ) c 2))
theorem W4_v0 : W4 m ρ c (no_index (Proc.devRef .tc main_v0)) = W3 m ρ c (Proc.devRef .tc main_v0) :=
  (W4_arr m ρ c 3).trans (((dat1 (V3 m ρ) c).arrAt_in 3 rfl _).trans (A_eq1 (V3 m ρ) c 3))
theorem W6_v5 : W6 m ρ c (no_index (Proc.devRef .tc main_v5)) = W5 m ρ c (Proc.devRef .tc main_v5) :=
  (W6_arr m ρ c 1).trans (((dat2 (V5 m ρ) c).arrAt_in 1 rfl _).trans (A_eq2 (V5 m ρ) c 1))
theorem W6_cst : W6 m ρ c (no_index (Proc.devRef .tc main_cst)) = W5 m ρ c (Proc.devRef .tc main_cst) :=
  (W6_arr m ρ c 2).trans (((dat2 (V5 m ρ) c).arrAt_in 2 rfl _).trans (A_eq2 (V5 m ρ) c 2))
theorem W6_v0 : W6 m ρ c (no_index (Proc.devRef .tc main_v0)) = W5 m ρ c (Proc.devRef .tc main_v0) :=
  (W6_arr m ρ c 3).trans (((dat2 (V5 m ρ) c).arrAt_in 3 rfl _).trans (A_eq2 (V5 m ρ) c 3))
theorem W8_v12 : W8 m ρ c (no_index (Proc.devRef .tc main_v12)) = W7 m ρ c (Proc.devRef .tc main_v12) :=
  (W8_arr m ρ c 0).trans (((dat3 (V7 m ρ) c).arrAt_in 0 rfl _).trans (A_eq3 (V7 m ρ) c 0))
theorem W8_cst : W8 m ρ c (no_index (Proc.devRef .tc main_cst)) = W7 m ρ c (Proc.devRef .tc main_cst) :=
  (W8_arr m ρ c 2).trans (((dat3 (V7 m ρ) c).arrAt_in 2 rfl _).trans (A_eq3 (V7 m ρ) c 2))
theorem W8_v0 : W8 m ρ c (no_index (Proc.devRef .tc main_v0)) = W7 m ρ c (Proc.devRef .tc main_v0) :=
  (W8_arr m ρ c 3).trans (((dat3 (V7 m ρ) c).arrAt_in 3 rfl _).trans (A_eq3 (V7 m ρ) c 3))
theorem W10_v5 : W10 m ρ c (no_index (Proc.devRef .tc main_v5)) = W9 m ρ c (Proc.devRef .tc main_v5) :=
  (W10_arr m ρ c 1).trans (((dat4 (V9 m ρ) c).arrAt_in 1 rfl _).trans (A_eq4 (V9 m ρ) c 1))
theorem W10_cst : W10 m ρ c (no_index (Proc.devRef .tc main_cst)) = W9 m ρ c (Proc.devRef .tc main_cst) :=
  (W10_arr m ρ c 2).trans (((dat4 (V9 m ρ) c).arrAt_in 2 rfl _).trans (A_eq4 (V9 m ρ) c 2))
theorem W10_v0 : W10 m ρ c (no_index (Proc.devRef .tc main_v0)) = W9 m ρ c (Proc.devRef .tc main_v0) :=
  (W10_arr m ρ c 3).trans (((dat4 (V9 m ρ) c).arrAt_in 3 rfl _).trans (A_eq4 (V9 m ρ) c 3))
theorem W12_cst : W12 m ρ c (no_index (Proc.devRef .tc main_cst)) = W11 m ρ c (Proc.devRef .tc main_cst) :=
  (W12_arr m ρ c 2).trans (((dat5 (V11 m ρ) c).arrAt_in 2 rfl _).trans (A_eq5 (V11 m ρ) c 2))
theorem W12_v0 : W12 m ρ c (no_index (Proc.devRef .tc main_v0)) = W11 m ρ c (Proc.devRef .tc main_v0) :=
  (W12_arr m ρ c 3).trans (((dat5 (V11 m ρ) c).arrAt_in 3 rfl _).trans (A_eq5 (V11 m ρ) c 3))

/-- Evaluates a buffer at a boundary: unfolds the host stretches, takes each host operation's value at the buffer it writes
    and passes every other buffer through, passes regions by the lemmas above, and stops at a region's output array and at
    the launch memory. -/
macro "fold_eval" : tactic =>
  `(tactic| simp (disch := decide) only [W13, W11, W9, W7, W5, W3, W1, W0, V13, V11, V9, V7, V5, V3, V1,
      hostOps6, hostOps5, hostOps4, hostOps3, hostOps2, hostOps1, hostOps0,
      W2_skip, W4_skip, W6_skip, W8_skip, W10_skip, W12_skip,
      W2_cst, W2_v0, W4_v12, W4_cst, W4_v0, W6_v5, W6_cst, W6_v0, W8_v12, W8_cst, W8_v0, W10_v5, W10_cst, W10_v0, W12_cst, W12_v0,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

end Cert.KernelIdeal.Fold

end
-- ==== Proof.Spec.lean ====
/-
  The mathematics both programs compute, stated once, row by row, on the extended reals.

  A node carries 160 features in 10 factor groups of 16 consecutive features. The network is:
  an affine layer and a leaky rectifier; a normalisation of every factor group to Euclidean length one (with a floor on
  the length); three rounds of routing, in each of which every edge weighs its source node's features, group by group,
  by the softmax over the groups of the agreement (the inner product, group by group) between the source's features and
  the current features of its target, the weighted features are summed into the targets, the node's own normalised
  features are added and the result is normalised again; at the end a leaky rectifier and an affine classifier.

  Every stage acts on a row at a time (a node's or an edge's 160 numbers), so each is stated as a function of rows, and
  lifted to arrays of any number of rows: the same function then describes a block of rows and the whole array.
  The float words are kept as words (`Ideal.ofBits`): both programs spell the same ones.
-/
import Idealize.ShloMosaic.PureOps.Ideal
import Idealize.ShloMosaic.Lib.ValueIdx

noncomputable section

namespace Cert.Routing

open Idealize.ShloMosaic Idealize.ShloMosaic.ValueIdx

/-! ## Factor groups -/

/-- Feature `l` of factor group `j`: groups are runs of 16 consecutive features. -/
def feat (j : Fin 10) (l : Fin 16) : Fin 160 := ⟨16 * j.val + l.val, by omega⟩

/-- The factor group a feature belongs to. -/
def grp (i : Fin 160) : Fin 10 := ⟨i.val / 16, by omega⟩

theorem grp_feat (j : Fin 10) (l : Fin 16) : grp (feat j l) = j := by
  apply Fin.ext; show (16 * j.val + l.val) / 16 = j.val; omega

/-! ## The constants, as the words both programs spell -/

/-- The floor on a group's length: the f32 word nearest 1e-12. -/
def eps : EReal := Ideal.ofBits .f32 0x2B8CBCCC#32
/-- The rectifier's slope on the negative side: the f32 word nearest 0.01. -/
def slope : EReal := Ideal.ofBits .f32 0x3C23D70A#32
/-- The temperature the agreements are divided by: the f32 word of 1. -/
def one : EReal := Ideal.ofBits .f32 0x3F800000#32
/-- The value a row's maximum starts from: the f32 word of minus infinity. -/
def negInf : EReal := Ideal.ofBits .f32 0xFF800000#32

/-! ## The stages on a row -/

/-- The leaky rectifier: `v` where `v ≥ 0`, `slope · v` elsewhere. -/
def leaky (v : EReal) : EReal := Scalar.select (Ideal.cmp .oge v 0) v (slope * v)

/-- An affine layer at output `n`: the inner product of the row with column `n` of the weights, plus the bias. -/
def affine {K N : Nat} (x : Fin K → EReal) (w : Fin K → Fin N → EReal) (b : Fin N → EReal) (n : Fin N) : EReal :=
  (∑ k : Fin K, x k * w k n) + b n

/-- The squared length of factor group `j` of a row. -/
def normSq (h : Fin 160 → EReal) (j : Fin 10) : EReal := ∑ l : Fin 16, h (feat j l) * h (feat j l)

/-- The length of factor group `j`, floored at `eps`. -/
def norm (h : Fin 160 → EReal) (j : Fin 10) : EReal := max (Ideal.sqrt (normSq h j)) eps

/-- A row with every factor group divided by its floored length. -/
def normalize (h : Fin 160 → EReal) (i : Fin 160) : EReal := Ideal.div (h i) (norm h (grp i))

/-- The agreement of two rows on factor group `j`: their inner product there, over the temperature. -/
def score (z u : Fin 160 → EReal) (j : Fin 10) : EReal := Ideal.div (∑ l : Fin 16, z (feat j l) * u (feat j l)) one

/-- The largest of ten agreements (started from, and once more compared with, minus infinity, as both programs do). -/
def top (s : Fin 10 → EReal) : EReal := max negInf ((Finset.univ : Finset (Fin 10)).fold max negInf s)

/-- The softmax of ten agreements, shifted by the largest. -/
def softmax (s : Fin 10 → EReal) (j : Fin 10) : EReal :=
  Ideal.div (Ideal.exp (s j - top s)) (∑ j' : Fin 10, Ideal.exp (s j' - top s))

/-- An edge's message: the source row `z`, each factor group weighed by the softmax of its agreements with `u`. -/
def message (z u : Fin 160 → EReal) (i : Fin 160) : EReal := z i * softmax (score z u) (grp i)

/-! ## The group matrix

The tiled program sums and spreads over factor groups by multiplying with the 0/1 matrix `gmat` and its transpose. -/

/-- Entry (i, j) is one when feature `i` lies in group `j`, zero otherwise (as f32 words). -/
def gmat (i : Fin 160) (j : Fin 10) : EReal :=
  Ideal.ofBits .f32 (if i.val / 16 = j.val then 0x3F800000#32 else 0x00000000#32)

/-! ## Arrays of rows -/

/-- A two-dimensional array of extended reals with `n` rows of `d` entries. -/
abbrev Mat (n d : Nat) : Type := (⟨2, ![n, d]⟩ : Shape).Idx → EReal
/-- A one-dimensional array of `d` extended reals. -/
abbrev Arr (d : Nat) : Type := (⟨1, ![d]⟩ : Shape).Idx → EReal

/-- Row `r` of an array. -/
def rowOf {n d : Nat} (a : Mat n d) (r : Fin n) : Fin d → EReal := fun i => a (ix2 r i)
/-- An array's entries by coordinates. -/
def ent {n d : Nat} (a : Mat n d) (k : Fin n) (j : Fin d) : EReal := a (ix2 k j)
/-- A one-dimensional array's entries. -/
def ent1 {d : Nat} (b : Arr d) (j : Fin d) : EReal := b (ix1 j)

/-- The first layer and the first normalisation, row by row: `normalize (leaky (x · w + b))`. -/
def embedArr {n : Nat} (x : Mat n 500) (w : Mat 500 160) (b : Arr 160) : Mat n 160 :=
  fun idx => normalize (fun i => leaky (affine (rowOf x (idx 0)) (ent w) (ent1 b) i)) (idx 1)

/-- The messages of all edges: row `e` is `message (z row e) (u row e)`. -/
def messageArr {n : Nat} (z u : Mat n 160) : Mat n 160 :=
  fun idx => message (rowOf z (idx 0)) (rowOf u (idx 0)) (idx 1)

/-- A routing round's update: the summed messages plus the node's own normalised features, normalised again. -/
def renormArr {n : Nat} (agg xn : Mat n 160) : Mat n 160 :=
  fun idx => normalize (fun i => rowOf agg (idx 0) i + rowOf xn (idx 0) i) (idx 1)

/-- The last round's update followed by the rectifier and the classifier. -/
def classifyArr {n : Nat} (agg xn : Mat n 160) (w : Mat 160 40) (b : Arr 40) : Mat n 40 :=
  fun idx => affine (fun i => leaky (normalize (fun i' => rowOf agg (idx 0) i' + rowOf xn (idx 0) i') i)) (ent w) (ent1 b) (idx 1)

end Cert.Routing

end
-- ==== Proof.GroupTable.lean ====
/-
  The tiled program's dense 160 x 10 constant IS the group matrix: its word at row-major position `k` is the word of one
  exactly when feature `k / 10` lies in group `k % 10` (decided over the 1600 entries), and position `10 i + j` is entry
  `(i, j)`; and the host's transpose of it reads entry `(i, j)` at `(j, i)`.
-/
import proofs.«157490_j26834955665983_2_alg».proof.KernelIdeal
import proofs.«157490_j26834955665983_2_alg».proof.Proof.Spec
import Idealize.ShloMosaic.Lib.ValueLayout

noncomputable section

namespace Cert.KernelIdeal.GroupTable

open Cert.KernelIdeal Cert.Routing Idealize.ShloMosaic Idealize.ShloMosaic.ValueIdx

/-- The 1600 words, one by one. -/
theorem lit0_eq : ∀ k : Fin 1600,
    lit0 k = if k.val / 10 / 16 = k.val % 10 then 0x3F800000#32 else 0x00000000#32 := by
  decide +kernel

/-- Entry `(i, j)` of the constant is the group matrix's. -/
theorem table_eq (i : Fin 160) (j : Fin 10) :
    Ideal.ofBits .f32 (lit0 (S160x10.rowMajor (ix2 i j))) = gmat i j := by
  have hv : (S160x10.rowMajor (ix2 i j)).val = i.val * 10 + j.val := Shape.rowMajor_val_two (ix2 i j)
  have hi := i.isLt
  have hj := j.isLt
  have h1 : (i.val * 10 + j.val) / 10 / 16 = i.val / 16 := by omega
  have h2 : (i.val * 10 + j.val) % 10 = j.val := by omega
  have h := lit0_eq (S160x10.rowMajor (ix2 i j))
  rw [hv, h1, h2] at h
  exact congrArg (Ideal.ofBits .f32) h

end Cert.KernelIdeal.GroupTable

end
-- ==== Proof.RegionEmbed0.lean ====
/-
  Tiled region 0 (the first layer and the first normalisation), whatever the buffers hold when it is entered: after it, the
  region's output array is the embedding function of its three input arrays, row by row. Point `t` of the 25 works on nodes
  2000 t … 2000 t + 1999: its block of the features and of the output are those rows, its blocks of the weights, of the bias,
  of the group matrix and of its transpose are the whole arrays; what it writes back is the embedding function of its
  input blocks (the hypothesis `hpay` about the body's arithmetic), which is the block of the embedding function of the
  whole arrays because the function acts on a row at a time; and the 25 blocks cover the output array.
-/
import proofs.«157490_j26834955665983_2_alg».proof.Proof.PatchedKernelIdealFrame
import proofs.«157490_j26834955665983_2_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Cert.KernelIdeal.GenP Cert.Routing
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros0 : (![0, 0] : Fin 2 → Nat) = fun _ => 0 := funext fun a => by fin_cases a <;> rfl
theorem zeros0' : (![0] : Fin 1 → Nat) = fun _ => 0 := funext fun a => by fin_cases a; rfl

/-- The index maps over the grid: the node windows follow the point, the others stay at block 0. -/
theorem idx0 : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 1) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0 :=
  (by decide +kernel : ∀ t : Fin grid0.N, _)

/-- What point `t` writes back is block `t` of the embedding function of the whole input arrays. -/
theorem flushed0 (c : Dev nD)
    (hpay : ∀ (x : Vec Ideal S2000x500 .f32) (w : Vec Ideal S500x160 .f32) (b : Vec Ideal S160 .f32) (g : Vec Ideal S160x10 .f32) (gt : Vec Ideal S10x160 .f32),
      (∀ (i : Fin 160) (j : Fin 10), g (ix2 i j) = gmat i j) → (∀ (j : Fin 10) (i : Fin 160), gt (ix2 j i) = gmat i j) →
      k0_pay1 (F := Ideal) x w b g gt = embedArr x w b)
    (hg : ∀ (i : Fin 160) (j : Fin 10), (V c main_cst : S160x10.Idx → EReal) (ix2 i j) = gmat i j)
    (hgt : ∀ (j : Fin 10) (i : Fin 160), (V c main_v0 : S10x160.Idx → EReal) (ix2 j i) = gmat i j) (t : Fin cfg0.N) :
    (dat0 V c).flushed 5 t = ((cfg0.win 5).blk t).view.read (Elt Ideal)
      (embedArr (n := 50000) (V c main_arg0 : S50000x500.Idx → EReal) (V c main_arg2 : S500x160.Idx → EReal)
        (V c main_arg3 : S160.Idx → EReal)) := by
  show (cfg0.win 5).cut (grid0.coords t) ((dat0 V c).after 5 t) = _
  rw [after0_5]
  unfold out0_5
  rw [View.canon_unit_zero zeros0]
  simp only [View.ld_unit_zero (S := S2000x500) zeros0, View.ld_unit_zero (S := S500x160) zeros0,
    View.ld_unit_zero (S := S160) zeros0', View.ld_unit_zero (S := S160x10) zeros0, View.ld_unit_zero (S := S10x160) zeros0]
  obtain ⟨e00, e01, e10, e11, e20, e30, e31, e40, e41, e50, e51⟩ := idx0 t
  have hg' : ∀ (i : Fin 160) (j : Fin 10), iblk0 V c 3 t (ix2 i j) = gmat i j := by
    intro i j
    show (V c main_cst : S160x10.Idx → EReal) (((cfg0.win 3).blk t).view.emb (ix2 i j)) = _
    have e : ((cfg0.win 3).blk t).view.emb (ix2 i j) = ix2 i j := by
      funext a; apply Fin.ext
      match a with
      | ⟨0, _⟩ => show win0_3.index t (0 : Fin 2) * 160 + 1 * i.val = i.val; omega
      | ⟨1, _⟩ => show win0_3.index t (1 : Fin 2) * 10 + 1 * j.val = j.val; omega
    rw [e]; exact hg i j
  have hgt' : ∀ (j : Fin 10) (i : Fin 160), iblk0 V c 4 t (ix2 j i) = gmat i j := by
    intro j i
    show (V c main_v0 : S10x160.Idx → EReal) (((cfg0.win 4).blk t).view.emb (ix2 j i)) = _
    have e : ((cfg0.win 4).blk t).view.emb (ix2 j i) = ix2 j i := by
      funext a; apply Fin.ext
      match a with
      | ⟨0, _⟩ => show win0_4.index t (0 : Fin 2) * 10 + 1 * j.val = j.val; omega
      | ⟨1, _⟩ => show win0_4.index t (1 : Fin 2) * 160 + 1 * i.val = i.val; omega
    rw [e]; exact hgt j i
  rw [hpay (iblk0 V c 0 t) (iblk0 V c 1 t) (iblk0 V c 2 t) (iblk0 V c 3 t) (iblk0 V c 4 t) hg' hgt']
  -- the blocks of the weights and of the bias are the whole arrays
  have hw : (iblk0 V c 1 t : S500x160.Idx → EReal) = (V c main_arg2 : S500x160.Idx → EReal) := by
    funext y
    show (V c main_arg2 : S500x160.Idx → EReal) (((cfg0.win 1).blk t).view.emb y) = (V c main_arg2 : S500x160.Idx → EReal) y
    congr 1
    funext a; apply Fin.ext
    match a with
    | ⟨0, _⟩ => show win0_1.index t (0 : Fin 2) * 500 + 1 * (y 0).val = (y 0).val; omega
    | ⟨1, _⟩ => show win0_1.index t (1 : Fin 2) * 160 + 1 * (y 1).val = (y 1).val; omega
  have hb : (iblk0 V c 2 t : S160.Idx → EReal) = (V c main_arg3 : S160.Idx → EReal) := by
    funext y
    show (V c main_arg3 : S160.Idx → EReal) (((cfg0.win 2).blk t).view.emb y) = (V c main_arg3 : S160.Idx → EReal) y
    congr 1
    funext a; apply Fin.ext
    match a with
    | ⟨0, _⟩ => show win0_2.index t (0 : Fin 1) * 160 + 1 * (y 0).val = (y 0).val; omega
  funext y
  show normalize (fun i => leaky (affine (rowOf (iblk0 V c 0 t) (y 0)) (ent (iblk0 V c 1 t : S500x160.Idx → EReal))
        (ent1 (iblk0 V c 2 t : S160.Idx → EReal)) i)) (y 1)
    = normalize (fun i => leaky (affine (rowOf (V c main_arg0 : S50000x500.Idx → EReal) ((((cfg0.win 5).blk t).view.emb y) 0))
        (ent (V c main_arg2 : S500x160.Idx → EReal)) (ent1 (V c main_arg3 : S160.Idx → EReal)) i)) ((((cfg0.win 5).blk t).view.emb y) 1)
  have r0 : rowOf (iblk0 V c 0 t) (y 0) = rowOf (V c main_arg0 : S50000x500.Idx → EReal) ((((cfg0.win 5).blk t).view.emb y) 0) := by
    funext i
    show (V c main_arg0 : S50000x500.Idx → EReal) (((cfg0.win 0).blk t).view.emb (ix2 (y 0) i))
      = (V c main_arg0 : S50000x500.Idx → EReal) (ix2 ((((cfg0.win 5).blk t).view.emb y) 0) i)
    congr 1
    funext a; apply Fin.ext
    match a with
    | ⟨0, _⟩ => show win0_0.index t (0 : Fin 2) * 2000 + 1 * (y 0).val = win0_5.index t (0 : Fin 2) * 2000 + 1 * (y 0).val; omega
    | ⟨1, _⟩ => show win0_0.index t (1 : Fin 2) * 500 + 1 * i.val = i.val; omega
  have c1 : ((((cfg0.win 5).blk t).view.emb y) 1 : Fin 160) = y 1 := by
    apply Fin.ext
    show win0_5.index t (1 : Fin 2) * 160 + 1 * (y 1).val = (y 1).val; omega
  rw [r0, hw, hb, c1]

/-- An index of the output array is in point `t`'s block iff each coordinate is in the block's range. -/
theorem mem_blk0 (t : Fin cfg0.N) (i : S50000x160.Idx) :
    i ∈ ((cfg0.win 5).blk t).view.set ↔ ∀ a : Fin 2, win0_5.index t a * S2000x160.size a ≤ (i a).val
      ∧ (i a).val < win0_5.index t a * S2000x160.size a + S2000x160.size a := by
  show i ∈ ((View.whole main_v5).slice (win0_5.rect t)).set ↔ _
  rw [View.set_slice_whole, Rect.mem_set_unit]
  exact Iff.rfl

/-- Every node row lies in the block of the point numbered by its thousands pair: row `r` in block `r / 2000`. -/
theorem cover0 (i : S50000x160.Idx) :
    ∃ t : Fin cfg0.N, (cfg0.win 5).flush t = true ∧ i ∈ ((cfg0.win 5).blk t).view.set := by
  have hi0 : (i 0).val < 50000 := (i 0).isLt
  have hi1 : (i 1).val < 160 := (i 1).isLt
  have hq : (i 0).val / 2000 < 25 := by omega
  obtain ⟨t, ht⟩ : ∃ t : Fin cfg0.N, t.val = (i 0).val / 2000 := ⟨⟨(i 0).val / 2000, hq⟩, rfl⟩
  obtain ⟨-, -, -, -, -, -, -, -, -, e50, e51⟩ := idx0 t
  refine ⟨t, flush0_5 t, ?_⟩
  rw [mem_blk0]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 160 ≤ (i 1).val ∧ (i 1).val < win0_5.index t (1 : Fin 2) * 160 + 160
    omega

/-- THE REGION: its output array ends as the embedding function of its input arrays as it found them. -/
theorem embedded0 (c : Dev nD)
    (hpay : ∀ (x : Vec Ideal S2000x500 .f32) (w : Vec Ideal S500x160 .f32) (b : Vec Ideal S160 .f32) (g : Vec Ideal S160x10 .f32) (gt : Vec Ideal S10x160 .f32),
      (∀ (i : Fin 160) (j : Fin 10), g (ix2 i j) = gmat i j) → (∀ (j : Fin 10) (i : Fin 160), gt (ix2 j i) = gmat i j) →
      k0_pay1 (F := Ideal) x w b g gt = embedArr x w b)
    (hg : ∀ (i : Fin 160) (j : Fin 10), (V c main_cst : S160x10.Idx → EReal) (ix2 i j) = gmat i j)
    (hgt : ∀ (j : Fin 10) (i : Fin 160), (V c main_v0 : S10x160.Idx → EReal) (ix2 j i) = gmat i j) :
    (dat0 V c).arrAt 5 cfg0.N
      = embedArr (n := 50000) (V c main_arg0 : S50000x500.Idx → EReal) (V c main_arg2 : S500x160.Idx → EReal) (V c main_arg3 : S160.Idx → EReal) :=
  (dat0 V c).arrAt_eq_of_cover 5 _ (fun t _ => flushed0 V c hpay hg hgt t) (cover0)

end Cert.KernelIdeal.Regions

end
-- ==== Proof.RegionMsg1.lean ====
/-
  Tiled region 1 (the routing messages), whatever the buffers hold when it is entered: after it, the region's output array
  is the message function of its two input arrays, row by row. Point `t` of the 400 works on edges 2000 t … 2000 t + 1999:
  its blocks of the two inputs and of the output are those rows, its blocks of the group matrix and of its transpose are
  the whole matrices; what it writes back is the message function of its two input blocks (the hypothesis `hpay` about the
  body's arithmetic), which is the block of the message function of the whole arrays because the function acts on a row at
  a time; and the 400 blocks cover the output array.
-/
import proofs.«157490_j26834955665983_2_alg».proof.Proof.PatchedKernelIdealFrame
import proofs.«157490_j26834955665983_2_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Cert.KernelIdeal.GenP Cert.Routing
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros1 : (![0, 0] : Fin 2 → Nat) = fun _ => 0 := funext fun a => by fin_cases a <;> rfl

/-- The index maps over the grid: the edge windows follow the point, the matrix windows stay at block (0, 0). -/
theorem idx1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = t.val ∧ win1_4.index t (1 : Fin 2) = 0 :=
  (by decide +kernel : ∀ t : Fin grid1.N, _)

/-- What point `t` writes back is block `t` of the message function of the whole input arrays. -/
theorem flushed1 (c : Dev nD)
    (hpay : ∀ (z u : Vec Ideal S2000x160 .f32) (g : Vec Ideal S160x10 .f32) (gt : Vec Ideal S10x160 .f32),
      (∀ (i : Fin 160) (j : Fin 10), g (ix2 i j) = gmat i j) → (∀ (j : Fin 10) (i : Fin 160), gt (ix2 j i) = gmat i j) →
      k1_pay1 (F := Ideal) z u g gt = messageArr z u)
    (hg : ∀ (i : Fin 160) (j : Fin 10), (V c main_cst : S160x10.Idx → EReal) (ix2 i j) = gmat i j)
    (hgt : ∀ (j : Fin 10) (i : Fin 160), (V c main_v0 : S10x160.Idx → EReal) (ix2 j i) = gmat i j) (t : Fin cfg1.N) :
    (dat1 V c).flushed 4 t = ((cfg1.win 4).blk t).view.read (Elt Ideal)
      (messageArr (n := 800000) (V c main_v12 : S800000x160.Idx → EReal) (V c main_v19 : S800000x160.Idx → EReal)) := by
  show (cfg1.win 4).cut (grid1.coords t) ((dat1 V c).after 4 t) = _
  rw [after1_4]
  unfold out1_4
  rw [View.canon_unit_zero zeros1]
  simp only [View.ld_unit_zero (S := S2000x160) zeros1, View.ld_unit_zero (S := S160x10) zeros1, View.ld_unit_zero (S := S10x160) zeros1]
  obtain ⟨e00, e01, e10, e11, e20, e21, e30, e31, e40, e41⟩ := idx1 t
  have hg' : ∀ (i : Fin 160) (j : Fin 10), iblk1 V c 2 t (ix2 i j) = gmat i j := by
    intro i j
    show (V c main_cst : S160x10.Idx → EReal) (((cfg1.win 2).blk t).view.emb (ix2 i j)) = _
    have e : ((cfg1.win 2).blk t).view.emb (ix2 i j) = ix2 i j := by
      funext a; apply Fin.ext
      match a with
      | ⟨0, _⟩ => show win1_2.index t (0 : Fin 2) * 160 + 1 * i.val = i.val; omega
      | ⟨1, _⟩ => show win1_2.index t (1 : Fin 2) * 10 + 1 * j.val = j.val; omega
    rw [e]; exact hg i j
  have hgt' : ∀ (j : Fin 10) (i : Fin 160), iblk1 V c 3 t (ix2 j i) = gmat i j := by
    intro j i
    show (V c main_v0 : S10x160.Idx → EReal) (((cfg1.win 3).blk t).view.emb (ix2 j i)) = _
    have e : ((cfg1.win 3).blk t).view.emb (ix2 j i) = ix2 j i := by
      funext a; apply Fin.ext
      match a with
      | ⟨0, _⟩ => show win1_3.index t (0 : Fin 2) * 10 + 1 * j.val = j.val; omega
      | ⟨1, _⟩ => show win1_3.index t (1 : Fin 2) * 160 + 1 * i.val = i.val; omega
    rw [e]; exact hgt j i
  rw [hpay (iblk1 V c 0 t) (iblk1 V c 1 t) (iblk1 V c 2 t) (iblk1 V c 3 t) hg' hgt']
  funext y
  show message (rowOf (iblk1 V c 0 t) (y 0)) (rowOf (iblk1 V c 1 t) (y 0)) (y 1)
    = message (rowOf (V c main_v12 : S800000x160.Idx → EReal) ((((cfg1.win 4).blk t).view.emb y) 0))
        (rowOf (V c main_v19 : S800000x160.Idx → EReal) ((((cfg1.win 4).blk t).view.emb y) 0)) ((((cfg1.win 4).blk t).view.emb y) 1)
  have r0 : rowOf (iblk1 V c 0 t) (y 0) = rowOf (V c main_v12 : S800000x160.Idx → EReal) ((((cfg1.win 4).blk t).view.emb y) 0) := by
    funext i
    show (V c main_v12 : S800000x160.Idx → EReal) (((cfg1.win 0).blk t).view.emb (ix2 (y 0) i))
      = (V c main_v12 : S800000x160.Idx → EReal) (ix2 ((((cfg1.win 4).blk t).view.emb y) 0) i)
    congr 1
    funext a; apply Fin.ext
    match a with
    | ⟨0, _⟩ => show win1_0.index t (0 : Fin 2) * 2000 + 1 * (y 0).val = win1_4.index t (0 : Fin 2) * 2000 + 1 * (y 0).val; omega
    | ⟨1, _⟩ => show win1_0.index t (1 : Fin 2) * 160 + 1 * i.val = i.val; omega
  have r1 : rowOf (iblk1 V c 1 t) (y 0) = rowOf (V c main_v19 : S800000x160.Idx → EReal) ((((cfg1.win 4).blk t).view.emb y) 0) := by
    funext i
    show (V c main_v19 : S800000x160.Idx → EReal) (((cfg1.win 1).blk t).view.emb (ix2 (y 0) i))
      = (V c main_v19 : S800000x160.Idx → EReal) (ix2 ((((cfg1.win 4).blk t).view.emb y) 0) i)
    congr 1
    funext a; apply Fin.ext
    match a with
    | ⟨0, _⟩ => show win1_1.index t (0 : Fin 2) * 2000 + 1 * (y 0).val = win1_4.index t (0 : Fin 2) * 2000 + 1 * (y 0).val; omega
    | ⟨1, _⟩ => show win1_1.index t (1 : Fin 2) * 160 + 1 * i.val = i.val; omega
  have c1 : ((((cfg1.win 4).blk t).view.emb y) 1 : Fin 160) = y 1 := by
    apply Fin.ext
    show win1_4.index t (1 : Fin 2) * 160 + 1 * (y 1).val = (y 1).val; omega
  rw [r0, r1, c1]

/-- An index of the output array is in point `t`'s block iff each coordinate is in the block's range. -/
theorem mem_blk1 (t : Fin cfg1.N) (i : S800000x160.Idx) :
    i ∈ ((cfg1.win 4).blk t).view.set ↔ ∀ a : Fin 2, win1_4.index t a * S2000x160.size a ≤ (i a).val
      ∧ (i a).val < win1_4.index t a * S2000x160.size a + S2000x160.size a := by
  show i ∈ ((View.whole main_v20).slice (win1_4.rect t)).set ↔ _
  rw [View.set_slice_whole, Rect.mem_set_unit]
  exact Iff.rfl

/-- Every edge row lies in the block of the point numbered by its thousands pair: row `r` in block `r / 2000`. -/
theorem cover1 (i : S800000x160.Idx) :
    ∃ t : Fin cfg1.N, (cfg1.win 4).flush t = true ∧ i ∈ ((cfg1.win 4).blk t).view.set := by
  have hi0 : (i 0).val < 800000 := (i 0).isLt
  have hi1 : (i 1).val < 160 := (i 1).isLt
  have hq : (i 0).val / 2000 < 400 := by omega
  obtain ⟨t, ht⟩ : ∃ t : Fin cfg1.N, t.val = (i 0).val / 2000 := ⟨⟨(i 0).val / 2000, hq⟩, rfl⟩
  obtain ⟨-, -, -, -, -, -, -, -, e40, e41⟩ := idx1 t
  refine ⟨t, flush1_4 t, ?_⟩
  rw [mem_blk1]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 160 ≤ (i 1).val ∧ (i 1).val < win1_4.index t (1 : Fin 2) * 160 + 160
    omega

/-- THE REGION: its output array ends as the message function of its input arrays as it found them. -/
theorem messages1 (c : Dev nD)
    (hpay : ∀ (z u : Vec Ideal S2000x160 .f32) (g : Vec Ideal S160x10 .f32) (gt : Vec Ideal S10x160 .f32),
      (∀ (i : Fin 160) (j : Fin 10), g (ix2 i j) = gmat i j) → (∀ (j : Fin 10) (i : Fin 160), gt (ix2 j i) = gmat i j) →
      k1_pay1 (F := Ideal) z u g gt = messageArr z u)
    (hg : ∀ (i : Fin 160) (j : Fin 10), (V c main_cst : S160x10.Idx → EReal) (ix2 i j) = gmat i j)
    (hgt : ∀ (j : Fin 10) (i : Fin 160), (V c main_v0 : S10x160.Idx → EReal) (ix2 j i) = gmat i j) :
    (dat1 V c).arrAt 4 cfg1.N
      = messageArr (n := 800000) (V c main_v12 : S800000x160.Idx → EReal) (V c main_v19 : S800000x160.Idx → EReal) :=
  (dat1 V c).arrAt_eq_of_cover 4 _ (fun t _ => flushed1 V c hpay hg hgt t) (cover1)

end Cert.KernelIdeal.Regions

end
-- ==== Proof.RegionNorm2.lean ====
/-
  Tiled region 2 (a routing round's update), whatever the buffers hold when it is entered: after it, the region's output
  array is the renormalised sum of its two input arrays, row by row. Point `t` of the 25 works on nodes 2000 t … 2000 t + 1999:
  its blocks of the two inputs and of the output are those rows, its blocks of the group matrix and of its transpose are the
  whole matrices; what it writes back is the update of its two input blocks (the hypothesis `hpay` about the body's
  arithmetic), which is the block of the update of the whole arrays because the update acts on a row at a time; and the 25
  blocks cover the output array.
-/
import proofs.«157490_j26834955665983_2_alg».proof.Proof.PatchedKernelIdealFrame
import proofs.«157490_j26834955665983_2_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Cert.KernelIdeal.GenP Cert.Routing
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the grid: the node windows follow the point, the matrix windows stay at block (0, 0). -/
theorem idx2 : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = 0 ∧ win2_2.index t (1 : Fin 2) = 0
  ∧ win2_3.index t (0 : Fin 2) = 0 ∧ win2_3.index t (1 : Fin 2) = 0
  ∧ win2_4.index t (0 : Fin 2) = t.val ∧ win2_4.index t (1 : Fin 2) = 0 :=
  (by decide +kernel : ∀ t : Fin grid2.N, _)

/-- What point `t` writes back is block `t` of the update of the whole input arrays. -/
theorem flushed2 (c : Dev nD)
    (hpay : ∀ (agg xn : Vec Ideal S2000x160 .f32) (g : Vec Ideal S160x10 .f32) (gt : Vec Ideal S10x160 .f32),
      (∀ (i : Fin 160) (j : Fin 10), g (ix2 i j) = gmat i j) → (∀ (j : Fin 10) (i : Fin 160), gt (ix2 j i) = gmat i j) →
      k2_pay1 (F := Ideal) agg xn g gt = renormArr agg xn)
    (hg : ∀ (i : Fin 160) (j : Fin 10), (V c main_cst : S160x10.Idx → EReal) (ix2 i j) = gmat i j)
    (hgt : ∀ (j : Fin 10) (i : Fin 160), (V c main_v0 : S10x160.Idx → EReal) (ix2 j i) = gmat i j) (t : Fin cfg2.N) :
    (dat2 V c).flushed 4 t = ((cfg2.win 4).blk t).view.read (Elt Ideal)
      (renormArr (n := 50000) (V c main_v23 : S50000x160.Idx → EReal) (V c main_v5 : S50000x160.Idx → EReal)) := by
  show (cfg2.win 4).cut (grid2.coords t) ((dat2 V c).after 4 t) = _
  rw [after2_4]
  unfold out2_4
  rw [View.canon_unit_zero zeros2]
  simp only [View.ld_unit_zero (S := S2000x160) zeros2, View.ld_unit_zero (S := S160x10) zeros2, View.ld_unit_zero (S := S10x160) zeros2]
  obtain ⟨e00, e01, e10, e11, e20, e21, e30, e31, e40, e41⟩ := idx2 t
  have hg' : ∀ (i : Fin 160) (j : Fin 10), iblk2 V c 2 t (ix2 i j) = gmat i j := by
    intro i j
    show (V c main_cst : S160x10.Idx → EReal) (((cfg2.win 2).blk t).view.emb (ix2 i j)) = _
    have e : ((cfg2.win 2).blk t).view.emb (ix2 i j) = ix2 i j := by
      funext a; apply Fin.ext
      match a with
      | ⟨0, _⟩ => show win2_2.index t (0 : Fin 2) * 160 + 1 * i.val = i.val; omega
      | ⟨1, _⟩ => show win2_2.index t (1 : Fin 2) * 10 + 1 * j.val = j.val; omega
    rw [e]; exact hg i j
  have hgt' : ∀ (j : Fin 10) (i : Fin 160), iblk2 V c 3 t (ix2 j i) = gmat i j := by
    intro j i
    show (V c main_v0 : S10x160.Idx → EReal) (((cfg2.win 3).blk t).view.emb (ix2 j i)) = _
    have e : ((cfg2.win 3).blk t).view.emb (ix2 j i) = ix2 j i := by
      funext a; apply Fin.ext
      match a with
      | ⟨0, _⟩ => show win2_3.index t (0 : Fin 2) * 10 + 1 * j.val = j.val; omega
      | ⟨1, _⟩ => show win2_3.index t (1 : Fin 2) * 160 + 1 * i.val = i.val; omega
    rw [e]; exact hgt j i
  rw [hpay (iblk2 V c 0 t) (iblk2 V c 1 t) (iblk2 V c 2 t) (iblk2 V c 3 t) hg' hgt']
  funext y
  show normalize (fun i => rowOf (iblk2 V c 0 t) (y 0) i + rowOf (iblk2 V c 1 t) (y 0) i) (y 1)
    = normalize (fun i => rowOf (V c main_v23 : S50000x160.Idx → EReal) ((((cfg2.win 4).blk t).view.emb y) 0) i
        + rowOf (V c main_v5 : S50000x160.Idx → EReal) ((((cfg2.win 4).blk t).view.emb y) 0) i) ((((cfg2.win 4).blk t).view.emb y) 1)
  have r0 : rowOf (iblk2 V c 0 t) (y 0) = rowOf (V c main_v23 : S50000x160.Idx → EReal) ((((cfg2.win 4).blk t).view.emb y) 0) := by
    funext i
    show (V c main_v23 : S50000x160.Idx → EReal) (((cfg2.win 0).blk t).view.emb (ix2 (y 0) i))
      = (V c main_v23 : S50000x160.Idx → EReal) (ix2 ((((cfg2.win 4).blk t).view.emb y) 0) i)
    congr 1
    funext a; apply Fin.ext
    match a with
    | ⟨0, _⟩ => show win2_0.index t (0 : Fin 2) * 2000 + 1 * (y 0).val = win2_4.index t (0 : Fin 2) * 2000 + 1 * (y 0).val; omega
    | ⟨1, _⟩ => show win2_0.index t (1 : Fin 2) * 160 + 1 * i.val = i.val; omega
  have r1 : rowOf (iblk2 V c 1 t) (y 0) = rowOf (V c main_v5 : S50000x160.Idx → EReal) ((((cfg2.win 4).blk t).view.emb y) 0) := by
    funext i
    show (V c main_v5 : S50000x160.Idx → EReal) (((cfg2.win 1).blk t).view.emb (ix2 (y 0) i))
      = (V c main_v5 : S50000x160.Idx → EReal) (ix2 ((((cfg2.win 4).blk t).view.emb y) 0) i)
    congr 1
    funext a; apply Fin.ext
    match a with
    | ⟨0, _⟩ => show win2_1.index t (0 : Fin 2) * 2000 + 1 * (y 0).val = win2_4.index t (0 : Fin 2) * 2000 + 1 * (y 0).val; omega
    | ⟨1, _⟩ => show win2_1.index t (1 : Fin 2) * 160 + 1 * i.val = i.val; omega
  have c1 : ((((cfg2.win 4).blk t).view.emb y) 1 : Fin 160) = y 1 := by
    apply Fin.ext
    show win2_4.index t (1 : Fin 2) * 160 + 1 * (y 1).val = (y 1).val; omega
  rw [r0, r1, c1]

/-- An index of the output array is in point `t`'s block iff each coordinate is in the block's range. -/
theorem mem_blk2 (t : Fin cfg2.N) (i : S50000x160.Idx) :
    i ∈ ((cfg2.win 4).blk t).view.set ↔ ∀ a : Fin 2, win2_4.index t a * S2000x160.size a ≤ (i a).val
      ∧ (i a).val < win2_4.index t a * S2000x160.size a + S2000x160.size a := by
  show i ∈ ((View.whole main_v24).slice (win2_4.rect t)).set ↔ _
  rw [View.set_slice_whole, Rect.mem_set_unit]
  exact Iff.rfl

/-- Every node row lies in the block of the point numbered by its thousands pair: row `r` in block `r / 2000`. -/
theorem cover2 (i : S50000x160.Idx) :
    ∃ t : Fin cfg2.N, (cfg2.win 4).flush t = true ∧ i ∈ ((cfg2.win 4).blk t).view.set := by
  have hi0 : (i 0).val < 50000 := (i 0).isLt
  have hi1 : (i 1).val < 160 := (i 1).isLt
  have hq : (i 0).val / 2000 < 25 := by omega
  obtain ⟨t, ht⟩ : ∃ t : Fin cfg2.N, t.val = (i 0).val / 2000 := ⟨⟨(i 0).val / 2000, hq⟩, rfl⟩
  obtain ⟨-, -, -, -, -, -, -, -, e40, e41⟩ := idx2 t
  refine ⟨t, flush2_4 t, ?_⟩
  rw [mem_blk2]
  intro a
  match a with
  | ⟨0, _⟩ =>
    show win2_4.index t (0 : Fin 2) * 2000 ≤ (i 0).val ∧ (i 0).val < win2_4.index t (0 : Fin 2) * 2000 + 2000
    omega
  | ⟨1, _⟩ =>
    show win2_4.index t (1 : Fin 2) * 160 ≤ (i 1).val ∧ (i 1).val < win2_4.index t (1 : Fin 2) * 160 + 160
    omega

/-- THE REGION: its output array ends as the update of its input arrays as it found them. -/
theorem update2 (c : Dev nD)
    (hpay : ∀ (agg xn : Vec Ideal S2000x160 .f32) (g : Vec Ideal S160x10 .f32) (gt : Vec Ideal S10x160 .f32),
      (∀ (i : Fin 160) (j : Fin 10), g (ix2 i j) = gmat i j) → (∀ (j : Fin 10) (i : Fin 160), gt (ix2 j i) = gmat i j) →
      k2_pay1 (F := Ideal) agg xn g gt = renormArr agg xn)
    (hg : ∀ (i : Fin 160) (j : Fin 10), (V c main_cst : S160x10.Idx → EReal) (ix2 i j) = gmat i j)
    (hgt : ∀ (j : Fin 10) (i : Fin 160), (V c main_v0 : S10x160.Idx → EReal) (ix2 j i) = gmat i j) :
    (dat2 V c).arrAt 4 cfg2.N
      = renormArr (n := 50000) (V c main_v23 : S50000x160.Idx → EReal) (V c main_v5 : S50000x160.Idx → EReal) :=
  (dat2 V c).arrAt_eq_of_cover 4 _ (fun t _ => flushed2 V c hpay hg hgt t) (cover2)

end Cert.KernelIdeal.Regions

end
-- ==== Proof.RegionMsg3.lean ====
/-
  Tiled region 3 (the routing messages), whatever the buffers hold when it is entered: after it, the region's output array
  is the message function of its two input arrays, row by row. Point `t` of the 400 works on edges 2000 t … 2000 t + 1999:
  its blocks of the two inputs and of the output are those rows, its blocks of the group matrix and of its transpose are
  the whole matrices; what it writes back is the message function of its two input blocks (the hypothesis `hpay` about the
  body's arithmetic), which is the block of the message function of the whole arrays because the function acts on a row at
  a time; and the 400 blocks cover the output array.
-/
import proofs.«157490_j26834955665983_2_alg».proof.Proof.PatchedKernelIdealFrame
import proofs.«157490_j26834955665983_2_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Cert.KernelIdeal.GenP Cert.Routing
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros3 : (![0, 0] : Fin 2 → Nat) = fun _ => 0 := funext fun a => by fin_cases a <;> rfl

/-- The index maps over the grid: the edge windows follow the point, the matrix windows stay at block (0, 0). -/
theorem idx3 : ∀ t : Fin cfg3.N,
    win3_0.index t (0 : Fin 2) = t.val ∧ win3_0.index t (1 : Fin 2) = 0
  ∧ win3_1.index t (0 : Fin 2) = t.val ∧ win3_1.index t (1 : Fin 2) = 0
  ∧ win3_2.index t (0 : Fin 2) = 0 ∧ win3_2.index t (1 : Fin 2) = 0
  ∧ win3_3.index t (0 : Fin 2) = 0 ∧ win3_3.index t (1 : Fin 2) = 0
  ∧ win3_4.index t (0 : Fin 2) = t.val ∧ win3_4.index t (1 : Fin 2) = 0 :=
  (by decide +kernel : ∀ t : Fin grid3.N, _)

/-- What point `t` writes back is block `t` of the message function of the whole input arrays. -/
theorem flushed3 (c : Dev nD)
    (hpay : ∀ (z u : Vec Ideal S2000x160 .f32) (g : Vec Ideal S160x10 .f32) (gt : Vec Ideal S10x160 .f32),
      (∀ (i : Fin 160) (j : Fin 10), g (ix2 i j) = gmat i j) → (∀ (j : Fin 10) (i : Fin 160), gt (ix2 j i) = gmat i j) →
      k3_pay1 (F := Ideal) z u g gt = messageArr z u)
    (hg : ∀ (i : Fin 160) (j : Fin 10), (V c main_cst : S160x10.Idx → EReal) (ix2 i j) = gmat i j)
    (hgt : ∀ (j : Fin 10) (i : Fin 160), (V c main_v0 : S10x160.Idx → EReal) (ix2 j i) = gmat i j) (t : Fin cfg3.N) :
    (dat3 V c).flushed 4 t = ((cfg3.win 4).blk t).view.read (Elt Ideal)
      (messageArr (n := 800000) (V c main_v12 : S800000x160.Idx → EReal) (V c main_v31 : S800000x160.Idx → EReal)) := by
  show (cfg3.win 4).cut (grid3.coords t) ((dat3 V c).after 4 t) = _
  rw [after3_4]
  unfold out3_4
  rw [View.canon_unit_zero zeros3]
  simp only [View.ld_unit_zero (S := S2000x160) zeros3, View.ld_unit_zero (S := S160x10) zeros3, View.ld_unit_zero (S := S10x160) zeros3]
  obtain ⟨e00, e01, e10, e11, e20, e21, e30, e31, e40, e41⟩ := idx3 t
  have hg' : ∀ (i : Fin 160) (j : Fin 10), iblk3 V c 2 t (ix2 i j) = gmat i j := by
    intro i j
    show (V c main_cst : S160x10.Idx → EReal) (((cfg3.win 2).blk t).view.emb (ix2 i j)) = _
    have e : ((cfg3.win 2).blk t).view.emb (ix2 i j) = ix2 i j := by
      funext a; apply Fin.ext
      match a with
      | ⟨0, _⟩ => show win3_2.index t (0 : Fin 2) * 160 + 1 * i.val = i.val; omega
      | ⟨1, _⟩ => show win3_2.index t (1 : Fin 2) * 10 + 1 * j.val = j.val; omega
    rw [e]; exact hg i j
  have hgt' : ∀ (j : Fin 10) (i : Fin 160), iblk3 V c 3 t (ix2 j i) = gmat i j := by
    intro j i
    show (V c main_v0 : S10x160.Idx → EReal) (((cfg3.win 3).blk t).view.emb (ix2 j i)) = _
    have e : ((cfg3.win 3).blk t).view.emb (ix2 j i) = ix2 j i := by
      funext a; apply Fin.ext
      match a with
      | ⟨0, _⟩ => show win3_3.index t (0 : Fin 2) * 10 + 1 * j.val = j.val; omega
      | ⟨1, _⟩ => show win3_3.index t (1 : Fin 2) * 160 + 1 * i.val = i.val; omega
    rw [e]; exact hgt j i
  rw [hpay (iblk3 V c 0 t) (iblk3 V c 1 t) (iblk3 V c 2 t) (iblk3 V c 3 t) hg' hgt']
  funext y
  show message (rowOf (iblk3 V c 0 t) (y 0)) (rowOf (iblk3 V c 1 t) (y 0)) (y 1)
    = message (rowOf (V c main_v12 : S800000x160.Idx → EReal) ((((cfg3.win 4).blk t).view.emb y) 0))
        (rowOf (V c main_v31 : S800000x160.Idx → EReal) ((((cfg3.win 4).blk t).view.emb y) 0)) ((((cfg3.win 4).blk t).view.emb y) 1)
  have r0 : rowOf (iblk3 V c 0 t) (y 0) = rowOf (V c main_v12 : S800000x160.Idx → EReal) ((((cfg3.win 4).blk t).view.emb y) 0) := by
    funext i
    show (V c main_v12 : S800000x160.Idx → EReal) (((cfg3.win 0).blk t).view.emb (ix2 (y 0) i))
      = (V c main_v12 : S800000x160.Idx → EReal) (ix2 ((((cfg3.win 4).blk t).view.emb y) 0) i)
    congr 1
    funext a; apply Fin.ext
    match a with
    | ⟨0, _⟩ => show win3_0.index t (0 : Fin 2) * 2000 + 1 * (y 0).val = win3_4.index t (0 : Fin 2) * 2000 + 1 * (y 0).val; omega
    | ⟨1, _⟩ => show win3_0.index t (1 : Fin 2) * 160 + 1 * i.val = i.val; omega
  have r1 : rowOf (iblk3 V c 1 t) (y 0) = rowOf (V c main_v31 : S800000x160.Idx → EReal) ((((cfg3.win 4).blk t).view.emb y) 0) := by
    funext i
    show (V c main_v31 : S800000x160.Idx → EReal) (((cfg3.win 1).blk t).view.emb (ix2 (y 0) i))
      = (V c main_v31 : S800000x160.Idx → EReal) (ix2 ((((cfg3.win 4).blk t).view.emb y) 0) i)
    congr 1
    funext a; apply Fin.ext
    match a with
    | ⟨0, _⟩ => show win3_1.index t (0 : Fin 2) * 2000 + 1 * (y 0).val = win3_4.index t (0 : Fin 2) * 2000 + 1 * (y 0).val; omega
    | ⟨1, _⟩ => show win3_1.index t (1 : Fin 2) * 160 + 1 * i.val = i.val; omega
  have c1 : ((((cfg3.win 4).blk t).view.emb y) 1 : Fin 160) = y 1 := by
    apply Fin.ext
    show win3_4.index t (1 : Fin 2) * 160 + 1 * (y 1).val = (y 1).val; omega
  rw [r0, r1, c1]

/-- An index of the output array is in point `t`'s block iff each coordinate is in the block's range. -/
theorem mem_blk3 (t : Fin cfg3.N) (i : S800000x160.Idx) :
    i ∈ ((cfg3.win 4).blk t).view.set ↔ ∀ a : Fin 2, win3_4.index t a * S2000x160.size a ≤ (i a).val
      ∧ (i a).val < win3_4.index t a * S2000x160.size a + S2000x160.size a := by
  show i ∈ ((View.whole main_v32).slice (win3_4.rect t)).set ↔ _
  rw [View.set_slice_whole, Rect.mem_set_unit]
  exact Iff.rfl

/-- Every edge row lies in the block of the point numbered by its thousands pair: row `r` in block `r / 2000`. -/
theorem cover3 (i : S800000x160.Idx) :
    ∃ t : Fin cfg3.N, (cfg3.win 4).flush t = true ∧ i ∈ ((cfg3.win 4).blk t).view.set := by
  have hi0 : (i 0).val < 800000 := (i 0).isLt
  have hi1 : (i 1).val < 160 := (i 1).isLt
  have hq : (i 0).val / 2000 < 400 := by omega
  obtain ⟨t, ht⟩ : ∃ t : Fin cfg3.N, t.val = (i 0).val / 2000 := ⟨⟨(i 0).val / 2000, hq⟩, rfl⟩
  obtain ⟨-, -, -, -, -, -, -, -, e40, e41⟩ := idx3 t
  refine ⟨t, flush3_4 t, ?_⟩
  rw [mem_blk3]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 160 ≤ (i 1).val ∧ (i 1).val < win3_4.index t (1 : Fin 2) * 160 + 160
    omega

/-- THE REGION: its output array ends as the message function of its input arrays as it found them. -/
theorem messages3 (c : Dev nD)
    (hpay : ∀ (z u : Vec Ideal S2000x160 .f32) (g : Vec Ideal S160x10 .f32) (gt : Vec Ideal S10x160 .f32),
      (∀ (i : Fin 160) (j : Fin 10), g (ix2 i j) = gmat i j) → (∀ (j : Fin 10) (i : Fin 160), gt (ix2 j i) = gmat i j) →
      k3_pay1 (F := Ideal) z u g gt = messageArr z u)
    (hg : ∀ (i : Fin 160) (j : Fin 10), (V c main_cst : S160x10.Idx → EReal) (ix2 i j) = gmat i j)
    (hgt : ∀ (j : Fin 10) (i : Fin 160), (V c main_v0 : S10x160.Idx → EReal) (ix2 j i) = gmat i j) :
    (dat3 V c).arrAt 4 cfg3.N
      = messageArr (n := 800000) (V c main_v12 : S800000x160.Idx → EReal) (V c main_v31 : S800000x160.Idx → EReal) :=
  (dat3 V c).arrAt_eq_of_cover 4 _ (fun t _ => flushed3 V c hpay hg hgt t) (cover3)

end Cert.KernelIdeal.Regions

end
-- ==== Proof.RegionNorm4.lean ====
/-
  Tiled region 4 (a routing round's update), whatever the buffers hold when it is entered: after it, the region's output
  array is the renormalised sum of its two input arrays, row by row. Point `t` of the 25 works on nodes 2000 t … 2000 t + 1999:
  its blocks of the two inputs and of the output are those rows, its blocks of the group matrix and of its transpose are the
  whole matrices; what it writes back is the update of its two input blocks (the hypothesis `hpay` about the body's
  arithmetic), which is the block of the update of the whole arrays because the update acts on a row at a time; and the 25
  blocks cover the output array.
-/
import proofs.«157490_j26834955665983_2_alg».proof.Proof.PatchedKernelIdealFrame
import proofs.«157490_j26834955665983_2_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Cert.KernelIdeal.GenP Cert.Routing
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros4 : (![0, 0] : Fin 2 → Nat) = fun _ => 0 := funext fun a => by fin_cases a <;> rfl

/-- The index maps over the grid: the node windows follow the point, the matrix windows stay at block (0, 0). -/
theorem idx4 : ∀ t : Fin cfg4.N,
    win4_0.index t (0 : Fin 2) = t.val ∧ win4_0.index t (1 : Fin 2) = 0
  ∧ win4_1.index t (0 : Fin 2) = t.val ∧ win4_1.index t (1 : Fin 2) = 0
  ∧ win4_2.index t (0 : Fin 2) = 0 ∧ win4_2.index t (1 : Fin 2) = 0
  ∧ win4_3.index t (0 : Fin 2) = 0 ∧ win4_3.index t (1 : Fin 2) = 0
  ∧ win4_4.index t (0 : Fin 2) = t.val ∧ win4_4.index t (1 : Fin 2) = 0 :=
  (by decide +kernel : ∀ t : Fin grid4.N, _)

/-- What point `t` writes back is block `t` of the update of the whole input arrays. -/
theorem flushed4 (c : Dev nD)
    (hpay : ∀ (agg xn : Vec Ideal S2000x160 .f32) (g : Vec Ideal S160x10 .f32) (gt : Vec Ideal S10x160 .f32),
      (∀ (i : Fin 160) (j : Fin 10), g (ix2 i j) = gmat i j) → (∀ (j : Fin 10) (i : Fin 160), gt (ix2 j i) = gmat i j) →
      k4_pay1 (F := Ideal) agg xn g gt = renormArr agg xn)
    (hg : ∀ (i : Fin 160) (j : Fin 10), (V c main_cst : S160x10.Idx → EReal) (ix2 i j) = gmat i j)
    (hgt : ∀ (j : Fin 10) (i : Fin 160), (V c main_v0 : S10x160.Idx → EReal) (ix2 j i) = gmat i j) (t : Fin cfg4.N) :
    (dat4 V c).flushed 4 t = ((cfg4.win 4).blk t).view.read (Elt Ideal)
      (renormArr (n := 50000) (V c main_v35 : S50000x160.Idx → EReal) (V c main_v5 : S50000x160.Idx → EReal)) := by
  show (cfg4.win 4).cut (grid4.coords t) ((dat4 V c).after 4 t) = _
  rw [after4_4]
  unfold out4_4
  rw [View.canon_unit_zero zeros4]
  simp only [View.ld_unit_zero (S := S2000x160) zeros4, View.ld_unit_zero (S := S160x10) zeros4, View.ld_unit_zero (S := S10x160) zeros4]
  obtain ⟨e00, e01, e10, e11, e20, e21, e30, e31, e40, e41⟩ := idx4 t
  have hg' : ∀ (i : Fin 160) (j : Fin 10), iblk4 V c 2 t (ix2 i j) = gmat i j := by
    intro i j
    show (V c main_cst : S160x10.Idx → EReal) (((cfg4.win 2).blk t).view.emb (ix2 i j)) = _
    have e : ((cfg4.win 2).blk t).view.emb (ix2 i j) = ix2 i j := by
      funext a; apply Fin.ext
      match a with
      | ⟨0, _⟩ => show win4_2.index t (0 : Fin 2) * 160 + 1 * i.val = i.val; omega
      | ⟨1, _⟩ => show win4_2.index t (1 : Fin 2) * 10 + 1 * j.val = j.val; omega
    rw [e]; exact hg i j
  have hgt' : ∀ (j : Fin 10) (i : Fin 160), iblk4 V c 3 t (ix2 j i) = gmat i j := by
    intro j i
    show (V c main_v0 : S10x160.Idx → EReal) (((cfg4.win 3).blk t).view.emb (ix2 j i)) = _
    have e : ((cfg4.win 3).blk t).view.emb (ix2 j i) = ix2 j i := by
      funext a; apply Fin.ext
      match a with
      | ⟨0, _⟩ => show win4_3.index t (0 : Fin 2) * 10 + 1 * j.val = j.val; omega
      | ⟨1, _⟩ => show win4_3.index t (1 : Fin 2) * 160 + 1 * i.val = i.val; omega
    rw [e]; exact hgt j i
  rw [hpay (iblk4 V c 0 t) (iblk4 V c 1 t) (iblk4 V c 2 t) (iblk4 V c 3 t) hg' hgt']
  funext y
  show normalize (fun i => rowOf (iblk4 V c 0 t) (y 0) i + rowOf (iblk4 V c 1 t) (y 0) i) (y 1)
    = normalize (fun i => rowOf (V c main_v35 : S50000x160.Idx → EReal) ((((cfg4.win 4).blk t).view.emb y) 0) i
        + rowOf (V c main_v5 : S50000x160.Idx → EReal) ((((cfg4.win 4).blk t).view.emb y) 0) i) ((((cfg4.win 4).blk t).view.emb y) 1)
  have r0 : rowOf (iblk4 V c 0 t) (y 0) = rowOf (V c main_v35 : S50000x160.Idx → EReal) ((((cfg4.win 4).blk t).view.emb y) 0) := by
    funext i
    show (V c main_v35 : S50000x160.Idx → EReal) (((cfg4.win 0).blk t).view.emb (ix2 (y 0) i))
      = (V c main_v35 : S50000x160.Idx → EReal) (ix2 ((((cfg4.win 4).blk t).view.emb y) 0) i)
    congr 1
    funext a; apply Fin.ext
    match a with
    | ⟨0, _⟩ => show win4_0.index t (0 : Fin 2) * 2000 + 1 * (y 0).val = win4_4.index t (0 : Fin 2) * 2000 + 1 * (y 0).val; omega
    | ⟨1, _⟩ => show win4_0.index t (1 : Fin 2) * 160 + 1 * i.val = i.val; omega
  have r1 : rowOf (iblk4 V c 1 t) (y 0) = rowOf (V c main_v5 : S50000x160.Idx → EReal) ((((cfg4.win 4).blk t).view.emb y) 0) := by
    funext i
    show (V c main_v5 : S50000x160.Idx → EReal) (((cfg4.win 1).blk t).view.emb (ix2 (y 0) i))
      = (V c main_v5 : S50000x160.Idx → EReal) (ix2 ((((cfg4.win 4).blk t).view.emb y) 0) i)
    congr 1
    funext a; apply Fin.ext
    match a with
    | ⟨0, _⟩ => show win4_1.index t (0 : Fin 2) * 2000 + 1 * (y 0).val = win4_4.index t (0 : Fin 2) * 2000 + 1 * (y 0).val; omega
    | ⟨1, _⟩ => show win4_1.index t (1 : Fin 2) * 160 + 1 * i.val = i.val; omega
  have c1 : ((((cfg4.win 4).blk t).view.emb y) 1 : Fin 160) = y 1 := by
    apply Fin.ext
    show win4_4.index t (1 : Fin 2) * 160 + 1 * (y 1).val = (y 1).val; omega
  rw [r0, r1, c1]

/-- An index of the output array is in point `t`'s block iff each coordinate is in the block's range. -/
theorem mem_blk4 (t : Fin cfg4.N) (i : S50000x160.Idx) :
    i ∈ ((cfg4.win 4).blk t).view.set ↔ ∀ a : Fin 2, win4_4.index t a * S2000x160.size a ≤ (i a).val
      ∧ (i a).val < win4_4.index t a * S2000x160.size a + S2000x160.size a := by
  show i ∈ ((View.whole main_v36).slice (win4_4.rect t)).set ↔ _
  rw [View.set_slice_whole, Rect.mem_set_unit]
  exact Iff.rfl

/-- Every node row lies in the block of the point numbered by its thousands pair: row `r` in block `r / 2000`. -/
theorem cover4 (i : S50000x160.Idx) :
    ∃ t : Fin cfg4.N, (cfg4.win 4).flush t = true ∧ i ∈ ((cfg4.win 4).blk t).view.set := by
  have hi0 : (i 0).val < 50000 := (i 0).isLt
  have hi1 : (i 1).val < 160 := (i 1).isLt
  have hq : (i 0).val / 2000 < 25 := by omega
  obtain ⟨t, ht⟩ : ∃ t : Fin cfg4.N, t.val = (i 0).val / 2000 := ⟨⟨(i 0).val / 2000, hq⟩, rfl⟩
  obtain ⟨-, -, -, -, -, -, -, -, e40, e41⟩ := idx4 t
  refine ⟨t, flush4_4 t, ?_⟩
  rw [mem_blk4]
  intro a
  match a with
  | ⟨0, _⟩ =>
    show win4_4.index t (0 : Fin 2) * 2000 ≤ (i 0).val ∧ (i 0).val < win4_4.index t (0 : Fin 2) * 2000 + 2000
    omega
  | ⟨1, _⟩ =>
    show win4_4.index t (1 : Fin 2) * 160 ≤ (i 1).val ∧ (i 1).val < win4_4.index t (1 : Fin 2) * 160 + 160
    omega

/-- THE REGION: its output array ends as the update of its input arrays as it found them. -/
theorem update4 (c : Dev nD)
    (hpay : ∀ (agg xn : Vec Ideal S2000x160 .f32) (g : Vec Ideal S160x10 .f32) (gt : Vec Ideal S10x160 .f32),
      (∀ (i : Fin 160) (j : Fin 10), g (ix2 i j) = gmat i j) → (∀ (j : Fin 10) (i : Fin 160), gt (ix2 j i) = gmat i j) →
      k4_pay1 (F := Ideal) agg xn g gt = renormArr agg xn)
    (hg : ∀ (i : Fin 160) (j : Fin 10), (V c main_cst : S160x10.Idx → EReal) (ix2 i j) = gmat i j)
    (hgt : ∀ (j : Fin 10) (i : Fin 160), (V c main_v0 : S10x160.Idx → EReal) (ix2 j i) = gmat i j) :
    (dat4 V c).arrAt 4 cfg4.N
      = renormArr (n := 50000) (V c main_v35 : S50000x160.Idx → EReal) (V c main_v5 : S50000x160.Idx → EReal) :=
  (dat4 V c).arrAt_eq_of_cover 4 _ (fun t _ => flushed4 V c hpay hg hgt t) (cover4)

end Cert.KernelIdeal.Regions

end
-- ==== Proof.RegionMsg5.lean ====
/-
  Tiled region 5 (the routing messages), whatever the buffers hold when it is entered: after it, the region's output array
  is the message function of its two input arrays, row by row. Point `t` of the 400 works on edges 2000 t … 2000 t + 1999:
  its blocks of the two inputs and of the output are those rows, its blocks of the group matrix and of its transpose are
  the whole matrices; what it writes back is the message function of its two input blocks (the hypothesis `hpay` about the
  body's arithmetic), which is the block of the message function of the whole arrays because the function acts on a row at
  a time; and the 400 blocks cover the output array.
-/
import proofs.«157490_j26834955665983_2_alg».proof.Proof.PatchedKernelIdealFrame
import proofs.«157490_j26834955665983_2_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Cert.KernelIdeal.GenP Cert.Routing
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros5 : (![0, 0] : Fin 2 → Nat) = fun _ => 0 := funext fun a => by fin_cases a <;> rfl

/-- The index maps over the grid: the edge windows follow the point, the matrix windows stay at block (0, 0). -/
theorem idx5 : ∀ t : Fin cfg5.N,
    win5_0.index t (0 : Fin 2) = t.val ∧ win5_0.index t (1 : Fin 2) = 0
  ∧ win5_1.index t (0 : Fin 2) = t.val ∧ win5_1.index t (1 : Fin 2) = 0
  ∧ win5_2.index t (0 : Fin 2) = 0 ∧ win5_2.index t (1 : Fin 2) = 0
  ∧ win5_3.index t (0 : Fin 2) = 0 ∧ win5_3.index t (1 : Fin 2) = 0
  ∧ win5_4.index t (0 : Fin 2) = t.val ∧ win5_4.index t (1 : Fin 2) = 0 :=
  (by decide +kernel : ∀ t : Fin grid5.N, _)

/-- What point `t` writes back is block `t` of the message function of the whole input arrays. -/
theorem flushed5 (c : Dev nD)
    (hpay : ∀ (z u : Vec Ideal S2000x160 .f32) (g : Vec Ideal S160x10 .f32) (gt : Vec Ideal S10x160 .f32),
      (∀ (i : Fin 160) (j : Fin 10), g (ix2 i j) = gmat i j) → (∀ (j : Fin 10) (i : Fin 160), gt (ix2 j i) = gmat i j) →
      k5_pay1 (F := Ideal) z u g gt = messageArr z u)
    (hg : ∀ (i : Fin 160) (j : Fin 10), (V c main_cst : S160x10.Idx → EReal) (ix2 i j) = gmat i j)
    (hgt : ∀ (j : Fin 10) (i : Fin 160), (V c main_v0 : S10x160.Idx → EReal) (ix2 j i) = gmat i j) (t : Fin cfg5.N) :
    (dat5 V c).flushed 4 t = ((cfg5.win 4).blk t).view.read (Elt Ideal)
      (messageArr (n := 800000) (V c main_v12 : S800000x160.Idx → EReal) (V c main_v43 : S800000x160.Idx → EReal)) := by
  show (cfg5.win 4).cut (grid5.coords t) ((dat5 V c).after 4 t) = _
  rw [after5_4]
  unfold out5_4
  rw [View.canon_unit_zero zeros5]
  simp only [View.ld_unit_zero (S := S2000x160) zeros5, View.ld_unit_zero (S := S160x10) zeros5, View.ld_unit_zero (S := S10x160) zeros5]
  obtain ⟨e00, e01, e10, e11, e20, e21, e30, e31, e40, e41⟩ := idx5 t
  have hg' : ∀ (i : Fin 160) (j : Fin 10), iblk5 V c 2 t (ix2 i j) = gmat i j := by
    intro i j
    show (V c main_cst : S160x10.Idx → EReal) (((cfg5.win 2).blk t).view.emb (ix2 i j)) = _
    have e : ((cfg5.win 2).blk t).view.emb (ix2 i j) = ix2 i j := by
      funext a; apply Fin.ext
      match a with
      | ⟨0, _⟩ => show win5_2.index t (0 : Fin 2) * 160 + 1 * i.val = i.val; omega
      | ⟨1, _⟩ => show win5_2.index t (1 : Fin 2) * 10 + 1 * j.val = j.val; omega
    rw [e]; exact hg i j
  have hgt' : ∀ (j : Fin 10) (i : Fin 160), iblk5 V c 3 t (ix2 j i) = gmat i j := by
    intro j i
    show (V c main_v0 : S10x160.Idx → EReal) (((cfg5.win 3).blk t).view.emb (ix2 j i)) = _
    have e : ((cfg5.win 3).blk t).view.emb (ix2 j i) = ix2 j i := by
      funext a; apply Fin.ext
      match a with
      | ⟨0, _⟩ => show win5_3.index t (0 : Fin 2) * 10 + 1 * j.val = j.val; omega
      | ⟨1, _⟩ => show win5_3.index t (1 : Fin 2) * 160 + 1 * i.val = i.val; omega
    rw [e]; exact hgt j i
  rw [hpay (iblk5 V c 0 t) (iblk5 V c 1 t) (iblk5 V c 2 t) (iblk5 V c 3 t) hg' hgt']
  funext y
  show message (rowOf (iblk5 V c 0 t) (y 0)) (rowOf (iblk5 V c 1 t) (y 0)) (y 1)
    = message (rowOf (V c main_v12 : S800000x160.Idx → EReal) ((((cfg5.win 4).blk t).view.emb y) 0))
        (rowOf (V c main_v43 : S800000x160.Idx → EReal) ((((cfg5.win 4).blk t).view.emb y) 0)) ((((cfg5.win 4).blk t).view.emb y) 1)
  have r0 : rowOf (iblk5 V c 0 t) (y 0) = rowOf (V c main_v12 : S800000x160.Idx → EReal) ((((cfg5.win 4).blk t).view.emb y) 0) := by
    funext i
    show (V c main_v12 : S800000x160.Idx → EReal) (((cfg5.win 0).blk t).view.emb (ix2 (y 0) i))
      = (V c main_v12 : S800000x160.Idx → EReal) (ix2 ((((cfg5.win 4).blk t).view.emb y) 0) i)
    congr 1
    funext a; apply Fin.ext
    match a with
    | ⟨0, _⟩ => show win5_0.index t (0 : Fin 2) * 2000 + 1 * (y 0).val = win5_4.index t (0 : Fin 2) * 2000 + 1 * (y 0).val; omega
    | ⟨1, _⟩ => show win5_0.index t (1 : Fin 2) * 160 + 1 * i.val = i.val; omega
  have r1 : rowOf (iblk5 V c 1 t) (y 0) = rowOf (V c main_v43 : S800000x160.Idx → EReal) ((((cfg5.win 4).blk t).view.emb y) 0) := by
    funext i
    show (V c main_v43 : S800000x160.Idx → EReal) (((cfg5.win 1).blk t).view.emb (ix2 (y 0) i))
      = (V c main_v43 : S800000x160.Idx → EReal) (ix2 ((((cfg5.win 4).blk t).view.emb y) 0) i)
    congr 1
    funext a; apply Fin.ext
    match a with
    | ⟨0, _⟩ => show win5_1.index t (0 : Fin 2) * 2000 + 1 * (y 0).val = win5_4.index t (0 : Fin 2) * 2000 + 1 * (y 0).val; omega
    | ⟨1, _⟩ => show win5_1.index t (1 : Fin 2) * 160 + 1 * i.val = i.val; omega
  have c1 : ((((cfg5.win 4).blk t).view.emb y) 1 : Fin 160) = y 1 := by
    apply Fin.ext
    show win5_4.index t (1 : Fin 2) * 160 + 1 * (y 1).val = (y 1).val; omega
  rw [r0, r1, c1]

/-- An index of the output array is in point `t`'s block iff each coordinate is in the block's range. -/
theorem mem_blk5 (t : Fin cfg5.N) (i : S800000x160.Idx) :
    i ∈ ((cfg5.win 4).blk t).view.set ↔ ∀ a : Fin 2, win5_4.index t a * S2000x160.size a ≤ (i a).val
      ∧ (i a).val < win5_4.index t a * S2000x160.size a + S2000x160.size a := by
  show i ∈ ((View.whole main_v44).slice (win5_4.rect t)).set ↔ _
  rw [View.set_slice_whole, Rect.mem_set_unit]
  exact Iff.rfl

/-- Every edge row lies in the block of the point numbered by its thousands pair: row `r` in block `r / 2000`. -/
theorem cover5 (i : S800000x160.Idx) :
    ∃ t : Fin cfg5.N, (cfg5.win 4).flush t = true ∧ i ∈ ((cfg5.win 4).blk t).view.set := by
  have hi0 : (i 0).val < 800000 := (i 0).isLt
  have hi1 : (i 1).val < 160 := (i 1).isLt
  have hq : (i 0).val / 2000 < 400 := by omega
  obtain ⟨t, ht⟩ : ∃ t : Fin cfg5.N, t.val = (i 0).val / 2000 := ⟨⟨(i 0).val / 2000, hq⟩, rfl⟩
  obtain ⟨-, -, -, -, -, -, -, -, e40, e41⟩ := idx5 t
  refine ⟨t, flush5_4 t, ?_⟩
  rw [mem_blk5]
  intro a
  match a with
  | ⟨0, _⟩ =>
    show win5_4.index t (0 : Fin 2) * 2000 ≤ (i 0).val ∧ (i 0).val < win5_4.index t (0 : Fin 2) * 2000 + 2000
    omega
  | ⟨1, _⟩ =>
    show win5_4.index t (1 : Fin 2) * 160 ≤ (i 1).val ∧ (i 1).val < win5_4.index t (1 : Fin 2) * 160 + 160
    omega

/-- THE REGION: its output array ends as the message function of its input arrays as it found them. -/
theorem messages5 (c : Dev nD)
    (hpay : ∀ (z u : Vec Ideal S2000x160 .f32) (g : Vec Ideal S160x10 .f32) (gt : Vec Ideal S10x160 .f32),
      (∀ (i : Fin 160) (j : Fin 10), g (ix2 i j) = gmat i j) → (∀ (j : Fin 10) (i : Fin 160), gt (ix2 j i) = gmat i j) →
      k5_pay1 (F := Ideal) z u g gt = messageArr z u)
    (hg : ∀ (i : Fin 160) (j : Fin 10), (V c main_cst : S160x10.Idx → EReal) (ix2 i j) = gmat i j)
    (hgt : ∀ (j : Fin 10) (i : Fin 160), (V c main_v0 : S10x160.Idx → EReal) (ix2 j i) = gmat i j) :
    (dat5 V c).arrAt 4 cfg5.N
      = messageArr (n := 800000) (V c main_v12 : S800000x160.Idx → EReal) (V c main_v43 : S800000x160.Idx → EReal) :=
  (dat5 V c).arrAt_eq_of_cover 4 _ (fun t _ => flushed5 V c hpay hg hgt t) (cover5)

end Cert.KernelIdeal.Regions

end
-- ==== Proof.RegionClass6.lean ====
/-
  Tiled region 6 (the last routing update, the rectifier and the classifier), whatever the buffers hold when it is entered:
  after it, the region's output array is the classifying function of its four input arrays, row by row. Point `t` of the 25
  works on nodes 2000 t … 2000 t + 1999: its blocks of the summed messages, of the node's own normalised features and of the
  output are those rows, its blocks of the group matrix, of its transpose, of the classifier's weights and of its bias are
  the whole arrays; what it writes back is the classifying function of its input blocks (the hypothesis `hpay` about the
  body's arithmetic), which is the block of the classifying function of the whole arrays because the function acts on a
  row at a time; and the 25 blocks cover the output array.
-/
import proofs.«157490_j26834955665983_2_alg».proof.Proof.PatchedKernelIdealFrame
import proofs.«157490_j26834955665983_2_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Cert.KernelIdeal.GenP Cert.Routing
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros6 : (![0, 0] : Fin 2 → Nat) = fun _ => 0 := funext fun a => by fin_cases a <;> rfl
theorem zeros6' : (![0] : Fin 1 → Nat) = fun _ => 0 := funext fun a => by fin_cases a; rfl

/-- The index maps over the grid: the node windows follow the point, the others stay at block 0. -/
theorem idx6 : ∀ t : Fin cfg6.N,
    win6_0.index t (0 : Fin 2) = t.val ∧ win6_0.index t (1 : Fin 2) = 0
  ∧ win6_1.index t (0 : Fin 2) = t.val ∧ win6_1.index t (1 : Fin 2) = 0
  ∧ win6_2.index t (0 : Fin 2) = 0 ∧ win6_2.index t (1 : Fin 2) = 0
  ∧ win6_3.index t (0 : Fin 2) = 0 ∧ win6_3.index t (1 : Fin 2) = 0
  ∧ win6_4.index t (0 : Fin 2) = 0 ∧ win6_4.index t (1 : Fin 2) = 0
  ∧ win6_5.index t (0 : Fin 1) = 0
  ∧ win6_6.index t (0 : Fin 2) = t.val ∧ win6_6.index t (1 : Fin 2) = 0 :=
  (by decide +kernel : ∀ t : Fin grid6.N, _)

/-- What point `t` writes back is block `t` of the classifying function of the whole input arrays. -/
theorem flushed6 (c : Dev nD)
    (hpay : ∀ (agg xn : Vec Ideal S2000x160 .f32) (g : Vec Ideal S160x10 .f32) (gt : Vec Ideal S10x160 .f32) (w : Vec Ideal S160x40 .f32) (b : Vec Ideal S40 .f32),
      (∀ (i : Fin 160) (j : Fin 10), g (ix2 i j) = gmat i j) → (∀ (j : Fin 10) (i : Fin 160), gt (ix2 j i) = gmat i j) →
      k6_pay1 (F := Ideal) agg xn g gt w b = classifyArr agg xn w b)
    (hg : ∀ (i : Fin 160) (j : Fin 10), (V c main_cst : S160x10.Idx → EReal) (ix2 i j) = gmat i j)
    (hgt : ∀ (j : Fin 10) (i : Fin 160), (V c main_v0 : S10x160.Idx → EReal) (ix2 j i) = gmat i j) (t : Fin cfg6.N) :
    (dat6 V c).flushed 6 t = ((cfg6.win 6).blk t).view.read (Elt Ideal)
      (classifyArr (n := 50000) (V c main_v47 : S50000x160.Idx → EReal) (V c main_v5 : S50000x160.Idx → EReal)
        (V c main_arg4 : S160x40.Idx → EReal) (V c main_arg5 : S40.Idx → EReal)) := by
  show (cfg6.win 6).cut (grid6.coords t) ((dat6 V c).after 6 t) = _
  rw [after6_6]
  unfold out6_6
  rw [View.canon_unit_zero zeros6]
  simp only [View.ld_unit_zero (S := S2000x160) zeros6, View.ld_unit_zero (S := S160x10) zeros6,
    View.ld_unit_zero (S := S10x160) zeros6, View.ld_unit_zero (S := S160x40) zeros6, View.ld_unit_zero (S := S40) zeros6']
  obtain ⟨e00, e01, e10, e11, e20, e21, e30, e31, e40, e41, e50, e60, e61⟩ := idx6 t
  have hg' : ∀ (i : Fin 160) (j : Fin 10), iblk6 V c 2 t (ix2 i j) = gmat i j := by
    intro i j
    show (V c main_cst : S160x10.Idx → EReal) (((cfg6.win 2).blk t).view.emb (ix2 i j)) = _
    have e : ((cfg6.win 2).blk t).view.emb (ix2 i j) = ix2 i j := by
      funext a; apply Fin.ext
      match a with
      | ⟨0, _⟩ => show win6_2.index t (0 : Fin 2) * 160 + 1 * i.val = i.val; omega
      | ⟨1, _⟩ => show win6_2.index t (1 : Fin 2) * 10 + 1 * j.val = j.val; omega
    rw [e]; exact hg i j
  have hgt' : ∀ (j : Fin 10) (i : Fin 160), iblk6 V c 3 t (ix2 j i) = gmat i j := by
    intro j i
    show (V c main_v0 : S10x160.Idx → EReal) (((cfg6.win 3).blk t).view.emb (ix2 j i)) = _
    have e : ((cfg6.win 3).blk t).view.emb (ix2 j i) = ix2 j i := by
      funext a; apply Fin.ext
      match a with
      | ⟨0, _⟩ => show win6_3.index t (0 : Fin 2) * 10 + 1 * j.val = j.val; omega
      | ⟨1, _⟩ => show win6_3.index t (1 : Fin 2) * 160 + 1 * i.val = i.val; omega
    rw [e]; exact hgt j i
  rw [hpay (iblk6 V c 0 t) (iblk6 V c 1 t) (iblk6 V c 2 t) (iblk6 V c 3 t) (iblk6 V c 4 t) (iblk6 V c 5 t) hg' hgt']
  -- the blocks of the classifier's weights and of its bias are the whole arrays
  have hw : (iblk6 V c 4 t : S160x40.Idx → EReal) = (V c main_arg4 : S160x40.Idx → EReal) := by
    funext y
    show (V c main_arg4 : S160x40.Idx → EReal) (((cfg6.win 4).blk t).view.emb y) = (V c main_arg4 : S160x40.Idx → EReal) y
    congr 1
    funext a; apply Fin.ext
    match a with
    | ⟨0, _⟩ => show win6_4.index t (0 : Fin 2) * 160 + 1 * (y 0).val = (y 0).val; omega
    | ⟨1, _⟩ => show win6_4.index t (1 : Fin 2) * 40 + 1 * (y 1).val = (y 1).val; omega
  have hb : (iblk6 V c 5 t : S40.Idx → EReal) = (V c main_arg5 : S40.Idx → EReal) := by
    funext y
    show (V c main_arg5 : S40.Idx → EReal) (((cfg6.win 5).blk t).view.emb y) = (V c main_arg5 : S40.Idx → EReal) y
    congr 1
    funext a; apply Fin.ext
    match a with
    | ⟨0, _⟩ => show win6_5.index t (0 : Fin 1) * 40 + 1 * (y 0).val = (y 0).val; omega
  funext y
  show affine (fun i => leaky (normalize (fun i' => rowOf (iblk6 V c 0 t) (y 0) i' + rowOf (iblk6 V c 1 t) (y 0) i') i))
        (ent (iblk6 V c 4 t : S160x40.Idx → EReal)) (ent1 (iblk6 V c 5 t : S40.Idx → EReal)) (y 1)
    = affine (fun i => leaky (normalize (fun i' =>
          rowOf (V c main_v47 : S50000x160.Idx → EReal) ((((cfg6.win 6).blk t).view.emb y) 0) i'
            + rowOf (V c main_v5 : S50000x160.Idx → EReal) ((((cfg6.win 6).blk t).view.emb y) 0) i') i))
        (ent (V c main_arg4 : S160x40.Idx → EReal)) (ent1 (V c main_arg5 : S40.Idx → EReal)) ((((cfg6.win 6).blk t).view.emb y) 1)
  have r0 : rowOf (iblk6 V c 0 t) (y 0) = rowOf (V c main_v47 : S50000x160.Idx → EReal) ((((cfg6.win 6).blk t).view.emb y) 0) := by
    funext i
    show (V c main_v47 : S50000x160.Idx → EReal) (((cfg6.win 0).blk t).view.emb (ix2 (y 0) i))
      = (V c main_v47 : S50000x160.Idx → EReal) (ix2 ((((cfg6.win 6).blk t).view.emb y) 0) i)
    congr 1
    funext a; apply Fin.ext
    match a with
    | ⟨0, _⟩ => show win6_0.index t (0 : Fin 2) * 2000 + 1 * (y 0).val = win6_6.index t (0 : Fin 2) * 2000 + 1 * (y 0).val; omega
    | ⟨1, _⟩ => show win6_0.index t (1 : Fin 2) * 160 + 1 * i.val = i.val; omega
  have r1 : rowOf (iblk6 V c 1 t) (y 0) = rowOf (V c main_v5 : S50000x160.Idx → EReal) ((((cfg6.win 6).blk t).view.emb y) 0) := by
    funext i
    show (V c main_v5 : S50000x160.Idx → EReal) (((cfg6.win 1).blk t).view.emb (ix2 (y 0) i))
      = (V c main_v5 : S50000x160.Idx → EReal) (ix2 ((((cfg6.win 6).blk t).view.emb y) 0) i)
    congr 1
    funext a; apply Fin.ext
    match a with
    | ⟨0, _⟩ => show win6_1.index t (0 : Fin 2) * 2000 + 1 * (y 0).val = win6_6.index t (0 : Fin 2) * 2000 + 1 * (y 0).val; omega
    | ⟨1, _⟩ => show win6_1.index t (1 : Fin 2) * 160 + 1 * i.val = i.val; omega
  have c1 : ((((cfg6.win 6).blk t).view.emb y) 1 : Fin 40) = y 1 := by
    apply Fin.ext
    show win6_6.index t (1 : Fin 2) * 40 + 1 * (y 1).val = (y 1).val; omega
  rw [r0, r1, hw, hb, c1]

/-- An index of the output array is in point `t`'s block iff each coordinate is in the block's range. -/
theorem mem_blk6 (t : Fin cfg6.N) (i : S50000x40.Idx) :
    i ∈ ((cfg6.win 6).blk t).view.set ↔ ∀ a : Fin 2, win6_6.index t a * S2000x40.size a ≤ (i a).val
      ∧ (i a).val < win6_6.index t a * S2000x40.size a + S2000x40.size a := by
  show i ∈ ((View.whole main_v48).slice (win6_6.rect t)).set ↔ _
  rw [View.set_slice_whole, Rect.mem_set_unit]
  exact Iff.rfl

/-- Every node row lies in the block of the point numbered by its thousands pair: row `r` in block `r / 2000`. -/
theorem cover6 (i : S50000x40.Idx) :
    ∃ t : Fin cfg6.N, (cfg6.win 6).flush t = true ∧ i ∈ ((cfg6.win 6).blk t).view.set := by
  have hi0 : (i 0).val < 50000 := (i 0).isLt
  have hi1 : (i 1).val < 40 := (i 1).isLt
  have hq : (i 0).val / 2000 < 25 := by omega
  obtain ⟨t, ht⟩ : ∃ t : Fin cfg6.N, t.val = (i 0).val / 2000 := ⟨⟨(i 0).val / 2000, hq⟩, rfl⟩
  obtain ⟨-, -, -, -, -, -, -, -, -, -, -, e60, e61⟩ := idx6 t
  refine ⟨t, flush6_6 t, ?_⟩
  rw [mem_blk6]
  intro a
  match a with
  | ⟨0, _⟩ =>
    show win6_6.index t (0 : Fin 2) * 2000 ≤ (i 0).val ∧ (i 0).val < win6_6.index t (0 : Fin 2) * 2000 + 2000
    omega
  | ⟨1, _⟩ =>
    show win6_6.index t (1 : Fin 2) * 40 ≤ (i 1).val ∧ (i 1).val < win6_6.index t (1 : Fin 2) * 40 + 40
    omega

/-- THE REGION: its output array ends as the classifying function of its input arrays as it found them. -/
theorem classified6 (c : Dev nD)
    (hpay : ∀ (agg xn : Vec Ideal S2000x160 .f32) (g : Vec Ideal S160x10 .f32) (gt : Vec Ideal S10x160 .f32) (w : Vec Ideal S160x40 .f32) (b : Vec Ideal S40 .f32),
      (∀ (i : Fin 160) (j : Fin 10), g (ix2 i j) = gmat i j) → (∀ (j : Fin 10) (i : Fin 160), gt (ix2 j i) = gmat i j) →
      k6_pay1 (F := Ideal) agg xn g gt w b = classifyArr agg xn w b)
    (hg : ∀ (i : Fin 160) (j : Fin 10), (V c main_cst : S160x10.Idx → EReal) (ix2 i j) = gmat i j)
    (hgt : ∀ (j : Fin 10) (i : Fin 160), (V c main_v0 : S10x160.Idx → EReal) (ix2 j i) = gmat i j) :
    (dat6 V c).arrAt 6 cfg6.N
      = classifyArr (n := 50000) (V c main_v47 : S50000x160.Idx → EReal) (V c main_v5 : S50000x160.Idx → EReal) (V c main_arg4 : S160x40.Idx → EReal) (V c main_arg5 : S40.Idx → EReal) :=
  (dat6 V c).arrAt_eq_of_cover 6 _ (fun t _ => flushed6 V c hpay hg hgt t) (cover6)

end Cert.KernelIdeal.Regions

end
-- ==== Proof.GroupMatrix.lean ====
/-
  The 0/1 group matrix: summing a row against a column of it adds up one factor group; summing ten numbers against a
  row of it picks the number of the feature's own group.
-/
import Idealize.ShloMosaic.PureOps.Ideal
import proofs.«157490_j26834955665983_2_alg».proof.Proof.Spec

noncomputable section

namespace Cert.Routing.GroupMatrix

open Idealize.ShloMosaic Cert.Routing

/-- The f32 word of one denotes the number one. -/
theorem ofBits_one : Ideal.ofBits .f32 0x3F800000#32 = 1 := by
  simp [Ideal.ofBits, Ideal.ieee, -EReal.coe_mul]; norm_num

/-- The f32 word of zero denotes the number zero. -/
theorem ofBits_zero : Ideal.ofBits .f32 0x00000000#32 = 0 := by
  simp [Ideal.ofBits, Ideal.ieee]

/-- An entry of the group matrix is the number one inside the group and zero outside. -/
theorem gmat_eq (i : Fin 160) (j : Fin 10) : gmat i j = if i.val / 16 = j.val then (1 : EReal) else 0 := by
  unfold gmat
  split_ifs
  · exact ofBits_one
  · exact ofBits_zero

/-- Every feature is feature `l` of group `j` for exactly one pair: features are indexed by group and position. -/
def featEquiv : Fin 10 × Fin 16 ≃ Fin 160 where
  toFun p := feat p.1 p.2
  invFun i := (grp i, ⟨i.val % 16, Nat.mod_lt _ (by norm_num)⟩)
  left_inv p := by
    rcases p with ⟨j, l⟩
    apply Prod.ext
    · exact grp_feat j l
    · apply Fin.ext; show (16 * j.val + l.val) % 16 = l.val; omega
  right_inv i := by
    apply Fin.ext; show 16 * (i.val / 16) + i.val % 16 = i.val; omega

/-- Summing a row against column `j` of the group matrix adds up the row's factor group `j`. -/
theorem sum_mul_gmat (a : Fin 160 → EReal) (j : Fin 10) :
    ∑ i : Fin 160, a i * gmat i j = ∑ l : Fin 16, a (feat j l) := by
  rw [← Equiv.sum_comp featEquiv (fun i => a i * gmat i j), Fintype.sum_prod_type]
  have h : ∀ (j' : Fin 10) (l : Fin 16),
      a (featEquiv (j', l)) * gmat (featEquiv (j', l)) j = if j' = j then a (feat j' l) else 0 := by
    intro j' l
    have hg : (featEquiv (j', l)).val / 16 = j'.val := by
      show (16 * j'.val + l.val) / 16 = j'.val; omega
    rw [gmat_eq, hg]
    by_cases hj : j' = j
    · subst hj; simp [featEquiv]
    · have : ¬ j'.val = j.val := fun h => hj (Fin.ext h)
      simp [this, hj]
  simp_rw [h]
  rw [Finset.sum_comm]
  simp [Finset.sum_ite_eq']

/-- Summing ten numbers against row `i` of the group matrix picks the number of feature `i`'s group. -/
theorem sum_mul_gmat_row (b : Fin 10 → EReal) (i : Fin 160) :
    ∑ j : Fin 10, b j * gmat i j = b (grp i) := by
  have h : ∀ j : Fin 10, b j * gmat i j = if grp i = j then b j else 0 := by
    intro j
    rw [gmat_eq]
    by_cases hj : grp i = j
    · have : i.val / 16 = j.val := by rw [← hj]; rfl
      simp [this, hj]
    · have : ¬ i.val / 16 = j.val := fun h => hj (Fin.ext h)
      simp [this, hj]
  simp_rw [h]
  simp

end Cert.Routing.GroupMatrix

end
-- ==== Proof.BodyMessage.lean ====
/-
  The tiled program's routing-message body, read at an index.

  On a block of 2000 edges the body computes, for source rows z and target rows u,
      z * ((softmax over the 10 groups of ((z * u) · G) / 1) · Gᵀ)
  where G is the 160 x 10 group matrix of zeros and ones. The product with G sums each factor group's 16 features, the
  product with Gᵀ spreads a group's number back over the group's 16 features; the softmax is taken row by row with the
  row's largest agreement subtracted first. Read at row p and feature i this is the edge's message
      z p i * softmax (score (z p) (u p)) (grp i).
-/
import proofs.«157490_j26834955665983_2_alg».proof.Proof.Gen.KernelIdeal.Skeleton
import proofs.«157490_j26834955665983_2_alg».proof.Proof.Spec
import proofs.«157490_j26834955665983_2_alg».proof.Proof.GroupMatrix
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Body

open Idealize.ShloMosaic Idealize.ShloMosaic.ValueIdx Cert.Routing
open Cert.KernelIdeal Cert.KernelIdeal.Gen

/-! ## The two products with the group matrix -/

/-- The dimension numbers of the product of a block of rows with the group matrix. -/
abbrev dotG : DotDims S2000x160 S160x10 S2000x10 := dot_S2000x160_S160x10_S2000x10_1_0_0_1_n_n
/-- The dimension numbers of the product of a block of group numbers with the transposed group matrix. -/
abbrev dotGt : DotDims S2000x10 S10x160 S2000x160 := dot_S2000x10_S10x160_S2000x160_1_0_0_1_n_n

theorem lhsG_0 (i : S2000x10.Idx) (q : dotG.contr.Idx) : (dotG.lhsIdx i q 0).val = (i 0).val := by
  unfold DotDims.lhsIdx
  rw [dif_neg (show ¬(0 : Fin S2000x160.rank) ∈ dotG.lhsBatch by decide),
    dif_pos (show (0 : Fin S2000x160.rank) ∈ dotG.lhsNonContracting by decide)]
  rfl
theorem lhsG_1 (i : S2000x10.Idx) (q : dotG.contr.Idx) : (dotG.lhsIdx i q 1).val = (q ⟨0, by decide⟩).val :=
  dotG.lhsIdx_val_of_single rfl i q
theorem rhsG_0 (i : S2000x10.Idx) (q : dotG.contr.Idx) : (dotG.rhsIdx i q 0).val = (q ⟨0, by decide⟩).val :=
  dotG.rhsIdx_val_of_single rfl i q
theorem rhsG_1 (i : S2000x10.Idx) (q : dotG.contr.Idx) : (dotG.rhsIdx i q 1).val = (i 1).val := by
  unfold DotDims.rhsIdx
  rw [dif_neg (show ¬(1 : Fin S160x10.rank) ∈ dotG.rhsBatch by decide),
    dif_pos (show (1 : Fin S160x10.rank) ∈ dotG.rhsNonContracting by decide)]
  rfl

/-- The product of a block of rows with the group matrix, at row `p` and group `j`: the sum of the row over the group's
    16 features. -/
theorem matmulG_apply (x : FVec Ideal S2000x160 .f32) (g : FVec Ideal S160x10 .f32)
    (hg : ∀ (i : Fin 160) (j : Fin 10), g (ix2 i j) = gmat i j) (p : Fin 2000) (j : Fin 10) :
    matmul dotG (some .fp32) x g (constant (F := Ideal) S2000x10 .f32 0x00000000#32) (ix2 p j)
      = ∑ l : Fin 16, x (ix2 p (feat j l)) := by
  show FloatOps.matmul dotG (some .fp32) x g (constant (F := Ideal) S2000x10 .f32 0x00000000#32) (ix2 p j) = _
  rw [Ideal.matmul_constant_zero_apply, ← Equiv.sum_comp (contrEquiv1 dotG 160 rfl rfl).symm]
  refine (Finset.sum_congr rfl fun k _ => ?_).trans (GroupMatrix.sum_mul_gmat (fun i => x (ix2 p i)) j)
  have hk := contrEquiv1_symm_val dotG 160 rfl rfl k
  have el : dotG.lhsIdx (ix2 p j) ((contrEquiv1 dotG 160 rfl rfl).symm k) = ix2 p k := funext fun a => Fin.ext (by
    match a with
    | ⟨0, _⟩ => exact lhsG_0 _ _
    | ⟨1, _⟩ => exact (lhsG_1 _ _).trans hk)
  have er : dotG.rhsIdx (ix2 p j) ((contrEquiv1 dotG 160 rfl rfl).symm k) = ix2 k j := funext fun a => Fin.ext (by
    match a with
    | ⟨0, _⟩ => exact (rhsG_0 _ _).trans hk
    | ⟨1, _⟩ => exact rhsG_1 _ _)
  rw [el, er, hg]

theorem lhsGt_0 (i : S2000x160.Idx) (q : dotGt.contr.Idx) : (dotGt.lhsIdx i q 0).val = (i 0).val := by
  unfold DotDims.lhsIdx
  rw [dif_neg (show ¬(0 : Fin S2000x10.rank) ∈ dotGt.lhsBatch by decide),
    dif_pos (show (0 : Fin S2000x10.rank) ∈ dotGt.lhsNonContracting by decide)]
  rfl
theorem lhsGt_1 (i : S2000x160.Idx) (q : dotGt.contr.Idx) : (dotGt.lhsIdx i q 1).val = (q ⟨0, by decide⟩).val :=
  dotGt.lhsIdx_val_of_single rfl i q
theorem rhsGt_0 (i : S2000x160.Idx) (q : dotGt.contr.Idx) : (dotGt.rhsIdx i q 0).val = (q ⟨0, by decide⟩).val :=
  dotGt.rhsIdx_val_of_single rfl i q
theorem rhsGt_1 (i : S2000x160.Idx) (q : dotGt.contr.Idx) : (dotGt.rhsIdx i q 1).val = (i 1).val := by
  unfold DotDims.rhsIdx
  rw [dif_neg (show ¬(1 : Fin S10x160.rank) ∈ dotGt.rhsBatch by decide),
    dif_pos (show (1 : Fin S10x160.rank) ∈ dotGt.rhsNonContracting by decide)]
  rfl

/-- The product of a block of group numbers with the transposed group matrix, at row `p` and feature `i`: the number of
    the feature's group. -/
theorem matmulGt_apply (w : FVec Ideal S2000x10 .f32) (gt : FVec Ideal S10x160 .f32)
    (hgt : ∀ (j : Fin 10) (i : Fin 160), gt (ix2 j i) = gmat i j) (p : Fin 2000) (i : Fin 160) :
    matmul dotGt (some .fp32) w gt (constant (F := Ideal) S2000x160 .f32 0x00000000#32) (ix2 p i)
      = w (ix2 p (grp i)) := by
  show FloatOps.matmul dotGt (some .fp32) w gt (constant (F := Ideal) S2000x160 .f32 0x00000000#32) (ix2 p i) = _
  rw [Ideal.matmul_constant_zero_apply, ← Equiv.sum_comp (contrEquiv1 dotGt 10 rfl rfl).symm]
  refine (Finset.sum_congr rfl fun k _ => ?_).trans (GroupMatrix.sum_mul_gmat_row (fun j => w (ix2 p j)) i)
  have hk := contrEquiv1_symm_val dotGt 10 rfl rfl k
  have el : dotGt.lhsIdx (ix2 p i) ((contrEquiv1 dotGt 10 rfl rfl).symm k) = ix2 p k := funext fun a => Fin.ext (by
    match a with
    | ⟨0, _⟩ => exact lhsGt_0 _ _
    | ⟨1, _⟩ => exact (lhsGt_1 _ _).trans hk)
  have er : dotGt.rhsIdx (ix2 p i) ((contrEquiv1 dotGt 10 rfl rfl).symm k) = ix2 k i := funext fun a => Fin.ext (by
    match a with
    | ⟨0, _⟩ => exact (rhsGt_0 _ _).trans hk
    | ⟨1, _⟩ => exact rhsGt_1 _ _)
  rw [el, er, hgt]

/-! ## The row reductions and the column spread back over a row -/

/-- A row's index with the group coordinate put back. -/
theorem lift_row (h : S2000x10.Reduces [1] S2000) (p : Fin 2000) (k : Fin 10) : h.lift (ix1 p) k = ix2 p k :=
  funext fun a => Fin.ext (by
    match a with
    | ⟨0, _⟩ => rfl
    | ⟨1, _⟩ => rfl)

/-- The sum of a block's rows, at row `p`: the sum of the row's ten entries. -/
theorem rowSum_apply (s : FVec Ideal S2000x10 .f32) (h : S2000x10.Reduces [1] S2000) (hφ : FKind.Formats .f32)
    (hacc : (0x00000000#32 : BitVec 32) = FKind.add.neutral .f32 hφ) (p : Fin 2000) :
    multiReduction .add [1] S2000 s 0x00000000#32 h hφ hacc (ix1 p) = ∑ j : Fin 10, s (ix2 p j) := by
  refine (Ideal.multiReduction_add_single s 0x00000000#32 h hφ hacc (ix1 p)).trans ?_
  exact Finset.sum_congr rfl fun k _ => congrArg s (lift_row h p k)

/-- The largest entry of a block's rows, at row `p`: the fold of `max` from minus infinity over the row's ten entries. -/
theorem rowMax_apply (s : FVec Ideal S2000x10 .f32) (h : S2000x10.Reduces [1] S2000) (hφ : FKind.Formats .f32)
    (hacc : (0xFF800000#32 : BitVec 32) = FKind.maximumf.neutral .f32 hφ) (p : Fin 2000) :
    multiReduction .maximumf [1] S2000 s 0xFF800000#32 h hφ hacc (ix1 p)
      = (Finset.univ : Finset (Fin 10)).fold max negInf (fun j => s (ix2 p j)) := by
  refine (Ideal.multiReduction_maximumf_single s 0xFF800000#32 h hφ hacc (ix1 p)).trans ?_
  exact congrArg ((Finset.univ : Finset (Fin 10)).fold max negInf) (funext fun k => congrArg s (lift_row h p k))

/-- A column of row numbers spread over the ten groups reads, at row `p` and any group, the number of row `p`. -/
theorem column_apply (v : FVec Ideal S2000 .f32) (h1 : S2000.ShapeCasts S2000x1) (h2 : S2000x1.Broadcasts S2000x10)
    (p : Fin 2000) (j : Fin 10) :
    broadcastTo S2000x10 (shapeCast S2000x1 v h1) h2 (ix2 p j) = v (ix1 p) := by
  refine (broadcastTo_apply (shapeCast S2000x1 v h1) h2 (ix2 p j) (ix2 p (0 : Fin 1)) fun a => ?_).trans ?_
  · match a with
    | ⟨0, _⟩ => rfl
    | ⟨1, _⟩ => rfl
  · refine shapeCast_apply v h1 (ix2 p (0 : Fin 1)) (ix1 p) ?_
    rw [Shape.rowMajor_val_two, Shape.rowMajor_val_one]
    show p.val = p.val * 1 + 0
    omega

/-! ## The body's stages -/

/-- The agreements of a block of edges: the products of the two blocks summed group by group, over the temperature. -/
def agree (z u : FVec Ideal S2000x160 .f32) (g : FVec Ideal S160x10 .f32) : FVec Ideal S2000x10 .f32 :=
  divf (matmul dotG (some .fp32) (mulf z u) g (constant (F := Ideal) S2000x10 .f32 0x00000000#32))
    (broadcast S2000x10 (Scalar.ofBits (F := Ideal) .f32 0x3F800000#32))

/-- Every row's largest agreement. -/
def rowTop (s : FVec Ideal S2000x10 .f32) : FVec Ideal S2000 .f32 :=
  maximumf (broadcast S2000 (Scalar.ofBits (F := Ideal) .f32 0xFF800000#32))
    (multiReduction .maximumf [1] S2000 s 0xFF800000#32 reduces_S2000x10_S2000 (.inl rfl) rfl)

/-- The exponentials of the agreements less their row's largest. -/
def expShift (s : FVec Ideal S2000x10 .f32) : FVec Ideal S2000x10 .f32 :=
  exp (subf s (broadcastTo S2000x10 (shapeCast S2000x1 (rowTop s) shapeCasts_S2000_S2000x1) broadcasts_S2000x1_S2000x10))

/-- The softmax of every row of agreements. -/
def soft (s : FVec Ideal S2000x10 .f32) : FVec Ideal S2000x10 .f32 :=
  divf (expShift s)
    (broadcastTo S2000x10
      (shapeCast S2000x1 (multiReduction .add [1] S2000 (expShift s) 0x00000000#32 reduces_S2000x10_S2000 (.inl rfl) rfl)
        shapeCasts_S2000_S2000x1) broadcasts_S2000x1_S2000x10)

/-- The whole body: the source rows, each group weighed by the softmax of the agreements. -/
def body (z u : FVec Ideal S2000x160 .f32) (g : FVec Ideal S160x10 .f32) (gt : FVec Ideal S10x160 .f32) :
    FVec Ideal S2000x160 .f32 :=
  mulf z (matmul dotGt (some .fp32) (soft (agree z u g)) gt (constant (F := Ideal) S2000x160 .f32 0x00000000#32))

theorem agree_apply (z u : FVec Ideal S2000x160 .f32) (g : FVec Ideal S160x10 .f32)
    (hg : ∀ (i : Fin 160) (j : Fin 10), g (ix2 i j) = gmat i j) (p : Fin 2000) (j : Fin 10) :
    agree z u g (ix2 p j) = score (rowOf z p) (rowOf u p) j := by
  unfold agree
  rw [divf_apply, matmulG_apply (mulf z u) g hg p j, broadcast_apply]
  rfl

theorem rowTop_apply (s : FVec Ideal S2000x10 .f32) (p : Fin 2000) :
    rowTop s (ix1 p) = top (fun j => s (ix2 p j)) := by
  unfold rowTop
  rw [maximumf_apply, broadcast_apply, rowMax_apply s reduces_S2000x10_S2000 (.inl rfl) rfl p]
  rfl

theorem expShift_apply (s : FVec Ideal S2000x10 .f32) (p : Fin 2000) (j : Fin 10) :
    expShift s (ix2 p j) = Ideal.exp (s (ix2 p j) - top (fun j' => s (ix2 p j'))) := by
  unfold expShift
  show Ideal.exp (subf s _ (ix2 p j)) = _
  rw [subf_apply, column_apply (rowTop s) shapeCasts_S2000_S2000x1 broadcasts_S2000x1_S2000x10 p j, rowTop_apply]

theorem soft_apply (s : FVec Ideal S2000x10 .f32) (p : Fin 2000) (j : Fin 10) :
    soft s (ix2 p j) = softmax (fun j' => s (ix2 p j')) j := by
  unfold soft
  rw [divf_apply, column_apply _ shapeCasts_S2000_S2000x1 broadcasts_S2000x1_S2000x10 p j,
    rowSum_apply (expShift s) reduces_S2000x10_S2000 (.inl rfl) rfl p, expShift_apply]
  unfold softmax
  exact congrArg (Ideal.div _) (Finset.sum_congr rfl fun j' _ => expShift_apply s p j')

/-- The body at row `p` and feature `i` is the edge's message. -/
theorem body_apply (z u : FVec Ideal S2000x160 .f32) (g : FVec Ideal S160x10 .f32) (gt : FVec Ideal S10x160 .f32)
    (hg : ∀ (i : Fin 160) (j : Fin 10), g (ix2 i j) = gmat i j) (hgt : ∀ (j : Fin 10) (i : Fin 160), gt (ix2 j i) = gmat i j)
    (p : Fin 2000) (i : Fin 160) :
    body z u g gt (ix2 p i) = message (rowOf z p) (rowOf u p) i := by
  unfold body
  rw [mulf_apply, matmulGt_apply (soft (agree z u g)) gt hgt p i, soft_apply]
  have hs : (fun j' => agree z u g (ix2 p j')) = score (rowOf z p) (rowOf u p) := funext fun j' => agree_apply z u g hg p j'
  rw [hs]
  rfl

theorem body_eq (z u : FVec Ideal S2000x160 .f32) (g : FVec Ideal S160x10 .f32) (gt : FVec Ideal S10x160 .f32)
    (hg : ∀ (i : Fin 160) (j : Fin 10), g (ix2 i j) = gmat i j) (hgt : ∀ (j : Fin 10) (i : Fin 160), gt (ix2 j i) = gmat i j) :
    body z u g gt = messageArr z u := by
  funext idx
  obtain ⟨p, i, rfl⟩ : ∃ (p : Fin 2000) (i : Fin 160), idx = ix2 p i := ⟨idx 0, idx 1, eq_ix2 idx⟩
  exact body_apply z u g gt hg hgt p i

/-! ## The three printed bodies -/

theorem pay1_eq_body (z u : Vec Ideal S2000x160 .f32) (g : Vec Ideal S160x10 .f32) (gt : Vec Ideal S10x160 .f32) :
    k1_pay1 (F := Ideal) z u g gt
      = body (shapeCast S2000x160 z shapeCasts_S2000x160_S2000x160) (shapeCast S2000x160 u shapeCasts_S2000x160_S2000x160) g
          (shapeCast S10x160 gt shapeCasts_S10x160_S10x160) := rfl
theorem pay3_eq_body (z u : Vec Ideal S2000x160 .f32) (g : Vec Ideal S160x10 .f32) (gt : Vec Ideal S10x160 .f32) :
    k3_pay1 (F := Ideal) z u g gt
      = body (shapeCast S2000x160 z shapeCasts_S2000x160_S2000x160) (shapeCast S2000x160 u shapeCasts_S2000x160_S2000x160) g
          (shapeCast S10x160 gt shapeCasts_S10x160_S10x160) := rfl
theorem pay5_eq_body (z u : Vec Ideal S2000x160 .f32) (g : Vec Ideal S160x10 .f32) (gt : Vec Ideal S10x160 .f32) :
    k5_pay1 (F := Ideal) z u g gt
      = body (shapeCast S2000x160 z shapeCasts_S2000x160_S2000x160) (shapeCast S2000x160 u shapeCasts_S2000x160_S2000x160) g
          (shapeCast S10x160 gt shapeCasts_S10x160_S10x160) := rfl

theorem message_payload1 (z u : Vec Ideal S2000x160 .f32) (g : Vec Ideal S160x10 .f32) (gt : Vec Ideal S10x160 .f32)
    (hg : ∀ (i : Fin 160) (j : Fin 10), g (ix2 i j) = gmat i j) (hgt : ∀ (j : Fin 10) (i : Fin 160), gt (ix2 j i) = gmat i j) :
    k1_pay1 (F := Ideal) z u g gt = messageArr z u := by
  rw [pay1_eq_body, shapeCast_self, shapeCast_self, shapeCast_self]
  exact body_eq z u g gt hg hgt
theorem message_payload3 (z u : Vec Ideal S2000x160 .f32) (g : Vec Ideal S160x10 .f32) (gt : Vec Ideal S10x160 .f32)
    (hg : ∀ (i : Fin 160) (j : Fin 10), g (ix2 i j) = gmat i j) (hgt : ∀ (j : Fin 10) (i : Fin 160), gt (ix2 j i) = gmat i j) :
    k3_pay1 (F := Ideal) z u g gt = messageArr z u := by
  rw [pay3_eq_body, shapeCast_self, shapeCast_self, shapeCast_self]
  exact body_eq z u g gt hg hgt
theorem message_payload5 (z u : Vec Ideal S2000x160 .f32) (g : Vec Ideal S160x10 .f32) (gt : Vec Ideal S10x160 .f32)
    (hg : ∀ (i : Fin 160) (j : Fin 10), g (ix2 i j) = gmat i j) (hgt : ∀ (j : Fin 10) (i : Fin 160), gt (ix2 j i) = gmat i j) :
    k5_pay1 (F := Ideal) z u g gt = messageArr z u := by
  rw [pay5_eq_body, shapeCast_self, shapeCast_self, shapeCast_self]
  exact body_eq z u g gt hg hgt

end Cert.KernelIdeal.Body

end
-- ==== Proof.BodyNorm.lean ====
/-
  The tiled program's normalising bodies read at an index. Each body divides every factor group of a row by its floored
  Euclidean length; the lengths are obtained by multiplying the squares with the 0/1 group matrix and are spread back
  over the features by multiplying with its transpose. Read at (row, feature) this is the specification's
  `normalize` of the row. This module has the products read at an index, the shared normalising core, and the two
  routing updates.
-/
import proofs.«157490_j26834955665983_2_alg».proof.Proof.Gen.KernelIdeal.Skeleton
import proofs.«157490_j26834955665983_2_alg».proof.Proof.Spec
import proofs.«157490_j26834955665983_2_alg».proof.Proof.GroupMatrix
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.Routing
open Cert.KernelIdeal Cert.KernelIdeal.Gen

/-- A rows-by-columns product accumulated into zero, read at an index: the sum over the contracted coordinate of the
    products of the entries. -/
theorem matmul_zero_ix2 {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The squares summed group by group: the product with the group matrix's shape, at an index. -/
theorem matmul_160x10_apply (A : FVec Ideal S2000x160 .f32) (B : FVec Ideal S160x10 .f32) (p : Fin 2000) (j : Fin 10) :
    matmul dot_S2000x160_S160x10_S2000x10_1_0_0_1_n_n (some .fp32) A B
        (constant (F := Ideal) S2000x10 .f32 0x00000000#32) (ix2 p j)
      = ∑ c : Fin 160, A (ix2 p c) * B (ix2 c j) :=
  matmul_zero_ix2 Facts₀.dot_S2000x160_S160x10_S2000x10_1_0_0_1_n_n_wf _ A B p j

theorem matmul_10x160_apply (A : FVec Ideal S2000x10 .f32) (B : FVec Ideal S10x160 .f32) (p : Fin 2000) (i : Fin 160) :
    matmul dot_S2000x10_S10x160_S2000x160_1_0_0_1_n_n (some .fp32) A B
        (constant (F := Ideal) S2000x160 .f32 0x00000000#32) (ix2 p i)
      = ∑ c : Fin 10, A (ix2 p c) * B (ix2 c i) :=
  matmul_zero_ix2 Facts₀.dot_S2000x10_S10x160_S2000x160_1_0_0_1_n_n_wf _ A B p i

/-- The bias-free, rectifier-free core all three bodies share: every factor group of `h` divided by its floored
    length, the lengths summed through the group matrix `g` and spread back through its transpose `gt`. -/
def normTerm (h : FVec Ideal S2000x160 .f32) (g : FVec Ideal S160x10 .f32) (gt : FVec Ideal S10x160 .f32) :
    FVec Ideal S2000x160 .f32 :=
  divf h (matmul dot_S2000x10_S10x160_S2000x160_1_0_0_1_n_n (some .fp32)
    (maximumf (sqrt (matmul dot_S2000x160_S160x10_S2000x10_1_0_0_1_n_n (some .fp32) (mulf h h) g
        (constant S2000x10 .f32 0x00000000#32)))
      (broadcast S2000x10 (Scalar.ofBits (F := Ideal) .f32 0x2B8CBCCC#32)))
    (shapeCast S10x160 gt Facts₀.shapeCasts_S10x160_S10x160) (constant S2000x160 .f32 0x00000000#32))

/-- Read at row `p`, feature `i`, the shared core is the specification's normalisation of row `p`. -/
theorem normTerm_apply (h : FVec Ideal S2000x160 .f32) (g : FVec Ideal S160x10 .f32) (gt : FVec Ideal S10x160 .f32)
    (hg : ∀ (i : Fin 160) (j : Fin 10), g (ix2 i j) = gmat i j)
    (hgt : ∀ (j : Fin 10) (i : Fin 160), gt (ix2 j i) = gmat i j) (p : Fin 2000) (i : Fin 160) :
    normTerm h g gt (ix2 p i) = Routing.normalize (fun i' => h (ix2 p i')) i := by
  unfold normTerm Routing.normalize
  rw [divf_apply]
  congr 1
  rw [matmul_10x160_apply, shapeCast_self]
  have hrow : ∀ c : Fin 10,
      maximumf (sqrt (matmul dot_S2000x160_S160x10_S2000x10_1_0_0_1_n_n (some .fp32) (mulf h h) g
          (constant S2000x10 .f32 0x00000000#32)))
        (broadcast S2000x10 (Scalar.ofBits (F := Ideal) .f32 0x2B8CBCCC#32)) (ix2 p c)
        = Routing.norm (fun i' => h (ix2 p i')) c := by
    intro c
    rw [maximumf_apply, broadcast_apply]
    show max (Ideal.sqrt (matmul dot_S2000x160_S160x10_S2000x10_1_0_0_1_n_n (some .fp32) (mulf h h) g
          (constant S2000x10 .f32 0x00000000#32) (ix2 p c))) eps = _
    rw [matmul_160x10_apply]
    unfold Routing.norm Routing.normSq
    congr 2
    simp_rw [hg, mulf_apply]
    exact GroupMatrix.sum_mul_gmat (fun i' => h (ix2 p i') * h (ix2 p i')) c
  simp_rw [hrow, hgt]
  exact GroupMatrix.sum_mul_gmat_row (Routing.norm fun i' => h (ix2 p i')) i

/-- The routing update's body (launch of the first round) is the specification's update, row by row. -/
theorem renorm_payload2 (agg xn : Vec Ideal S2000x160 .f32) (g : Vec Ideal S160x10 .f32) (gt : Vec Ideal S10x160 .f32)
    (hg : ∀ (i : Fin 160) (j : Fin 10), g (ix2 i j) = gmat i j) (hgt : ∀ (j : Fin 10) (i : Fin 160), gt (ix2 j i) = gmat i j) :
    k2_pay1 (F := Ideal) agg xn g gt = renormArr agg xn := by
  funext idx
  obtain ⟨p, i, rfl⟩ : ∃ (p : Fin 2000) (i : Fin 160), idx = ix2 p i := ⟨idx 0, idx 1, eq_ix2 idx⟩
  have hk : k2_pay1 (F := Ideal) agg xn g gt
      = normTerm (addf (shapeCast S2000x160 agg Facts₀.shapeCasts_S2000x160_S2000x160)
          (shapeCast S2000x160 xn Facts₀.shapeCasts_S2000x160_S2000x160)) g gt := rfl
  rw [hk, normTerm_apply _ g gt hg hgt, shapeCast_self, shapeCast_self]
  rfl

/-- The routing update's body (launch of the second round) is the specification's update, row by row. -/
theorem renorm_payload4 (agg xn : Vec Ideal S2000x160 .f32) (g : Vec Ideal S160x10 .f32) (gt : Vec Ideal S10x160 .f32)
    (hg : ∀ (i : Fin 160) (j : Fin 10), g (ix2 i j) = gmat i j) (hgt : ∀ (j : Fin 10) (i : Fin 160), gt (ix2 j i) = gmat i j) :
    k4_pay1 (F := Ideal) agg xn g gt = renormArr agg xn := by
  funext idx
  obtain ⟨p, i, rfl⟩ : ∃ (p : Fin 2000) (i : Fin 160), idx = ix2 p i := ⟨idx 0, idx 1, eq_ix2 idx⟩
  have hk : k4_pay1 (F := Ideal) agg xn g gt
      = normTerm (addf (shapeCast S2000x160 agg Facts₀.shapeCasts_S2000x160_S2000x160)
          (shapeCast S2000x160 xn Facts₀.shapeCasts_S2000x160_S2000x160)) g gt := rfl
  rw [hk, normTerm_apply _ g gt hg hgt, shapeCast_self, shapeCast_self]
  rfl

end Cert.KernelIdeal.Body
end
-- ==== Proof.BodyNormAffine.lean ====
/-
  The two bodies with an affine layer, read at an index: the first body (affine layer, leaky rectifier, normalisation)
  and the last (routing update, leaky rectifier, classifier). The changes of float format around the products are the
  identity on extended reals; the bias row is broadcast over the rows; the products accumulate into zero.
-/
import proofs.«157490_j26834955665983_2_alg».proof.Proof.BodyNorm

noncomputable section

namespace Cert.KernelIdeal.Body

open Idealize.ShloMosaic Idealize.ShloMosaic.ValueIdx Cert.Routing
open Cert.KernelIdeal Cert.KernelIdeal.Gen

/-- The leaky rectifier as the bodies spell it on a block: where the value is at least the zero word the value, elsewhere
    the slope word times the value. -/
def leakyVec (v : FVec Ideal S2000x160 .f32) : FVec Ideal S2000x160 .f32 :=
  select (cmpf .oge v (broadcast S2000x160 (Scalar.ofBits (F := Ideal) .f32 0x00000000#32))) v
    (mulf (broadcast S2000x160 (Scalar.ofBits (F := Ideal) .f32 0x3C23D70A#32)) v)

/-- Read at an index it is the specification's rectifier of the entry. -/
theorem leakyVec_apply (v : FVec Ideal S2000x160 .f32) (idx : S2000x160.Idx) : leakyVec v idx = leaky (v idx) := by
  unfold leakyVec leaky
  rw [select_apply, cmpf_apply, mulf_apply, broadcast_apply, broadcast_apply, Ideal.cmpf_def]
  show Scalar.select (Ideal.cmp .oge (v idx) (Ideal.ofBits .f32 0x00000000#32)) (v idx) (slope * v idx) = _
  rw [Ideal.ofBits_zero_f32]

/-- The classifier's product read at an index. -/
theorem matmul_160x40_apply {φ₁ φ₂ : FTy} (A : FVec Ideal S2000x160 φ₁) (B : FVec Ideal S160x40 φ₂) (p : Fin 2000) (n : Fin 40) :
    matmul dot_S2000x160_S160x40_S2000x40_1_0_0_1_n_n none A B
        (constant (F := Ideal) S2000x40 .f32 0x00000000#32) (ix2 p n)
      = ∑ c : Fin 160, A (ix2 p c) * B (ix2 c n) :=
  matmul_zero_ix2 Facts₀.dot_S2000x160_S160x40_S2000x40_1_0_0_1_n_n_wf _ A B p n

/-- The last body — the update, the rectifier and the classifier — is the specification's, row by row. -/
theorem classify_payload (agg xn : Vec Ideal S2000x160 .f32) (g : Vec Ideal S160x10 .f32) (gt : Vec Ideal S10x160 .f32)
    (w : Vec Ideal S160x40 .f32) (b : Vec Ideal S40 .f32)
    (hg : ∀ (i : Fin 160) (j : Fin 10), g (ix2 i j) = gmat i j) (hgt : ∀ (j : Fin 10) (i : Fin 160), gt (ix2 j i) = gmat i j) :
    k6_pay1 (F := Ideal) agg xn g gt w b = classifyArr agg xn w b := by
  funext idx
  obtain ⟨p, n, rfl⟩ : ∃ (p : Fin 2000) (n : Fin 40), idx = ix2 p n := ⟨idx 0, idx 1, eq_ix2 idx⟩
  have hk : k6_pay1 (F := Ideal) agg xn g gt w b
      = addf (matmul dot_S2000x160_S160x40_S2000x40_1_0_0_1_n_n none
            (truncf .bf16 (leakyVec (normTerm (addf (shapeCast S2000x160 agg Facts₀.shapeCasts_S2000x160_S2000x160)
              (shapeCast S2000x160 xn Facts₀.shapeCasts_S2000x160_S2000x160)) g gt)) Facts₀.bitsLt_bf16_f32)
            (truncf .bf16 w Facts₀.bitsLt_bf16_f32) (constant S2000x40 .f32 0x00000000#32))
          (broadcastTo S2000x40 (shapeCast S1x40 b Facts₀.shapeCasts_S40_S1x40) Facts₀.broadcasts_S1x40_S2000x40) := rfl
  rw [hk, addf_apply, matmul_160x40_apply, broadcastTo_1b_ab_apply, shapeCast_a_1a_apply]
  unfold classifyArr affine
  congr 1
  refine Finset.sum_congr rfl fun c _ => ?_
  rw [truncf_apply, truncf_apply, leakyVec_apply, normTerm_apply _ g gt hg hgt, shapeCast_self, shapeCast_self]
  rfl

/-- The first layer's product read at an index. -/
theorem matmul_500x160_apply {φ₁ φ₂ : FTy} (A : FVec Ideal S2000x500 φ₁) (B : FVec Ideal S500x160 φ₂) (p : Fin 2000) (n : Fin 160) :
    matmul dot_S2000x500_S500x160_S2000x160_1_0_0_1_n_n none A B
        (constant (F := Ideal) S2000x160 .f32 0x00000000#32) (ix2 p n)
      = ∑ c : Fin 500, A (ix2 p c) * B (ix2 c n) :=
  matmul_zero_ix2 Facts₀.dot_S2000x500_S500x160_S2000x160_1_0_0_1_n_n_wf _ A B p n

/-- The first body — the affine layer, the rectifier and the first normalisation — is the specification's, row by row. -/
theorem embed_payload (x : Vec Ideal S2000x500 .f32) (w : Vec Ideal S500x160 .f32) (b : Vec Ideal S160 .f32)
    (g : Vec Ideal S160x10 .f32) (gt : Vec Ideal S10x160 .f32)
    (hg : ∀ (i : Fin 160) (j : Fin 10), g (ix2 i j) = gmat i j) (hgt : ∀ (j : Fin 10) (i : Fin 160), gt (ix2 j i) = gmat i j) :
    k0_pay1 (F := Ideal) x w b g gt = embedArr x w b := by
  funext idx
  obtain ⟨p, i, rfl⟩ : ∃ (p : Fin 2000) (i : Fin 160), idx = ix2 p i := ⟨idx 0, idx 1, eq_ix2 idx⟩
  have hk : k0_pay1 (F := Ideal) x w b g gt
      = normTerm (leakyVec (addf (matmul dot_S2000x500_S500x160_S2000x160_1_0_0_1_n_n none
            (truncf .bf16 x Facts₀.bitsLt_bf16_f32) (truncf .bf16 w Facts₀.bitsLt_bf16_f32)
            (constant S2000x160 .f32 0x00000000#32))
          (broadcastTo S2000x160 (shapeCast S1x160 b Facts₀.shapeCasts_S160_S1x160) Facts₀.broadcasts_S1x160_S2000x160)))
          g gt := rfl
  rw [hk, normTerm_apply _ g gt hg hgt]
  unfold embedArr
  have hrow : (fun i' : Fin 160 => leakyVec (addf (matmul dot_S2000x500_S500x160_S2000x160_1_0_0_1_n_n none
            (truncf .bf16 x Facts₀.bitsLt_bf16_f32) (truncf .bf16 w Facts₀.bitsLt_bf16_f32)
            (constant S2000x160 .f32 0x00000000#32))
          (broadcastTo S2000x160 (shapeCast S1x160 b Facts₀.shapeCasts_S160_S1x160) Facts₀.broadcasts_S1x160_S2000x160))
          (ix2 p i'))
      = fun i' : Fin 160 => leaky (affine (rowOf x p) (ent w) (ent1 b) i') := by
    funext i'
    rw [leakyVec_apply, addf_apply, matmul_500x160_apply, broadcastTo_1b_ab_apply, shapeCast_a_1a_apply]
    unfold affine
    simp only [truncf_apply]
    rfl
  rw [hrow]

end Cert.KernelIdeal.Body
end
-- ==== Proof.FoldStages.lean ====
/-
  The seven tiled regions at the boundaries of the actual run: each region's output array, after it, is the specification's
  row function of the region's input arrays as the run has them when the region is entered. The group matrix and its
  transpose reach every region unchanged from the first stretch of host operations, where they are the dense constant and
  the host's transpose of it: evaluated there, they are `gmat` (the table's 1600 words, decided).
-/
import proofs.«157490_j26834955665983_2_alg».proof.Proof.FoldWalk
import proofs.«157490_j26834955665983_2_alg».proof.Proof.GroupTable
import proofs.«157490_j26834955665983_2_alg».proof.Proof.RegionEmbed0
import proofs.«157490_j26834955665983_2_alg».proof.Proof.RegionMsg1
import proofs.«157490_j26834955665983_2_alg».proof.Proof.RegionNorm2
import proofs.«157490_j26834955665983_2_alg».proof.Proof.RegionMsg3
import proofs.«157490_j26834955665983_2_alg».proof.Proof.RegionNorm4
import proofs.«157490_j26834955665983_2_alg».proof.Proof.RegionMsg5
import proofs.«157490_j26834955665983_2_alg».proof.Proof.RegionClass6
import proofs.«157490_j26834955665983_2_alg».proof.Proof.BodyMessage
import proofs.«157490_j26834955665983_2_alg».proof.Proof.BodyNormAffine
import Idealize.ShloMosaic.Lib.ValueLayout

set_option maxRecDepth 16384

noncomputable section

namespace Cert.KernelIdeal.Fold

open Cert.KernelIdeal Cert.KernelIdeal.Gen Cert.KernelIdeal.GenP Cert.Routing
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The group matrix and its transpose at every region's entry -/

theorem hg1 (i : Fin 160) (j : Fin 10) : (V1 m ρ c main_cst : S160x10.Idx → EReal) (ix2 i j) = gmat i j := by
  show (W1 m ρ c (Proc.devRef .tc main_cst) : S160x10.Idx → EReal) (ix2 i j) = _
  fold_eval
  exact GroupTable.table_eq i j
theorem hgt1 (j : Fin 10) (i : Fin 160) : (V1 m ρ c main_v0 : S10x160.Idx → EReal) (ix2 j i) = gmat i j := by
  show (W1 m ρ c (Proc.devRef .tc main_v0) : S10x160.Idx → EReal) (ix2 j i) = _
  fold_eval
  exact (transpose_ix2_apply _ _ j i).trans (GroupTable.table_eq i j)
theorem hg3 (i : Fin 160) (j : Fin 10) : (V3 m ρ c main_cst : S160x10.Idx → EReal) (ix2 i j) = gmat i j := by
  show (W3 m ρ c (Proc.devRef .tc main_cst) : S160x10.Idx → EReal) (ix2 i j) = _
  fold_eval
  exact GroupTable.table_eq i j
theorem hgt3 (j : Fin 10) (i : Fin 160) : (V3 m ρ c main_v0 : S10x160.Idx → EReal) (ix2 j i) = gmat i j := by
  show (W3 m ρ c (Proc.devRef .tc main_v0) : S10x160.Idx → EReal) (ix2 j i) = _
  fold_eval
  exact (transpose_ix2_apply _ _ j i).trans (GroupTable.table_eq i j)
theorem hg5 (i : Fin 160) (j : Fin 10) : (V5 m ρ c main_cst : S160x10.Idx → EReal) (ix2 i j) = gmat i j := by
  show (W5 m ρ c (Proc.devRef .tc main_cst) : S160x10.Idx → EReal) (ix2 i j) = _
  fold_eval
  exact GroupTable.table_eq i j
theorem hgt5 (j : Fin 10) (i : Fin 160) : (V5 m ρ c main_v0 : S10x160.Idx → EReal) (ix2 j i) = gmat i j := by
  show (W5 m ρ c (Proc.devRef .tc main_v0) : S10x160.Idx → EReal) (ix2 j i) = _
  fold_eval
  exact (transpose_ix2_apply _ _ j i).trans (GroupTable.table_eq i j)
theorem hg7 (i : Fin 160) (j : Fin 10) : (V7 m ρ c main_cst : S160x10.Idx → EReal) (ix2 i j) = gmat i j := by
  show (W7 m ρ c (Proc.devRef .tc main_cst) : S160x10.Idx → EReal) (ix2 i j) = _
  fold_eval
  exact GroupTable.table_eq i j
theorem hgt7 (j : Fin 10) (i : Fin 160) : (V7 m ρ c main_v0 : S10x160.Idx → EReal) (ix2 j i) = gmat i j := by
  show (W7 m ρ c (Proc.devRef .tc main_v0) : S10x160.Idx → EReal) (ix2 j i) = _
  fold_eval
  exact (transpose_ix2_apply _ _ j i).trans (GroupTable.table_eq i j)
theorem hg9 (i : Fin 160) (j : Fin 10) : (V9 m ρ c main_cst : S160x10.Idx → EReal) (ix2 i j) = gmat i j := by
  show (W9 m ρ c (Proc.devRef .tc main_cst) : S160x10.Idx → EReal) (ix2 i j) = _
  fold_eval
  exact GroupTable.table_eq i j
theorem hgt9 (j : Fin 10) (i : Fin 160) : (V9 m ρ c main_v0 : S10x160.Idx → EReal) (ix2 j i) = gmat i j := by
  show (W9 m ρ c (Proc.devRef .tc main_v0) : S10x160.Idx → EReal) (ix2 j i) = _
  fold_eval
  exact (transpose_ix2_apply _ _ j i).trans (GroupTable.table_eq i j)
theorem hg11 (i : Fin 160) (j : Fin 10) : (V11 m ρ c main_cst : S160x10.Idx → EReal) (ix2 i j) = gmat i j := by
  show (W11 m ρ c (Proc.devRef .tc main_cst) : S160x10.Idx → EReal) (ix2 i j) = _
  fold_eval
  exact GroupTable.table_eq i j
theorem hgt11 (j : Fin 10) (i : Fin 160) : (V11 m ρ c main_v0 : S10x160.Idx → EReal) (ix2 j i) = gmat i j := by
  show (W11 m ρ c (Proc.devRef .tc main_v0) : S10x160.Idx → EReal) (ix2 j i) = _
  fold_eval
  exact (transpose_ix2_apply _ _ j i).trans (GroupTable.table_eq i j)
theorem hg13 (i : Fin 160) (j : Fin 10) : (V13 m ρ c main_cst : S160x10.Idx → EReal) (ix2 i j) = gmat i j := by
  show (W13 m ρ c (Proc.devRef .tc main_cst) : S160x10.Idx → EReal) (ix2 i j) = _
  fold_eval
  exact GroupTable.table_eq i j
theorem hgt13 (j : Fin 10) (i : Fin 160) : (V13 m ρ c main_v0 : S10x160.Idx → EReal) (ix2 j i) = gmat i j := by
  show (W13 m ρ c (Proc.devRef .tc main_v0) : S10x160.Idx → EReal) (ix2 j i) = _
  fold_eval
  exact (transpose_ix2_apply _ _ j i).trans (GroupTable.table_eq i j)

/-! ## The regions' output arrays -/

/-- Region 0: the embedded, normalised features. -/
theorem out0 : W2 m ρ c (Proc.devRef .tc main_v5)
    = embedArr (n := 50000) (V1 m ρ c main_arg0 : S50000x500.Idx → EReal) (V1 m ρ c main_arg2 : S500x160.Idx → EReal) (V1 m ρ c main_arg3 : S160.Idx → EReal) :=
  (W2_arr m ρ c 5).trans (Regions.embedded0 (V1 m ρ) c Body.embed_payload (hg1 m ρ c) (hgt1 m ρ c))

/-- Region 1: the first round's messages. -/
theorem out1 : W4 m ρ c (Proc.devRef .tc main_v20)
    = messageArr (n := 800000) (V3 m ρ c main_v12 : S800000x160.Idx → EReal) (V3 m ρ c main_v19 : S800000x160.Idx → EReal) :=
  (W4_arr m ρ c 4).trans (Regions.messages1 (V3 m ρ) c Body.message_payload1 (hg3 m ρ c) (hgt3 m ρ c))

/-- Region 2: the first round's update. -/
theorem out2 : W6 m ρ c (Proc.devRef .tc main_v24)
    = renormArr (n := 50000) (V5 m ρ c main_v23 : S50000x160.Idx → EReal) (V5 m ρ c main_v5 : S50000x160.Idx → EReal) :=
  (W6_arr m ρ c 4).trans (Regions.update2 (V5 m ρ) c Body.renorm_payload2 (hg5 m ρ c) (hgt5 m ρ c))

/-- Region 3: the second round's messages. -/
theorem out3 : W8 m ρ c (Proc.devRef .tc main_v32)
    = messageArr (n := 800000) (V7 m ρ c main_v12 : S800000x160.Idx → EReal) (V7 m ρ c main_v31 : S800000x160.Idx → EReal) :=
  (W8_arr m ρ c 4).trans (Regions.messages3 (V7 m ρ) c Body.message_payload3 (hg7 m ρ c) (hgt7 m ρ c))

/-- Region 4: the second round's update. -/
theorem out4 : W10 m ρ c (Proc.devRef .tc main_v36)
    = renormArr (n := 50000) (V9 m ρ c main_v35 : S50000x160.Idx → EReal) (V9 m ρ c main_v5 : S50000x160.Idx → EReal) :=
  (W10_arr m ρ c 4).trans (Regions.update4 (V9 m ρ) c Body.renorm_payload4 (hg9 m ρ c) (hgt9 m ρ c))

/-- Region 5: the third round's messages. -/
theorem out5 : W12 m ρ c (Proc.devRef .tc main_v44)
    = messageArr (n := 800000) (V11 m ρ c main_v12 : S800000x160.Idx → EReal) (V11 m ρ c main_v43 : S800000x160.Idx → EReal) :=
  (W12_arr m ρ c 4).trans (Regions.messages5 (V11 m ρ) c Body.message_payload5 (hg11 m ρ c) (hgt11 m ρ c))

/-- Region 6: the third round's update, the rectifier and the classifier. -/
theorem out6 : W14 m ρ c (Proc.devRef .tc main_v48)
    = classifyArr (n := 50000) (V13 m ρ c main_v47 : S50000x160.Idx → EReal) (V13 m ρ c main_v5 : S50000x160.Idx → EReal)
        (V13 m ρ c main_arg4 : S160x40.Idx → EReal) (V13 m ρ c main_arg5 : S40.Idx → EReal) :=
  (W14_arr m ρ c 6).trans (Regions.classified6 (V13 m ρ) c Body.classify_payload (hg13 m ρ c) (hgt13 m ρ c))

end Cert.KernelIdeal.Fold

end
-- ==== Proof.RefChain.lean ====
/-
  The reference program's stages as whole-array functions, spelt operation for operation as its printed `main`
  spells them (the same reshapes, broadcasts, reductions and constants, in the same order), at the extended reals.
  Naming them lets the run's result be stated as a short composition, and lets each stage be read at an index once.

  `firstLayer`   : the affine layer and the leaky rectifier;
  `normalizeArr` : a [50000, 160] array viewed as [50000, 10, 16], every group of 16 divided by its floored length;
  `srcOf`, `trgOf`, `wrap`, `col` : the two rows of the edge list, negative indices wrapped, as index columns;
  `gatherArr`, `scatterArr` : the row gather and the row scatter-add from zero;
  `messageArr`   : per edge and group, agreement, softmax over the ten groups, the source row weighed by it;
  `round`        : one routing round; `result` : the whole reference.
-/
import proofs.«157490_j26834955665983_2_alg».proof.Proof.Gen.ReferenceIdeal
import Idealize.ShloMosaic.PureOps.Ideal

noncomputable section

namespace Cert.ReferenceIdeal.Chain

open Cert.ReferenceIdeal Cert.ReferenceIdeal.Gen Idealize.ShloMosaic

/-- A float array of the reference at the extended reals. -/
abbrev FA (S : Shape) : Type := FVec Ideal S .f32
/-- An index array of the reference. -/
abbrev IA (S : Shape) : Type := IVec S 32

/-- jnp's leaky rectifier with slope `a`: `h` where `h ≥ 0`, `a · h` elsewhere. -/
def leakyArr (h : FA S50000x160) (a : FA S_) : FA S50000x160 :=
  select (cmpf .oge h (broadcastInDim S50000x160 ![] bcast_S_S50000x160 (constant (F := Ideal) S_ .f32 0x00000000#32)))
    h (mulf (broadcastInDim S50000x160 ![] bcast_S_S50000x160 a) h)

/-- The affine layer `x · w + b` followed by the rectifier. -/
def firstLayer (x : FA S50000x500) (w : FA S500x160) (b : FA S160) : FA S50000x160 :=
  leakyArr (addf (Host.dotGeneral dot_S50000x500_S500x160_S50000x160_1_0_0_1_n_n none x w)
      (broadcastInDim S50000x160 ![0, 1] bcast_S1x160_S50000x160_0_1 (broadcastInDim S1x160 ![1] bcast_S160_S1x160_1 b)))
    (constant (F := Ideal) S_ .f32 0x3C23D70A#32)

/-- A [50000, 160] array viewed as 10 groups of 16. -/
def groups (h : FA S50000x160) : FA S50000x10x16 := shapeCast S50000x10x16 h shapeCasts_S50000x160_S50000x10x16

/-- The floored length of every group, as a [50000, 10, 1] column. -/
def lengths (g : FA S50000x10x16) : FA S50000x10x1 :=
  maximumf (Host.sqrt (broadcastInDim S50000x10x1 ![0, 1] bcast_S50000x10_S50000x10x1_0_1
      (Host.reduceAdd (mulf g g) (constant (F := Ideal) S_ .f32 0x00000000#32) reducesTo_S50000x10x16_S50000x10_d2 h_S_)))
    (broadcastInDim S50000x10x1 ![] bcast_S_S50000x10x1 (constant (F := Ideal) S_ .f32 0x2B8CBCCC#32))

/-- Every group divided by its floored length. -/
def normalizeArr (h : FA S50000x160) : FA S50000x160 :=
  shapeCast S50000x160 (Host.divf (groups h) (broadcastInDim S50000x10x16 ![0, 1, 2] bcast_S50000x10x1_S50000x10x16_0_1_2 (lengths (groups h))))
    shapeCasts_S50000x10x16_S50000x160

/-- The edge list's first row: the sources. -/
def srcOf (ei : IA S2x800000) : IA S800000 :=
  shapeCast S800000 (extractStridedSlice S1x800000 ![0, 0] ei slices_S2x800000_S1x800000_0_0) shapeCasts_S1x800000_S800000
/-- The edge list's second row: the targets. -/
def trgOf (ei : IA S2x800000) : IA S800000 :=
  shapeCast S800000 (extractStridedSlice S1x800000 ![1, 0] ei slices_S2x800000_S1x800000_1_0) shapeCasts_S1x800000_S800000

/-- A negative index counted from the end: `v + 50000` where `v < 0`. -/
def wrap (v : IA S800000) : IA S800000 :=
  select (cmpi .slt v (broadcastInDim S800000 ![] bcast_S_S800000 (constantI S_ 32 0#32)))
    (addi v (broadcastInDim S800000 ![] bcast_S_S800000 (constantI S_ 32 50000#32))) v

/-- An index vector as a column. -/
def col (v : IA S800000) : IA S800000x1 := broadcastInDim S800000x1 ![0] bcast_S800000_S800000x1_0 v

/-- The rows of `tbl` the index column names. -/
def gatherArr (tbl : FA S50000x160) (idx : IA S800000x1) : FA S800000x160 :=
  Host.gather gather_S50000x160_S800000x1_S800000x160_1_0_n_n_0_1_1160 tbl idx

/-- The rows of `upd` summed into the rows the index column names, from zero. -/
def scatterArr (idx : IA S800000x1) (upd : FA S800000x160) : FA S50000x160 :=
  Host.scatterAdd scatter_S50000x160_S800000x1_S800000x160_1_0_0_1
    (broadcastInDim S50000x160 ![] bcast_S_S50000x160 (constant (F := Ideal) S_ .f32 0x00000000#32)) idx upd

/-- An [800000, 160] array viewed as 10 groups of 16. -/
def egroups (z : FA S800000x160) : FA S800000x10x16 := shapeCast S800000x10x16 z shapeCasts_S800000x160_S800000x10x16

/-- Per edge and group: the inner product of the two rows there, over the temperature. -/
def scores (zg ug : FA S800000x10x16) : FA S800000x10 :=
  Host.divf (Host.reduceAdd (mulf zg ug) (constant (F := Ideal) S_ .f32 0x00000000#32) reducesTo_S800000x10x16_S800000x10_d2 h_S_)
    (broadcastInDim S800000x10 ![] bcast_S_S800000x10 (constant (F := Ideal) S_ .f32 0x3F800000#32))

/-- A per-edge number spread over the ten groups. -/
def spread (v : FA S800000) : FA S800000x10 :=
  broadcastInDim S800000x10 ![0, 1] bcast_S800000x1_S800000x10_0_1 (broadcastInDim S800000x1 ![0] bcast_S800000_S800000x1_0 v)

/-- Per edge: the largest of its ten scores (from, and compared once more with, minus infinity). -/
def tops (s : FA S800000x10) : FA S800000 :=
  maximumf (broadcastInDim S800000 ![] bcast_S_S800000 (constant (F := Ideal) S_ .f32 0xFF800000#32))
    (Host.reduce FloatOps.maximumf s (constant (F := Ideal) S_ .f32 0xFF800000#32) reducesTo_S800000x10_S800000_d1 h_S_)

/-- Per edge and group: the exponential of the score shifted by the edge's largest. -/
def expShift (s : FA S800000x10) : FA S800000x10 := Host.exp (subf s (spread (tops s)))

/-- Per edge: the softmax of its ten scores. -/
def softmaxArr (s : FA S800000x10) : FA S800000x10 :=
  Host.divf (expShift s) (spread (Host.reduceAdd (expShift s) (constant (F := Ideal) S_ .f32 0x00000000#32) reducesTo_S800000x10_S800000_d1 h_S_))

/-- The messages: each source row, group by group, weighed by the softmax of its agreements with the target row. -/
def messageArr (z u : FA S800000x160) : FA S800000x160 :=
  shapeCast S800000x160
    (mulf (egroups z) (broadcastInDim S800000x10x16 ![0, 1, 2] bcast_S800000x10x1_S800000x10x16_0_1_2
      (broadcastInDim S800000x10x1 ![0, 1] bcast_S800000x10_S800000x10x1_0_1 (softmaxArr (scores (egroups z) (egroups u))))))
    shapeCasts_S800000x10x16_S800000x160

/-- One routing round from the current features `u`: gather the targets' rows, weigh the edges' source rows `z`, sum into
    the targets, add the nodes' own normalised features `xn`; the sum is normalised by the caller. -/
def aggregate (ei : IA S2x800000) (xn : FA S50000x160) (z : FA S800000x160) (u : FA S50000x160) : FA S50000x160 :=
  addf (scatterArr (col (trgOf ei)) (messageArr z (gatherArr u (col (wrap (trgOf ei)))))) xn

/-- The whole reference: first layer, normalisation, the edges' source rows, three routing rounds, rectifier, classifier. -/
def result (x : FA S50000x500) (ei : IA S2x800000) (w : FA S500x160) (b : FA S160) (w2 : FA S160x40) (b2 : FA S40) : FA S50000x40 :=
  let xn := normalizeArr (firstLayer x w b)
  let z := gatherArr xn (col (wrap (srcOf ei)))
  let u1 := normalizeArr (aggregate ei xn z xn)
  let u2 := normalizeArr (aggregate ei xn z u1)
  let u3 := normalizeArr (aggregate ei xn z u2)
  addf (Host.dotGeneral dot_S50000x160_S160x40_S50000x40_1_0_0_1_n_n none (leakyArr u3 (constant (F := Ideal) S_ .f32 0x3C23D70A#32)) w2)
    (broadcastInDim S50000x40 ![0, 1] bcast_S1x40_S50000x40_0_1 (broadcastInDim S1x40 ![1] bcast_S40_S1x40_1 b2))

end Cert.ReferenceIdeal.Chain

end
-- ==== Proof.Whole.lean ====
/-
  The whole network as one function of the six arguments, in the vocabulary both sides are brought to: the row functions
  of the specification for the four computed stages, and, between them, the host's own row gather (negative indices
  wrapped) and row scatter-add from zero, which both programs spell identically and which are therefore kept as they are.

  `sources` : every edge's source node's normalised features;  `summed` : the messages of one routing round summed into
  their targets;  `network` : embed, three rounds (two updates, then the last update fused with the classifier).
-/
import proofs.«157490_j26834955665983_2_alg».proof.Proof.Spec
import proofs.«157490_j26834955665983_2_alg».proof.Proof.RefChain

noncomputable section

namespace Cert.Routing

open Cert.ReferenceIdeal Cert.ReferenceIdeal.Chain

/-- Every edge's source row of the node features `xn`. -/
def sources (ei : IA S2x800000) (xn : FA S50000x160) : FA S800000x160 := gatherArr xn (col (wrap (srcOf ei)))

/-- One round's messages, from the edges' source rows `z` and the nodes' current features `u`, summed into the targets. -/
def summed (ei : IA S2x800000) (z : FA S800000x160) (u : FA S50000x160) : FA S50000x160 :=
  scatterArr (col (trgOf ei)) (Routing.messageArr z (gatherArr u (col (wrap (trgOf ei)))))

/-- The network: the embedded features `xn`, the first two rounds' updates, the last round's update and the classifier. -/
def network (x : FA S50000x500) (ei : IA S2x800000) (w : FA S500x160) (b : FA S160) (w2 : FA S160x40) (b2 : FA S40) : FA S50000x40 :=
  classifyArr
    (summed ei (sources ei (embedArr x w b))
      (renormArr
        (summed ei (sources ei (embedArr x w b))
          (renormArr (summed ei (sources ei (embedArr x w b)) (embedArr x w b)) (embedArr x w b)))
        (embedArr x w b)))
    (embedArr x w b) w2 b2

end Cert.Routing

end
-- ==== Proof.FoldResult.lean ====
/-
  The tiled program's result: the result buffer's contents at the last boundary is the network of the launch contents.
  Each region's output array is the specification's function of its inputs as the run has them (the stages); those
  inputs, evaluated through the boundaries, are host gathers and scatter-adds of earlier regions' outputs and of the
  launch contents; substituting stage by stage from the last region to the first leaves the network's own term.
-/
import proofs.«157490_j26834955665983_2_alg».proof.Proof.FoldStages
import proofs.«157490_j26834955665983_2_alg».proof.Proof.Whole

set_option maxRecDepth 16384

noncomputable section

namespace Cert.KernelIdeal.Fold

open Cert.KernelIdeal Cert.KernelIdeal.Gen Cert.KernelIdeal.GenP Cert.Routing
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option maxHeartbeats 8000000 in
/-- The result buffer at the last boundary holds the network of the six arguments' launch contents. -/
theorem result : W14 m ρ c (Proc.devRef .tc main_v48)
    = Cert.Routing.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [out6]; fold_eval
  rw [out5]; fold_eval
  rw [out4]; fold_eval
  rw [out3]; fold_eval
  rw [out2]; fold_eval
  rw [out1]; fold_eval
  rw [out0]; fold_eval
  rfl

end Cert.KernelIdeal.Fold

end
-- ==== Proof.RefOps.lean ====
import proofs.«157490_j26834955665983_2_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The operations of the program's window 0, in order (66 of them); a called function's operations stand where the call does. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg2 main_v4 ((fun l r => Host.dotGeneral dot_S50000x500_S500x160_S50000x160_1_0_0_1_n_n none l r) : (⟨S50000x500, .f32⟩ : BufTy).Contents (Elt F) → (⟨S500x160, .f32⟩ : BufTy).Contents (Elt F) → (⟨S50000x160, .f32⟩ : BufTy).Contents (Elt F)),
    StableHlo.unary main_arg3 main_v5 (broadcastInDim S1x160 ![1] bcast_S160_S1x160_1 : (⟨S160, .f32⟩ : BufTy).Contents (Elt F) → (⟨S1x160, .f32⟩ : BufTy).Contents (Elt F)),
    StableHlo.unary main_v5 main_v6 (broadcastInDim S50000x160 ![0, 1] bcast_S1x160_S50000x160_0_1 : (⟨S1x160, .f32⟩ : BufTy).Contents (Elt F) → (⟨S50000x160, .f32⟩ : BufTy).Contents (Elt F)),
    StableHlo.binary main_v4 main_v6 main_v7 (addf : (⟨S50000x160, .f32⟩ : BufTy).Contents (Elt F) → (⟨S50000x160, .f32⟩ : BufTy).Contents (Elt F) → (⟨S50000x160, .f32⟩ : BufTy).Contents (Elt F)),
    StableHlo.nullary main_cst (constant S_ .f32 0x3C23D70A#32),
    StableHlo.TRef.nullary main_call0.cst (constant S_ .f32 0x00000000#32),
    StableHlo.TRef.unary main_call0.cst main_call0.v0 (broadcastInDim S50000x160 ![] bcast_S_S50000x160),
    StableHlo.TRef.binary (.of main_v7 : StableHlo.TRef sig ⟨S50000x160, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S50000x160 ![] bcast_S_S50000x160),
    StableHlo.TRef.binary main_call0.v3 (.of main_v7 : StableHlo.TRef sig ⟨S50000x160, .f32⟩) main_call0.v4 mulf,
    StableHlo.TRef.ternary main_call0.v1 (.of main_v7 : StableHlo.TRef sig ⟨S50000x160, .f32⟩) main_call0.v4 main_call0.call0.v0 select,
    StableHlo.reshape main_v8 main_v9 rfl shapeCasts_S50000x160_S50000x10x16,
    StableHlo.binary main_v9 main_v9 main_v10 (mulf : (⟨S50000x10x16, .f32⟩ : BufTy).Contents (Elt F) → (⟨S50000x10x16, .f32⟩ : BufTy).Contents (Elt F) → (⟨S50000x10x16, .f32⟩ : BufTy).Contents (Elt F)),
    StableHlo.nullary main_cst_0 (constant S_ .f32 0x00000000#32),
    StableHlo.binary main_v10 main_cst_0 main_v11 ((fun x v => Host.reduceAdd x v reducesTo_S50000x10x16_S50000x10_d2 h_S_) : (⟨S50000x10x16, .f32⟩ : BufTy).Contents (Elt F) → (⟨S_, .f32⟩ : BufTy).Contents (Elt F) → (⟨S50000x10, .f32⟩ : BufTy).Contents (Elt F)),
    StableHlo.unary main_v11 main_v12 (broadcastInDim S50000x10x1 ![0, 1] bcast_S50000x10_S50000x10x1_0_1 : (⟨S50000x10, .f32⟩ : BufTy).Contents (Elt F) → (⟨S50000x10x1, .f32⟩ : BufTy).Contents (Elt F)),
    StableHlo.unary main_v12 main_v13 (Host.sqrt : (⟨S50000x10x1, .f32⟩ : BufTy).Contents (Elt F) → (⟨S50000x10x1, .f32⟩ : BufTy).Contents (Elt F)),
    StableHlo.nullary main_cst_1 (constant S_ .f32 0x2B8CBCCC#32),
    StableHlo.unary main_cst_1 main_v14 (broadcastInDim S50000x10x1 ![] bcast_S_S50000x10x1 : (⟨S_, .f32⟩ : BufTy).Contents (Elt F) → (⟨S50000x10x1, .f32⟩ : BufTy).Contents (Elt F)),
    StableHlo.binary main_v13 main_v14 main_v15 (maximumf : (⟨S50000x10x1, .f32⟩ : BufTy).Contents (Elt F) → (⟨S50000x10x1, .f32⟩ : BufTy).Contents (Elt F) → (⟨S50000x10x1, .f32⟩ : BufTy).Contents (Elt F)),
    StableHlo.unary main_v15 main_v16 (broadcastInDim S50000x10x16 ![0, 1, 2] bcast_S50000x10x1_S50000x10x16_0_1_2 : (⟨S50000x10x1, .f32⟩ : BufTy).Contents (Elt F) → (⟨S50000x10x16, .f32⟩ : BufTy).Contents (Elt F)),
    StableHlo.binary main_v9 main_v16 main_v17 (Host.divf : (⟨S50000x10x16, .f32⟩ : BufTy).Contents (Elt F) → (⟨S50000x10x16, .f32⟩ : BufTy).Contents (Elt F) → (⟨S50000x10x16, .f32⟩ : BufTy).Contents (Elt F)),
    StableHlo.reshape main_v17 main_v18 rfl shapeCasts_S50000x10x16_S50000x160,
    StableHlo.nullary main_c (constantI S_ 32 0#32),
    StableHlo.unary main_c main_v19 (broadcastInDim S800000 ![] bcast_S_S800000 : (⟨S_, .i32⟩ : BufTy).Contents (Elt F) → (⟨S800000, .i32⟩ : BufTy).Contents (Elt F)),
    StableHlo.binary main_v1 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v21 (broadcastInDim S800000 ![] bcast_S_S800000 : (⟨S_, .i32⟩ : BufTy).Contents (Elt F) → (⟨S800000, .i32⟩ : BufTy).Contents (Elt F)),
    StableHlo.binary main_v1 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_v1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_v18 main_v24 main_v25 ((fun x i => Host.gather gather_S50000x160_S800000x1_S800000x160_1_0_n_n_0_1_1160 x i) : (⟨S50000x160, .f32⟩ : BufTy).Contents (Elt F) → (⟨S800000x1, .i32⟩ : BufTy).Contents (Elt F) → (⟨S800000x160, .f32⟩ : BufTy).Contents (Elt F)),
    StableHlo.reshape main_v25 main_v26 rfl shapeCasts_S800000x160_S800000x10x16,
    StableHlo.nullary main_c_3 (constantI S_ 32 0#32),
    StableHlo.unary main_c_3 main_v27 (broadcastInDim S800000 ![] bcast_S_S800000 : (⟨S_, .i32⟩ : BufTy).Contents (Elt F) → (⟨S800000, .i32⟩ : BufTy).Contents (Elt F)),
    StableHlo.binary main_v3 main_v27 main_v28 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v29 (broadcastInDim S800000 ![] bcast_S_S800000 : (⟨S_, .i32⟩ : BufTy).Contents (Elt F) → (⟨S800000, .i32⟩ : BufTy).Contents (Elt F)),
    StableHlo.binary main_v3 main_v29 main_v30 (addi : (⟨S800000, .i32⟩ : BufTy).Contents (Elt F) → (⟨S800000, .i32⟩ : BufTy).Contents (Elt F) → (⟨S800000, .i32⟩ : BufTy).Contents (Elt F)),
    StableHlo.ternary main_v28 main_v30 main_v3 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v31 main_v32 (broadcastInDim S800000x1 ![0] bcast_S800000_S800000x1_0 : (⟨S800000, .i32⟩ : BufTy).Contents (Elt F) → (⟨S800000x1, .i32⟩ : BufTy).Contents (Elt F)),
    StableHlo.binary main_v18 main_v32 main_v33 ((fun x i => Host.gather gather_S50000x160_S800000x1_S800000x160_1_0_n_n_0_1_1160 x i) : (⟨S50000x160, .f32⟩ : BufTy).Contents (Elt F) → (⟨S800000x1, .i32⟩ : BufTy).Contents (Elt F) → (⟨S800000x160, .f32⟩ : BufTy).Contents (Elt F)),
    StableHlo.reshape main_v33 main_v34 rfl shapeCasts_S800000x160_S800000x10x16,
    StableHlo.binary main_v26 main_v34 main_v35 (mulf : (⟨S800000x10x16, .f32⟩ : BufTy).Contents (Elt F) → (⟨S800000x10x16, .f32⟩ : BufTy).Contents (Elt F) → (⟨S800000x10x16, .f32⟩ : BufTy).Contents (Elt F)),
    StableHlo.nullary main_cst_5 (constant S_ .f32 0x00000000#32),
    StableHlo.binary main_v35 main_cst_5 main_v36 ((fun x v => Host.reduceAdd x v reducesTo_S800000x10x16_S800000x10_d2 h_S_) : (⟨S800000x10x16, .f32⟩ : BufTy).Contents (Elt F) → (⟨S_, .f32⟩ : BufTy).Contents (Elt F) → (⟨S800000x10, .f32⟩ : BufTy).Contents (Elt F)),
    StableHlo.nullary main_cst_6 (constant S_ .f32 0x3F800000#32),
    StableHlo.unary main_cst_6 main_v37 (broadcastInDim S800000x10 ![] bcast_S_S800000x10 : (⟨S_, .f32⟩ : BufTy).Contents (Elt F) → (⟨S800000x10, .f32⟩ : BufTy).Contents (Elt F)),
    StableHlo.binary main_v36 main_v37 main_v38 (Host.divf : (⟨S800000x10, .f32⟩ : BufTy).Contents (Elt F) → (⟨S800000x10, .f32⟩ : BufTy).Contents (Elt F) → (⟨S800000x10, .f32⟩ : BufTy).Contents (Elt F)),
    StableHlo.nullary main_cst_7 (constant S_ .f32 0xFF800000#32),
    StableHlo.binary main_v38 main_cst_7 main_v39 ((fun x v => Host.reduce FloatOps.maximumf x v reducesTo_S800000x10_S800000_d1 h_S_) : (⟨S800000x10, .f32⟩ : BufTy).Contents (Elt F) → (⟨S_, .f32⟩ : BufTy).Contents (Elt F) → (⟨S800000, .f32⟩ : BufTy).Contents (Elt F)),
    StableHlo.nullary main_cst_8 (constant S_ .f32 0xFF800000#32),
    StableHlo.unary main_cst_8 main_v40 (broadcastInDim S800000 ![] bcast_S_S800000 : (⟨S_, .f32⟩ : BufTy).Contents (Elt F) → (⟨S800000, .f32⟩ : BufTy).Contents (Elt F)),
    StableHlo.binary main_v40 main_v39 main_v41 (maximumf : (⟨S800000, .f32⟩ : BufTy).Contents (Elt F) → (⟨S800000, .f32⟩ : BufTy).Contents (Elt F) → (⟨S800000, .f32⟩ : BufTy).Contents (Elt F)),
    StableHlo.unary main_v41 main_v42 (broadcastInDim S800000x1 ![0] bcast_S800000_S800000x1_0 : (⟨S800000, .f32⟩ : BufTy).Contents (Elt F) → (⟨S800000x1, .f32⟩ : BufTy).Contents (Elt F)),
    StableHlo.unary main_v42 main_v43 (broadcastInDim S800000x10 ![0, 1] bcast_S800000x1_S800000x10_0_1 : (⟨S800000x1, .f32⟩ : BufTy).Contents (Elt F) → (⟨S800000x10, .f32⟩ : BufTy).Contents (Elt F)),
    StableHlo.binary main_v38 main_v43 main_v44 (subf : (⟨S800000x10, .f32⟩ : BufTy).Contents (Elt F) → (⟨S800000x10, .f32⟩ : BufTy).Contents (Elt F) → (⟨S800000x10, .f32⟩ : BufTy).Contents (Elt F)),
    StableHlo.unary main_v44 main_v45 (Host.exp : (⟨S800000x10, .f32⟩ : BufTy).Contents (Elt F) → (⟨S800000x10, .f32⟩ : BufTy).Contents (Elt F)),
    StableHlo.nullary main_cst_9 (constant S_ .f32 0x00000000#32),
    StableHlo.binary main_v45 main_cst_9 main_v46 ((fun x v => Host.reduceAdd x v reducesTo_S800000x10_S800000_d1 h_S_) : (⟨S800000x10, .f32⟩ : BufTy).Contents (Elt F) → (⟨S_, .f32⟩ : BufTy).Contents (Elt F) → (⟨S800000, .f32⟩ : BufTy).Contents (Elt F)),
    StableHlo.unary main_v46 main_v47 (broadcastInDim S800000x1 ![0] bcast_S800000_S800000x1_0 : (⟨S800000, .f32⟩ : BufTy).Contents (Elt F) → (⟨S800000x1, .f32⟩ : BufTy).Contents (Elt F)) ]

/-- The operations of the program's window 1, in order (60 of them); a called function's operations stand where the call does. -/
abbrev ops1 : List (HloOp τ sig (Elt F)) :=
  [ StableHlo.unary main_v47 main_v48 (broadcastInDim S800000x10 ![0, 1] bcast_S800000x1_S800000x10_0_1 : (⟨S800000x1, .f32⟩ : BufTy).Contents (Elt F) → (⟨S800000x10, .f32⟩ : BufTy).Contents (Elt F)),
    StableHlo.binary main_v45 main_v48 main_v49 (Host.divf : (⟨S800000x10, .f32⟩ : BufTy).Contents (Elt F) → (⟨S800000x10, .f32⟩ : BufTy).Contents (Elt F) → (⟨S800000x10, .f32⟩ : BufTy).Contents (Elt F)),
    StableHlo.unary main_v49 main_v50 (broadcastInDim S800000x10x1 ![0, 1] bcast_S800000x10_S800000x10x1_0_1 : (⟨S800000x10, .f32⟩ : BufTy).Contents (Elt F) → (⟨S800000x10x1, .f32⟩ : BufTy).Contents (Elt F)),
    StableHlo.unary main_v50 main_v51 (broadcastInDim S800000x10x16 ![0, 1, 2] bcast_S800000x10x1_S800000x10x16_0_1_2 : (⟨S800000x10x1, .f32⟩ : BufTy).Contents (Elt F) → (⟨S800000x10x16, .f32⟩ : BufTy).Contents (Elt F)),
    StableHlo.binary main_v26 main_v51 main_v52 (mulf : (⟨S800000x10x16, .f32⟩ : BufTy).Contents (Elt F) → (⟨S800000x10x16, .f32⟩ : BufTy).Contents (Elt F) → (⟨S800000x10x16, .f32⟩ : BufTy).Contents (Elt F)),
    StableHlo.reshape main_v52 main_v53 rfl shapeCasts_S800000x10x16_S800000x160,
    StableHlo.nullary main_cst_10 (constant S_ .f32 0x00000000#32),
    StableHlo.unary main_cst_10 main_v54 (broadcastInDim S50000x160 ![] bcast_S_S50000x160 : (⟨S_, .f32⟩ : BufTy).Contents (Elt F) → (⟨S50000x160, .f32⟩ : BufTy).Contents (Elt F)),
    StableHlo.unary main_v3 main_v55 (broadcastInDim S800000x1 ![0] bcast_S800000_S800000x1_0 : (⟨S800000, .i32⟩ : BufTy).Contents (Elt F) → (⟨S800000x1, .i32⟩ : BufTy).Contents (Elt F)),
    StableHlo.ternary main_v54 main_v55 main_v53 main_v56 ((fun x i u => Host.scatterAdd scatter_S50000x160_S800000x1_S800000x160_1_0_0_1 x i u) : (⟨S50000x160, .f32⟩ : BufTy).Contents (Elt F) → (⟨S800000x1, .i32⟩ : BufTy).Contents (Elt F) → (⟨S800000x160, .f32⟩ : BufTy).Contents (Elt F) → (⟨S50000x160, .f32⟩ : BufTy).Contents (Elt F)),
    StableHlo.binary main_v56 main_v18 main_v57 (addf : (⟨S50000x160, .f32⟩ : BufTy).Contents (Elt F) → (⟨S50000x160, .f32⟩ : BufTy).Contents (Elt F) → (⟨S50000x160, .f32⟩ : BufTy).Contents (Elt F)),
    StableHlo.reshape main_v57 main_v58 rfl shapeCasts_S50000x160_S50000x10x16,
    StableHlo.binary main_v58 main_v58 main_v59 (mulf : (⟨S50000x10x16, .f32⟩ : BufTy).Contents (Elt F) → (⟨S50000x10x16, .f32⟩ : BufTy).Contents (Elt F) → (⟨S50000x10x16, .f32⟩ : BufTy).Contents (Elt F)),
    StableHlo.nullary main_cst_11 (constant S_ .f32 0x00000000#32),
    StableHlo.binary main_v59 main_cst_11 main_v60 ((fun x v => Host.reduceAdd x v reducesTo_S50000x10x16_S50000x10_d2 h_S_) : (⟨S50000x10x16, .f32⟩ : BufTy).Contents (Elt F) → (⟨S_, .f32⟩ : BufTy).Contents (Elt F) → (⟨S50000x10, .f32⟩ : BufTy).Contents (Elt F)),
    StableHlo.unary main_v60 main_v61 (broadcastInDim S50000x10x1 ![0, 1] bcast_S50000x10_S50000x10x1_0_1 : (⟨S50000x10, .f32⟩ : BufTy).Contents (Elt F) → (⟨S50000x10x1, .f32⟩ : BufTy).Contents (Elt F)),
    StableHlo.unary main_v61 main_v62 (Host.sqrt : (⟨S50000x10x1, .f32⟩ : BufTy).Contents (Elt F) → (⟨S50000x10x1, .f32⟩ : BufTy).Contents (Elt F)),
    StableHlo.nullary main_cst_12 (constant S_ .f32 0x2B8CBCCC#32),
    StableHlo.unary main_cst_12 main_v63 (broadcastInDim S50000x10x1 ![] bcast_S_S50000x10x1 : (⟨S_, .f32⟩ : BufTy).Contents (Elt F) → (⟨S50000x10x1, .f32⟩ : BufTy).Contents (Elt F)),
    StableHlo.binary main_v62 main_v63 main_v64 (maximumf : (⟨S50000x10x1, .f32⟩ : BufTy).Contents (Elt F) → (⟨S50000x10x1, .f32⟩ : BufTy).Contents (Elt F) → (⟨S50000x10x1, .f32⟩ : BufTy).Contents (Elt F)),
    StableHlo.unary main_v64 main_v65 (broadcastInDim S50000x10x16 ![0, 1, 2] bcast_S50000x10x1_S50000x10x16_0_1_2 : (⟨S50000x10x1, .f32⟩ : BufTy).Contents (Elt F) → (⟨S50000x10x16, .f32⟩ : BufTy).Contents (Elt F)),
    StableHlo.binary main_v58 main_v65 main_v66 (Host.divf : (⟨S50000x10x16, .f32⟩ : BufTy).Contents (Elt F) → (⟨S50000x10x16, .f32⟩ : BufTy).Contents (Elt F) → (⟨S50000x10x16, .f32⟩ : BufTy).Contents (Elt F)),
    StableHlo.reshape main_v66 main_v67 rfl shapeCasts_S50000x10x16_S50000x160,
    StableHlo.nullary main_c_13 (constantI S_ 32 0#32),
    StableHlo.unary main_c_13 main_v68 (broadcastInDim S800000 ![] bcast_S_S800000 : (⟨S_, .i32⟩ : BufTy).Contents (Elt F) → (⟨S800000, .i32⟩ : BufTy).Contents (Elt F)),
    StableHlo.binary main_v3 main_v68 main_v69 (cmpi .slt : (⟨S800000, .i32⟩ : BufTy).Contents (Elt F) → (⟨S800000, .i32⟩ : BufTy).Contents (Elt F) → (⟨S800000, .i1⟩ : BufTy).Contents (Elt F)),
    StableHlo.nullary main_c_14 (constantI S_ 32 50000#32),
    StableHlo.unary main_c_14 main_v70 (broadcastInDim S800000 ![] bcast_S_S800000 : (⟨S_, .i32⟩ : BufTy).Contents (Elt F) → (⟨S800000, .i32⟩ : BufTy).Contents (Elt F)),
    StableHlo.binary main_v3 main_v70 main_v71 (addi : (⟨S800000, .i32⟩ : BufTy).Contents (Elt F) → (⟨S800000, .i32⟩ : BufTy).Contents (Elt F) → (⟨S800000, .i32⟩ : BufTy).Contents (Elt F)),
    StableHlo.ternary main_v69 main_v71 main_v3 main_v72 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v72 main_v73 (broadcastInDim S800000x1 ![0] bcast_S800000_S800000x1_0 : (⟨S800000, .i32⟩ : BufTy).Contents (Elt F) → (⟨S800000x1, .i32⟩ : BufTy).Contents (Elt F)),
    StableHlo.binary main_v67 main_v73 main_v74 ((fun x i => Host.gather gather_S50000x160_S800000x1_S800000x160_1_0_n_n_0_1_1160 x i) : (⟨S50000x160, .f32⟩ : BufTy).Contents (Elt F) → (⟨S800000x1, .i32⟩ : BufTy).Contents (Elt F) → (⟨S800000x160, .f32⟩ : BufTy).Contents (Elt F)),
    StableHlo.reshape main_v74 main_v75 rfl shapeCasts_S800000x160_S800000x10x16,
    StableHlo.binary main_v26 main_v75 main_v76 (mulf : (⟨S800000x10x16, .f32⟩ : BufTy).Contents (Elt F) → (⟨S800000x10x16, .f32⟩ : BufTy).Contents (Elt F) → (⟨S800000x10x16, .f32⟩ : BufTy).Contents (Elt F)),
    StableHlo.nullary main_cst_15 (constant S_ .f32 0x00000000#32),
    StableHlo.binary main_v76 main_cst_15 main_v77 ((fun x v => Host.reduceAdd x v reducesTo_S800000x10x16_S800000x10_d2 h_S_) : (⟨S800000x10x16, .f32⟩ : BufTy).Contents (Elt F) → (⟨S_, .f32⟩ : BufTy).Contents (Elt F) → (⟨S800000x10, .f32⟩ : BufTy).Contents (Elt F)),
    StableHlo.nullary main_cst_16 (constant S_ .f32 0x3F800000#32),
    StableHlo.unary main_cst_16 main_v78 (broadcastInDim S800000x10 ![] bcast_S_S800000x10 : (⟨S_, .f32⟩ : BufTy).Contents (Elt F) → (⟨S800000x10, .f32⟩ : BufTy).Contents (Elt F)),
    StableHlo.binary main_v77 main_v78 main_v79 (Host.divf : (⟨S800000x10, .f32⟩ : BufTy).Contents (Elt F) → (⟨S800000x10, .f32⟩ : BufTy).Contents (Elt F) → (⟨S800000x10, .f32⟩ : BufTy).Contents (Elt F)),
    StableHlo.nullary main_cst_17 (constant S_ .f32 0xFF800000#32),
    StableHlo.binary main_v79 main_cst_17 main_v80 ((fun x v => Host.reduce FloatOps.maximumf x v reducesTo_S800000x10_S800000_d1 h_S_) : (⟨S800000x10, .f32⟩ : BufTy).Contents (Elt F) → (⟨S_, .f32⟩ : BufTy).Contents (Elt F) → (⟨S800000, .f32⟩ : BufTy).Contents (Elt F)),
    StableHlo.nullary main_cst_18 (constant S_ .f32 0xFF800000#32),
    StableHlo.unary main_cst_18 main_v81 (broadcastInDim S800000 ![] bcast_S_S800000 : (⟨S_, .f32⟩ : BufTy).Contents (Elt F) → (⟨S800000, .f32⟩ : BufTy).Contents (Elt F)),
    StableHlo.binary main_v81 main_v80 main_v82 (maximumf : (⟨S800000, .f32⟩ : BufTy).Contents (Elt F) → (⟨S800000, .f32⟩ : BufTy).Contents (Elt F) → (⟨S800000, .f32⟩ : BufTy).Contents (Elt F)),
    StableHlo.unary main_v82 main_v83 (broadcastInDim S800000x1 ![0] bcast_S800000_S800000x1_0 : (⟨S800000, .f32⟩ : BufTy).Contents (Elt F) → (⟨S800000x1, .f32⟩ : BufTy).Contents (Elt F)),
    StableHlo.unary main_v83 main_v84 (broadcastInDim S800000x10 ![0, 1] bcast_S800000x1_S800000x10_0_1 : (⟨S800000x1, .f32⟩ : BufTy).Contents (Elt F) → (⟨S800000x10, .f32⟩ : BufTy).Contents (Elt F)),
    StableHlo.binary main_v79 main_v84 main_v85 (subf : (⟨S800000x10, .f32⟩ : BufTy).Contents (Elt F) → (⟨S800000x10, .f32⟩ : BufTy).Contents (Elt F) → (⟨S800000x10, .f32⟩ : BufTy).Contents (Elt F)),
    StableHlo.unary main_v85 main_v86 (Host.exp : (⟨S800000x10, .f32⟩ : BufTy).Contents (Elt F) → (⟨S800000x10, .f32⟩ : BufTy).Contents (Elt F)),
    StableHlo.nullary main_cst_19 (constant S_ .f32 0x00000000#32),
    StableHlo.binary main_v86 main_cst_19 main_v87 ((fun x v => Host.reduceAdd x v reducesTo_S800000x10_S800000_d1 h_S_) : (⟨S800000x10, .f32⟩ : BufTy).Contents (Elt F) → (⟨S_, .f32⟩ : BufTy).Contents (Elt F) → (⟨S800000, .f32⟩ : BufTy).Contents (Elt F)),
    StableHlo.unary main_v87 main_v88 (broadcastInDim S800000x1 ![0] bcast_S800000_S800000x1_0 : (⟨S800000, .f32⟩ : BufTy).Contents (Elt F) → (⟨S800000x1, .f32⟩ : BufTy).Contents (Elt F)),
    StableHlo.unary main_v88 main_v89 (broadcastInDim S800000x10 ![0, 1] bcast_S800000x1_S800000x10_0_1 : (⟨S800000x1, .f32⟩ : BufTy).Contents (Elt F) → (⟨S800000x10, .f32⟩ : BufTy).Contents (Elt F)),
    StableHlo.binary main_v86 main_v89 main_v90 (Host.divf : (⟨S800000x10, .f32⟩ : BufTy).Contents (Elt F) → (⟨S800000x10, .f32⟩ : BufTy).Contents (Elt F) → (⟨S800000x10, .f32⟩ : BufTy).Contents (Elt F)),
    StableHlo.unary main_v90 main_v91 (broadcastInDim S800000x10x1 ![0, 1] bcast_S800000x10_S800000x10x1_0_1 : (⟨S800000x10, .f32⟩ : BufTy).Contents (Elt F) → (⟨S800000x10x1, .f32⟩ : BufTy).Contents (Elt F)),
    StableHlo.unary main_v91 main_v92 (broadcastInDim S800000x10x16 ![0, 1, 2] bcast_S800000x10x1_S800000x10x16_0_1_2 : (⟨S800000x10x1, .f32⟩ : BufTy).Contents (Elt F) → (⟨S800000x10x16, .f32⟩ : BufTy).Contents (Elt F)),
    StableHlo.binary main_v26 main_v92 main_v93 (mulf : (⟨S800000x10x16, .f32⟩ : BufTy).Contents (Elt F) → (⟨S800000x10x16, .f32⟩ : BufTy).Contents (Elt F) → (⟨S800000x10x16, .f32⟩ : BufTy).Contents (Elt F)),
    StableHlo.reshape main_v93 main_v94 rfl shapeCasts_S800000x10x16_S800000x160,
    StableHlo.nullary main_cst_20 (constant S_ .f32 0x00000000#32),
    StableHlo.unary main_cst_20 main_v95 (broadcastInDim S50000x160 ![] bcast_S_S50000x160 : (⟨S_, .f32⟩ : BufTy).Contents (Elt F) → (⟨S50000x160, .f32⟩ : BufTy).Contents (Elt F)),
    StableHlo.unary main_v3 main_v96 (broadcastInDim S800000x1 ![0] bcast_S800000_S800000x1_0 : (⟨S800000, .i32⟩ : BufTy).Contents (Elt F) → (⟨S800000x1, .i32⟩ : BufTy).Contents (Elt F)) ]

/-- The operations of the program's window 2, in order (60 of them); a called function's operations stand where the call does. -/
abbrev ops2 : List (HloOp τ sig (Elt F)) :=
  [ StableHlo.ternary main_v95 main_v96 main_v94 main_v97 ((fun x i u => Host.scatterAdd scatter_S50000x160_S800000x1_S800000x160_1_0_0_1 x i u) : (⟨S50000x160, .f32⟩ : BufTy).Contents (Elt F) → (⟨S800000x1, .i32⟩ : BufTy).Contents (Elt F) → (⟨S800000x160, .f32⟩ : BufTy).Contents (Elt F) → (⟨S50000x160, .f32⟩ : BufTy).Contents (Elt F)),
    StableHlo.binary main_v97 main_v18 main_v98 (addf : (⟨S50000x160, .f32⟩ : BufTy).Contents (Elt F) → (⟨S50000x160, .f32⟩ : BufTy).Contents (Elt F) → (⟨S50000x160, .f32⟩ : BufTy).Contents (Elt F)),
    StableHlo.reshape main_v98 main_v99 rfl shapeCasts_S50000x160_S50000x10x16,
    StableHlo.binary main_v99 main_v99 main_v100 (mulf : (⟨S50000x10x16, .f32⟩ : BufTy).Contents (Elt F) → (⟨S50000x10x16, .f32⟩ : BufTy).Contents (Elt F) → (⟨S50000x10x16, .f32⟩ : BufTy).Contents (Elt F)),
    StableHlo.nullary main_cst_21 (constant S_ .f32 0x00000000#32),
    StableHlo.binary main_v100 main_cst_21 main_v101 ((fun x v => Host.reduceAdd x v reducesTo_S50000x10x16_S50000x10_d2 h_S_) : (⟨S50000x10x16, .f32⟩ : BufTy).Contents (Elt F) → (⟨S_, .f32⟩ : BufTy).Contents (Elt F) → (⟨S50000x10, .f32⟩ : BufTy).Contents (Elt F)),
    StableHlo.unary main_v101 main_v102 (broadcastInDim S50000x10x1 ![0, 1] bcast_S50000x10_S50000x10x1_0_1 : (⟨S50000x10, .f32⟩ : BufTy).Contents (Elt F) → (⟨S50000x10x1, .f32⟩ : BufTy).Contents (Elt F)),
    StableHlo.unary main_v102 main_v103 (Host.sqrt : (⟨S50000x10x1, .f32⟩ : BufTy).Contents (Elt F) → (⟨S50000x10x1, .f32⟩ : BufTy).Contents (Elt F)),
    StableHlo.nullary main_cst_22 (constant S_ .f32 0x2B8CBCCC#32),
    StableHlo.unary main_cst_22 main_v104 (broadcastInDim S50000x10x1 ![] bcast_S_S50000x10x1 : (⟨S_, .f32⟩ : BufTy).Contents (Elt F) → (⟨S50000x10x1, .f32⟩ : BufTy).Contents (Elt F)),
    StableHlo.binary main_v103 main_v104 main_v105 (maximumf : (⟨S50000x10x1, .f32⟩ : BufTy).Contents (Elt F) → (⟨S50000x10x1, .f32⟩ : BufTy).Contents (Elt F) → (⟨S50000x10x1, .f32⟩ : BufTy).Contents (Elt F)),
    StableHlo.unary main_v105 main_v106 (broadcastInDim S50000x10x16 ![0, 1, 2] bcast_S50000x10x1_S50000x10x16_0_1_2 : (⟨S50000x10x1, .f32⟩ : BufTy).Contents (Elt F) → (⟨S50000x10x16, .f32⟩ : BufTy).Contents (Elt F)),
    StableHlo.binary main_v99 main_v106 main_v107 (Host.divf : (⟨S50000x10x16, .f32⟩ : BufTy).Contents (Elt F) → (⟨S50000x10x16, .f32⟩ : BufTy).Contents (Elt F) → (⟨S50000x10x16, .f32⟩ : BufTy).Contents (Elt F)),
    StableHlo.reshape main_v107 main_v108 rfl shapeCasts_S50000x10x16_S50000x160,
    StableHlo.nullary main_c_23 (constantI S_ 32 0#32),
    StableHlo.unary main_c_23 main_v109 (broadcastInDim S800000 ![] bcast_S_S800000 : (⟨S_, .i32⟩ : BufTy).Contents (Elt F) → (⟨S800000, .i32⟩ : BufTy).Contents (Elt F)),
    StableHlo.binary main_v3 main_v109 main_v110 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 50000#32),
    StableHlo.unary main_c_24 main_v111 (broadcastInDim S800000 ![] bcast_S_S800000 : (⟨S_, .i32⟩ : BufTy).Contents (Elt F) → (⟨S800000, .i32⟩ : BufTy).Contents (Elt F)),
    StableHlo.binary main_v3 main_v111 main_v112 (addi : (⟨S800000, .i32⟩ : BufTy).Contents (Elt F) → (⟨S800000, .i32⟩ : BufTy).Contents (Elt F) → (⟨S800000, .i32⟩ : BufTy).Contents (Elt F)),
    StableHlo.ternary main_v110 main_v112 main_v3 main_v113 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v113 main_v114 (broadcastInDim S800000x1 ![0] bcast_S800000_S800000x1_0 : (⟨S800000, .i32⟩ : BufTy).Contents (Elt F) → (⟨S800000x1, .i32⟩ : BufTy).Contents (Elt F)),
    StableHlo.binary main_v108 main_v114 main_v115 ((fun x i => Host.gather gather_S50000x160_S800000x1_S800000x160_1_0_n_n_0_1_1160 x i) : (⟨S50000x160, .f32⟩ : BufTy).Contents (Elt F) → (⟨S800000x1, .i32⟩ : BufTy).Contents (Elt F) → (⟨S800000x160, .f32⟩ : BufTy).Contents (Elt F)),
    StableHlo.reshape main_v115 main_v116 rfl shapeCasts_S800000x160_S800000x10x16,
    StableHlo.binary main_v26 main_v116 main_v117 (mulf : (⟨S800000x10x16, .f32⟩ : BufTy).Contents (Elt F) → (⟨S800000x10x16, .f32⟩ : BufTy).Contents (Elt F) → (⟨S800000x10x16, .f32⟩ : BufTy).Contents (Elt F)),
    StableHlo.nullary main_cst_25 (constant S_ .f32 0x00000000#32),
    StableHlo.binary main_v117 main_cst_25 main_v118 ((fun x v => Host.reduceAdd x v reducesTo_S800000x10x16_S800000x10_d2 h_S_) : (⟨S800000x10x16, .f32⟩ : BufTy).Contents (Elt F) → (⟨S_, .f32⟩ : BufTy).Contents (Elt F) → (⟨S800000x10, .f32⟩ : BufTy).Contents (Elt F)),
    StableHlo.nullary main_cst_26 (constant S_ .f32 0x3F800000#32),
    StableHlo.unary main_cst_26 main_v119 (broadcastInDim S800000x10 ![] bcast_S_S800000x10 : (⟨S_, .f32⟩ : BufTy).Contents (Elt F) → (⟨S800000x10, .f32⟩ : BufTy).Contents (Elt F)),
    StableHlo.binary main_v118 main_v119 main_v120 (Host.divf : (⟨S800000x10, .f32⟩ : BufTy).Contents (Elt F) → (⟨S800000x10, .f32⟩ : BufTy).Contents (Elt F) → (⟨S800000x10, .f32⟩ : BufTy).Contents (Elt F)),
    StableHlo.nullary main_cst_27 (constant S_ .f32 0xFF800000#32),
    StableHlo.binary main_v120 main_cst_27 main_v121 ((fun x v => Host.reduce FloatOps.maximumf x v reducesTo_S800000x10_S800000_d1 h_S_) : (⟨S800000x10, .f32⟩ : BufTy).Contents (Elt F) → (⟨S_, .f32⟩ : BufTy).Contents (Elt F) → (⟨S800000, .f32⟩ : BufTy).Contents (Elt F)),
    StableHlo.nullary main_cst_28 (constant S_ .f32 0xFF800000#32),
    StableHlo.unary main_cst_28 main_v122 (broadcastInDim S800000 ![] bcast_S_S800000 : (⟨S_, .f32⟩ : BufTy).Contents (Elt F) → (⟨S800000, .f32⟩ : BufTy).Contents (Elt F)),
    StableHlo.binary main_v122 main_v121 main_v123 (maximumf : (⟨S800000, .f32⟩ : BufTy).Contents (Elt F) → (⟨S800000, .f32⟩ : BufTy).Contents (Elt F) → (⟨S800000, .f32⟩ : BufTy).Contents (Elt F)),
    StableHlo.unary main_v123 main_v124 (broadcastInDim S800000x1 ![0] bcast_S800000_S800000x1_0 : (⟨S800000, .f32⟩ : BufTy).Contents (Elt F) → (⟨S800000x1, .f32⟩ : BufTy).Contents (Elt F)),
    StableHlo.unary main_v124 main_v125 (broadcastInDim S800000x10 ![0, 1] bcast_S800000x1_S800000x10_0_1 : (⟨S800000x1, .f32⟩ : BufTy).Contents (Elt F) → (⟨S800000x10, .f32⟩ : BufTy).Contents (Elt F)),
    StableHlo.binary main_v120 main_v125 main_v126 (subf : (⟨S800000x10, .f32⟩ : BufTy).Contents (Elt F) → (⟨S800000x10, .f32⟩ : BufTy).Contents (Elt F) → (⟨S800000x10, .f32⟩ : BufTy).Contents (Elt F)),
    StableHlo.unary main_v126 main_v127 (Host.exp : (⟨S800000x10, .f32⟩ : BufTy).Contents (Elt F) → (⟨S800000x10, .f32⟩ : BufTy).Contents (Elt F)),
    StableHlo.nullary main_cst_29 (constant S_ .f32 0x00000000#32),
    StableHlo.binary main_v127 main_cst_29 main_v128 ((fun x v => Host.reduceAdd x v reducesTo_S800000x10_S800000_d1 h_S_) : (⟨S800000x10, .f32⟩ : BufTy).Contents (Elt F) → (⟨S_, .f32⟩ : BufTy).Contents (Elt F) → (⟨S800000, .f32⟩ : BufTy).Contents (Elt F)),
    StableHlo.unary main_v128 main_v129 (broadcastInDim S800000x1 ![0] bcast_S800000_S800000x1_0 : (⟨S800000, .f32⟩ : BufTy).Contents (Elt F) → (⟨S800000x1, .f32⟩ : BufTy).Contents (Elt F)),
    StableHlo.unary main_v129 main_v130 (broadcastInDim S800000x10 ![0, 1] bcast_S800000x1_S800000x10_0_1 : (⟨S800000x1, .f32⟩ : BufTy).Contents (Elt F) → (⟨S800000x10, .f32⟩ : BufTy).Contents (Elt F)),
    StableHlo.binary main_v127 main_v130 main_v131 (Host.divf : (⟨S800000x10, .f32⟩ : BufTy).Contents (Elt F) → (⟨S800000x10, .f32⟩ : BufTy).Contents (Elt F) → (⟨S800000x10, .f32⟩ : BufTy).Contents (Elt F)),
    StableHlo.unary main_v131 main_v132 (broadcastInDim S800000x10x1 ![0, 1] bcast_S800000x10_S800000x10x1_0_1 : (⟨S800000x10, .f32⟩ : BufTy).Contents (Elt F) → (⟨S800000x10x1, .f32⟩ : BufTy).Contents (Elt F)),
    StableHlo.unary main_v132 main_v133 (broadcastInDim S800000x10x16 ![0, 1, 2] bcast_S800000x10x1_S800000x10x16_0_1_2 : (⟨S800000x10x1, .f32⟩ : BufTy).Contents (Elt F) → (⟨S800000x10x16, .f32⟩ : BufTy).Contents (Elt F)),
    StableHlo.binary main_v26 main_v133 main_v134 (mulf : (⟨S800000x10x16, .f32⟩ : BufTy).Contents (Elt F) → (⟨S800000x10x16, .f32⟩ : BufTy).Contents (Elt F) → (⟨S800000x10x16, .f32⟩ : BufTy).Contents (Elt F)),
    StableHlo.reshape main_v134 main_v135 rfl shapeCasts_S800000x10x16_S800000x160,
    StableHlo.nullary main_cst_30 (constant S_ .f32 0x00000000#32),
    StableHlo.unary main_cst_30 main_v136 (broadcastInDim S50000x160 ![] bcast_S_S50000x160 : (⟨S_, .f32⟩ : BufTy).Contents (Elt F) → (⟨S50000x160, .f32⟩ : BufTy).Contents (Elt F)),
    StableHlo.unary main_v3 main_v137 (broadcastInDim S800000x1 ![0] bcast_S800000_S800000x1_0 : (⟨S800000, .i32⟩ : BufTy).Contents (Elt F) → (⟨S800000x1, .i32⟩ : BufTy).Contents (Elt F)),
    StableHlo.ternary main_v136 main_v137 main_v135 main_v138 ((fun x i u => Host.scatterAdd scatter_S50000x160_S800000x1_S800000x160_1_0_0_1 x i u) : (⟨S50000x160, .f32⟩ : BufTy).Contents (Elt F) → (⟨S800000x1, .i32⟩ : BufTy).Contents (Elt F) → (⟨S800000x160, .f32⟩ : BufTy).Contents (Elt F) → (⟨S50000x160, .f32⟩ : BufTy).Contents (Elt F)),
    StableHlo.binary main_v138 main_v18 main_v139 (addf : (⟨S50000x160, .f32⟩ : BufTy).Contents (Elt F) → (⟨S50000x160, .f32⟩ : BufTy).Contents (Elt F) → (⟨S50000x160, .f32⟩ : BufTy).Contents (Elt F)),
    StableHlo.reshape main_v139 main_v140 rfl shapeCasts_S50000x160_S50000x10x16,
    StableHlo.binary main_v140 main_v140 main_v141 (mulf : (⟨S50000x10x16, .f32⟩ : BufTy).Contents (Elt F) → (⟨S50000x10x16, .f32⟩ : BufTy).Contents (Elt F) → (⟨S50000x10x16, .f32⟩ : BufTy).Contents (Elt F)),
    StableHlo.nullary main_cst_31 (constant S_ .f32 0x00000000#32),
    StableHlo.binary main_v141 main_cst_31 main_v142 ((fun x v => Host.reduceAdd x v reducesTo_S50000x10x16_S50000x10_d2 h_S_) : (⟨S50000x10x16, .f32⟩ : BufTy).Contents (Elt F) → (⟨S_, .f32⟩ : BufTy).Contents (Elt F) → (⟨S50000x10, .f32⟩ : BufTy).Contents (Elt F)),
    StableHlo.unary main_v142 main_v143 (broadcastInDim S50000x10x1 ![0, 1] bcast_S50000x10_S50000x10x1_0_1 : (⟨S50000x10, .f32⟩ : BufTy).Contents (Elt F) → (⟨S50000x10x1, .f32⟩ : BufTy).Contents (Elt F)),
    StableHlo.unary main_v143 main_v144 (Host.sqrt : (⟨S50000x10x1, .f32⟩ : BufTy).Contents (Elt F) → (⟨S50000x10x1, .f32⟩ : BufTy).Contents (Elt F)),
    StableHlo.nullary main_cst_32 (constant S_ .f32 0x2B8CBCCC#32) ]

/-- The operations of the program's window 3, in order (17 of them); a called function's operations stand where the call does. -/
abbrev ops3 : List (HloOp τ sig (Elt F)) :=
  [ StableHlo.unary main_cst_32 main_v145 (broadcastInDim S50000x10x1 ![] bcast_S_S50000x10x1 : (⟨S_, .f32⟩ : BufTy).Contents (Elt F) → (⟨S50000x10x1, .f32⟩ : BufTy).Contents (Elt F)),
    StableHlo.binary main_v144 main_v145 main_v146 (maximumf : (⟨S50000x10x1, .f32⟩ : BufTy).Contents (Elt F) → (⟨S50000x10x1, .f32⟩ : BufTy).Contents (Elt F) → (⟨S50000x10x1, .f32⟩ : BufTy).Contents (Elt F)),
    StableHlo.unary main_v146 main_v147 (broadcastInDim S50000x10x16 ![0, 1, 2] bcast_S50000x10x1_S50000x10x16_0_1_2 : (⟨S50000x10x1, .f32⟩ : BufTy).Contents (Elt F) → (⟨S50000x10x16, .f32⟩ : BufTy).Contents (Elt F)),
    StableHlo.binary main_v140 main_v147 main_v148 (Host.divf : (⟨S50000x10x16, .f32⟩ : BufTy).Contents (Elt F) → (⟨S50000x10x16, .f32⟩ : BufTy).Contents (Elt F) → (⟨S50000x10x16, .f32⟩ : BufTy).Contents (Elt F)),
    StableHlo.reshape main_v148 main_v149 rfl shapeCasts_S50000x10x16_S50000x160,
    StableHlo.nullary main_cst_33 (constant S_ .f32 0x3C23D70A#32),
    StableHlo.TRef.nullary main_call1.cst (constant S_ .f32 0x00000000#32),
    StableHlo.TRef.unary main_call1.cst main_call1.v0 (broadcastInDim S50000x160 ![] bcast_S_S50000x160),
    StableHlo.TRef.binary (.of main_v149 : StableHlo.TRef sig ⟨S50000x160, .f32⟩) main_call1.v0 main_call1.v1 (cmpf .oge),
    StableHlo.TRef.unary (.of main_cst_33 : StableHlo.TRef sig ⟨S_, .f32⟩) main_call1.v2 id,
    StableHlo.TRef.unary main_call1.v2 main_call1.v3 (broadcastInDim S50000x160 ![] bcast_S_S50000x160),
    StableHlo.TRef.binary main_call1.v3 (.of main_v149 : StableHlo.TRef sig ⟨S50000x160, .f32⟩) main_call1.v4 mulf,
    StableHlo.TRef.ternary main_call1.v1 (.of main_v149 : StableHlo.TRef sig ⟨S50000x160, .f32⟩) main_call1.v4 main_call1.call0.v0 select,
    StableHlo.binary main_v150 main_arg4 main_v151 ((fun l r => Host.dotGeneral dot_S50000x160_S160x40_S50000x40_1_0_0_1_n_n none l r) : (⟨S50000x160, .f32⟩ : BufTy).Contents (Elt F) → (⟨S160x40, .f32⟩ : BufTy).Contents (Elt F) → (⟨S50000x40, .f32⟩ : BufTy).Contents (Elt F)),
    StableHlo.unary main_arg5 main_v152 (broadcastInDim S1x40 ![1] bcast_S40_S1x40_1 : (⟨S40, .f32⟩ : BufTy).Contents (Elt F) → (⟨S1x40, .f32⟩ : BufTy).Contents (Elt F)),
    StableHlo.unary main_v152 main_v153 (broadcastInDim S50000x40 ![0, 1] bcast_S1x40_S50000x40_0_1 : (⟨S1x40, .f32⟩ : BufTy).Contents (Elt F) → (⟨S50000x40, .f32⟩ : BufTy).Contents (Elt F)),
    StableHlo.binary main_v151 main_v153 main_v154 (addf : (⟨S50000x40, .f32⟩ : BufTy).Contents (Elt F) → (⟨S50000x40, .f32⟩ : BufTy).Contents (Elt F) → (⟨S50000x40, .f32⟩ : BufTy).Contents (Elt F)) ]

end Cert.ReferenceIdeal.Run

end
-- ==== Proof.RefSeq.lean ====
/-
  The reference program as one straight line: its four windows' operation lists joined, the program shown equal to
  that line run in order, and the line's run read back — every weakly fair execution terminates with each buffer at
  the fold of the operations' results over the launch contents.
-/
import proofs.«157490_j26834955665983_2_alg».proof.Proof.RefOps

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The whole program's operations: the four windows' in order. -/
abbrev ops : List (HloOp τ sig (Elt F)) := ops0 ++ (ops1 ++ (ops2 ++ ops3))

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl
set_option maxRecDepth 8192 in
theorem main_part3_eq (c : Dev nD) : main_part3 (F := F) c = seq ops3 := rfl

set_option maxRecDepth 8192 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig := by
  simp only [ops0, List.Forall, nullary_bufs_sub, unary_bufs_sub, binary_bufs_sub, ternary_bufs_sub, reshape_bufs_sub, and_self]
set_option maxRecDepth 8192 in
theorem ops1_sub : (ops1 : List (HloOp τ sig (Elt F))).Forall fun op => op.bufs ⊆ tcRefs τ sig := by
  simp only [ops1, List.Forall, nullary_bufs_sub, unary_bufs_sub, binary_bufs_sub, ternary_bufs_sub, reshape_bufs_sub, and_self]
set_option maxRecDepth 8192 in
theorem ops2_sub : (ops2 : List (HloOp τ sig (Elt F))).Forall fun op => op.bufs ⊆ tcRefs τ sig := by
  simp only [ops2, List.Forall, nullary_bufs_sub, unary_bufs_sub, binary_bufs_sub, ternary_bufs_sub, reshape_bufs_sub, and_self]
set_option maxRecDepth 8192 in
theorem ops3_sub : (ops3 : List (HloOp τ sig (Elt F))).Forall fun op => op.bufs ⊆ tcRefs τ sig := by
  simp only [ops3, List.Forall, nullary_bufs_sub, unary_bufs_sub, binary_bufs_sub, ternary_bufs_sub, reshape_bufs_sub, and_self]

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-- On every device, for any float values, from any memory with zero counters: every weakly fair execution of the
    program terminates, each buffer holding what the operations, folded in order over the launch contents, leave in it. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (Proc.devRef .tc b) :=
  run_seq scopedRefs_eq scopedSems_eq defs main (fun _ => ops) main_eq (fun _ => ops_sub) m ρ

end Cert.ReferenceIdeal.Run

end
-- ==== Proof.RefOut.lean ====
/-
  The reference program's result, read after its whole line of operations from any contents: the composition of the
  operations that lead to the result buffer is, stage by stage, the reference's chain of stages.
-/
import proofs.«157490_j26834955665983_2_alg».proof.Proof.RefSeq
import proofs.«157490_j26834955665983_2_alg».proof.Proof.RefChain

noncomputable section

namespace Cert.ReferenceIdeal.Run

open Cert.ReferenceIdeal Cert.ReferenceIdeal.Gen Idealize.ShloMosaic Idealize.ShloMosaic.TcCoe Idealize.SL.Sem Idealize.ShloMosaic.StableHlo

attribute [local irreducible] Host.gather Host.scatterAdd Host.reduce Host.reduceAdd in
set_option maxRecDepth 8192 in
set_option maxHeartbeats 80000000 in
/-- What the result buffer holds after the whole line, from any contents: the operations composed are, stage by stage,
    the reference's stages — the same operations in the same order —, the typed references' transports around a called
    function's operations being the identity at these literal references. -/
theorem out_eq (V : Valuation τ sig (Elt Ideal)) :
    after (ops (F := Ideal)) V (Proc.devRef .tc main_v154)
      = Chain.result (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  simp only [ops, after_append]
  after_results_simp
  simp only [Chain.result, Chain.aggregate, Chain.messageArr, Chain.softmaxArr, Chain.expShift, Chain.tops, Chain.spread,
    Chain.scores, Chain.egroups, Chain.scatterArr, Chain.gatherArr, Chain.col, Chain.wrap, Chain.trgOf, Chain.srcOf,
    Chain.normalizeArr, Chain.lengths, Chain.groups, Chain.firstLayer, Chain.leakyArr]
  first | rfl | fail "the two composed terms are not definitionally equal"

end Cert.ReferenceIdeal.Run

end
-- ==== Proof.RefArgs.lean ====
/-
  No operation of the reference program writes one of its six argument buffers: read after the whole line, each
  holds what it held at the start (every operation's result buffer is another reference, decided one by one).
-/
import proofs.«157490_j26834955665983_2_alg».proof.Proof.RefSeq

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
theorem arg0_eq (V : Valuation τ sig (Elt F)) :
    after (ops (F := F)) V (Proc.devRef .tc main_arg0) = V (Proc.devRef .tc main_arg0) := by
  simp only [ops, after_append]
  after_results_simp

set_option maxRecDepth 8192 in
set_option maxHeartbeats 8000000 in
theorem arg1_eq (V : Valuation τ sig (Elt F)) :
    after (ops (F := F)) V (Proc.devRef .tc main_arg1) = V (Proc.devRef .tc main_arg1) := by
  simp only [ops, after_append]
  after_results_simp

set_option maxRecDepth 8192 in
set_option maxHeartbeats 8000000 in
theorem arg2_eq (V : Valuation τ sig (Elt F)) :
    after (ops (F := F)) V (Proc.devRef .tc main_arg2) = V (Proc.devRef .tc main_arg2) := by
  simp only [ops, after_append]
  after_results_simp

set_option maxRecDepth 8192 in
set_option maxHeartbeats 8000000 in
theorem arg3_eq (V : Valuation τ sig (Elt F)) :
    after (ops (F := F)) V (Proc.devRef .tc main_arg3) = V (Proc.devRef .tc main_arg3) := by
  simp only [ops, after_append]
  after_results_simp

set_option maxRecDepth 8192 in
set_option maxHeartbeats 8000000 in
theorem arg4_eq (V : Valuation τ sig (Elt F)) :
    after (ops (F := F)) V (Proc.devRef .tc main_arg4) = V (Proc.devRef .tc main_arg4) := by
  simp only [ops, after_append]
  after_results_simp

set_option maxRecDepth 8192 in
set_option maxHeartbeats 8000000 in
theorem arg5_eq (V : Valuation τ sig (Elt F)) :
    after (ops (F := F)) V (Proc.devRef .tc main_arg5) = V (Proc.devRef .tc main_arg5) := by
  simp only [ops, after_append]
  after_results_simp

end Cert.ReferenceIdeal.Run

end
-- ==== Proof.RefRun.lean ====
/-
  The reference program's run: from any memory with zero counters every weakly fair execution terminates, the result
  buffer holding the reference's chain of stages applied to the six arguments' launch contents, and the six argument
  buffers what they held.
-/
import proofs.«157490_j26834955665983_2_alg».proof.Proof.RefOut
import proofs.«157490_j26834955665983_2_alg».proof.Proof.RefArgs

noncomputable section

namespace Cert.ReferenceIdeal.Run

open Cert.ReferenceIdeal Cert.ReferenceIdeal.Gen Idealize.ShloMosaic Idealize.ShloMosaic.TcCoe Idealize.SL.Sem Idealize.ShloMosaic.StableHlo

/-- Every weakly fair execution of the reference program terminates; the result is the chain of stages of the
    arguments' launch contents, and no argument buffer has changed. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v154) = Chain.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v154).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_all m ρ)

end Cert.ReferenceIdeal.Run

end
-- ==== Proof.RefReadLayout.lean ====
/-
  The layout operations of the reference read at an index, for any number of rows: the two reshapes between rows of 160
  features and rows of 10 groups of 16, the sum over a group's 16 features, and the broadcasts that turn a per-group or
  per-row number into a column and spread it again, and a bias vector into rows.
-/
import proofs.«157490_j26834955665983_2_alg».proof.Proof.Spec
import proofs.«157490_j26834955665983_2_alg».proof.Proof.RefChain
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout

noncomputable section

namespace Cert.ReferenceIdeal.Read

open Cert.ReferenceIdeal Cert.ReferenceIdeal.Gen Cert.ReferenceIdeal.Chain
open Cert.Routing
open Idealize.ShloMosaic Idealize.ShloMosaic.ValueIdx

/-! ## Features and factor groups -/

/-- The place of a feature inside its factor group. -/
def sub (i : Fin 160) : Fin 16 := ⟨i.val % 16, Nat.mod_lt _ (by decide)⟩

theorem feat_grp_sub (i : Fin 160) : feat (grp i) (sub i) = i := by
  apply Fin.ext; show 16 * (i.val / 16) + i.val % 16 = i.val; omega

/-! ## The two reshapes between n rows of 160 and n rows of 10 groups of 16 -/

/-- Entry (r, j, l) of the grouped view is entry (r, feature l of group j) of the flat array. -/
theorem cast_split {n : Nat} (x : (⟨2, ![n, 160]⟩ : Shape).Idx → EReal)
    (h : (⟨2, ![n, 160]⟩ : Shape).ShapeCasts ⟨3, ![n, 10, 16]⟩) (r : Fin n) (j : Fin 10) (l : Fin 16) :
    shapeCast ⟨3, ![n, 10, 16]⟩ x h (ix3 r j l) = x (ix2 r (feat j l)) := by
  refine shapeCast_apply x h (ix3 r j l) (ix2 r (feat j l)) ?_
  rw [Shape.rowMajor_val_two, Shape.rowMajor_val_three]
  show r.val * 160 + (16 * j.val + l.val) = (r.val * 10 + j.val) * 16 + l.val
  omega

/-- Entry (r, i) of the flattened array is entry (r, group of i, place of i in its group) of the grouped one. -/
theorem cast_merge {n : Nat} (y : (⟨3, ![n, 10, 16]⟩ : Shape).Idx → EReal)
    (h : (⟨3, ![n, 10, 16]⟩ : Shape).ShapeCasts ⟨2, ![n, 160]⟩) (r : Fin n) (i : Fin 160) :
    shapeCast ⟨2, ![n, 160]⟩ y h (ix2 r i) = y (ix3 r (grp i) (sub i)) := by
  refine shapeCast_apply y h (ix2 r i) (ix3 r (grp i) (sub i)) ?_
  rw [Shape.rowMajor_val_two, Shape.rowMajor_val_three]
  show (r.val * 10 + i.val / 16) * 16 + i.val % 16 = r.val * 160 + i.val
  omega

/-! ## A sum over a group's 16 features -/

/-- The sum over the last axis of an [n, 10, 16] array from the zero word: the sum of the group's 16 entries. -/
theorem groupSum_apply {n : Nat} (g : FVec Ideal ⟨3, ![n, 10, 16]⟩ .f32)
    (h' : (⟨3, ![n, 10, 16]⟩ : Shape).ReducesTo [2] ⟨2, ![n, 10]⟩) (hu : 0 < (⟨0, ![]⟩ : Shape).numel)
    (r : Fin n) (j : Fin 10) :
    Host.reduceAdd (F := Ideal) g (constant (F := Ideal) ⟨0, ![]⟩ .f32 0x00000000#32) h' hu (ix2 r j)
      = ∑ l : Fin 16, g (ix3 r j l) := by
  have h : (⟨3, ![n, 10, 16]⟩ : Shape).Reduces [2] ⟨2, ![n, 10]⟩ := ⟨h'.1, Nat.succ_pos 1, h'.2⟩
  refine (hostReduceAdd_apply g _ h' hu (ix2 r j)).trans ?_
  refine (Ideal.hostReduceAdd_single h' h g _ (ix2 r j)).trans ?_
  rw [constant_apply, Ideal.ofBits_zero_f32, zero_add]
  refine Finset.sum_congr rfl fun l _ => congrArg g (funext fun c => ?_)
  match c with
  | ⟨0, _⟩ => rfl
  | ⟨1, _⟩ => rfl
  | ⟨2, _⟩ => rfl

/-! ## The broadcasts, read at an index -/

/-- A per-group number as a [n, 10, 1] column: entry (r, j, c) is entry (r, j). -/
theorem keep_apply {n : Nat} {α : Type} (x : (⟨2, ![n, 10]⟩ : Shape).Idx → α)
    (h : (⟨2, ![n, 10]⟩ : Shape).BroadcastsInDim ⟨3, ![n, 10, 1]⟩ ![0, 1]) (r : Fin n) (j : Fin 10) (c : Fin 1) :
    broadcastInDim ⟨3, ![n, 10, 1]⟩ ![0, 1] h x (ix3 r j c) = x (ix2 r j) := by
  refine broadcastInDim_apply _ h x (ix3 r j c) (ix2 r j) fun a => ?_
  match a with
  | ⟨0, _⟩ =>
    show r.val = if n = 1 then 0 else r.val
    have := r.isLt
    split
    · omega
    · rfl
  | ⟨1, _⟩ => rfl

/-- A [n, 10, 1] column spread over the 16 features of each group: entry (r, j, l) is entry (r, j, 0). -/
theorem spread16_apply {n : Nat} {α : Type} (x : (⟨3, ![n, 10, 1]⟩ : Shape).Idx → α)
    (h : (⟨3, ![n, 10, 1]⟩ : Shape).BroadcastsInDim ⟨3, ![n, 10, 16]⟩ ![0, 1, 2]) (r : Fin n) (j : Fin 10) (l : Fin 16) :
    broadcastInDim ⟨3, ![n, 10, 16]⟩ ![0, 1, 2] h x (ix3 r j l) = x (ix3 r j (0 : Fin 1)) := by
  refine broadcastInDim_apply _ h x (ix3 r j l) (ix3 r j (0 : Fin 1)) fun a => ?_
  match a with
  | ⟨0, _⟩ =>
    show r.val = if n = 1 then 0 else r.val
    have := r.isLt
    split
    · omega
    · rfl
  | ⟨1, _⟩ => rfl
  | ⟨2, _⟩ => rfl

/-- A per-row number as a [n, 1] column: entry (r, c) is entry r. -/
theorem col_apply {n : Nat} {α : Type} (x : (⟨1, ![n]⟩ : Shape).Idx → α)
    (h : (⟨1, ![n]⟩ : Shape).BroadcastsInDim ⟨2, ![n, 1]⟩ ![0]) (r : Fin n) (c : Fin 1) :
    broadcastInDim ⟨2, ![n, 1]⟩ ![0] h x (ix2 r c) = x (ix1 r) := by
  refine broadcastInDim_apply _ h x (ix2 r c) (ix1 r) fun a => ?_
  match a with
  | ⟨0, _⟩ =>
    show r.val = if n = 1 then 0 else r.val
    have := r.isLt
    split
    · omega
    · rfl

/-- A [n, 1] column spread over ten groups: entry (r, j) is entry (r, 0). -/
theorem spread10_apply {n : Nat} {α : Type} (x : (⟨2, ![n, 1]⟩ : Shape).Idx → α)
    (h : (⟨2, ![n, 1]⟩ : Shape).BroadcastsInDim ⟨2, ![n, 10]⟩ ![0, 1]) (r : Fin n) (j : Fin 10) :
    broadcastInDim ⟨2, ![n, 10]⟩ ![0, 1] h x (ix2 r j) = x (ix2 r (0 : Fin 1)) := by
  refine broadcastInDim_apply _ h x (ix2 r j) (ix2 r (0 : Fin 1)) fun a => ?_
  match a with
  | ⟨0, _⟩ =>
    show r.val = if n = 1 then 0 else r.val
    have := r.isLt
    split
    · omega
    · rfl
  | ⟨1, _⟩ => rfl

/-- A bias vector as a one-row matrix: entry (c, i) is entry i. -/
theorem row_apply {d : Nat} {α : Type} (x : (⟨1, ![d]⟩ : Shape).Idx → α)
    (h : (⟨1, ![d]⟩ : Shape).BroadcastsInDim ⟨2, ![1, d]⟩ ![1]) (c : Fin 1) (i : Fin d) :
    broadcastInDim ⟨2, ![1, d]⟩ ![1] h x (ix2 c i) = x (ix1 i) := by
  refine broadcastInDim_apply _ h x (ix2 c i) (ix1 i) fun a => ?_
  match a with
  | ⟨0, _⟩ =>
    show i.val = if d = 1 then 0 else i.val
    have := i.isLt
    split
    · omega
    · rfl

/-- A one-row matrix copied down n rows: entry (r, i) is entry (0, i). -/
theorem rows_apply {n d : Nat} {α : Type} (x : (⟨2, ![1, d]⟩ : Shape).Idx → α)
    (h : (⟨2, ![1, d]⟩ : Shape).BroadcastsInDim ⟨2, ![n, d]⟩ ![0, 1]) (r : Fin n) (i : Fin d) :
    broadcastInDim ⟨2, ![n, d]⟩ ![0, 1] h x (ix2 r i) = x (ix2 (0 : Fin 1) i) := by
  refine broadcastInDim_apply _ h x (ix2 r i) (ix2 (0 : Fin 1) i) fun a => ?_
  match a with
  | ⟨0, _⟩ => rfl
  | ⟨1, _⟩ =>
    show i.val = if d = 1 then 0 else i.val
    have := i.isLt
    split
    · omega
    · rfl

end Cert.ReferenceIdeal.Read

end
-- ==== Proof.RefReadNorm.lean ====
/-
  The reference's normalisation read at an index: the [50000, 160] array viewed as 10 groups of 16, every group divided by
  its floored Euclidean length, is the specification's row-by-row normalisation; a routing round's update follows.
-/
import proofs.«157490_j26834955665983_2_alg».proof.Proof.Spec
import proofs.«157490_j26834955665983_2_alg».proof.Proof.RefChain
import proofs.«157490_j26834955665983_2_alg».proof.Proof.RefReadLayout
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout

noncomputable section

namespace Cert.ReferenceIdeal.Read

open Cert.ReferenceIdeal Cert.ReferenceIdeal.Gen Cert.ReferenceIdeal.Chain
open Cert.Routing
open Idealize.ShloMosaic Idealize.ShloMosaic.ValueIdx

/-- The host's square root at an index is the extended reals' square root of the element. -/
theorem hostSqrt_apply {s : Shape} {φ : FTy} (a : FVec Ideal s φ) (i : s.Idx) : Host.sqrt a i = Ideal.sqrt (a i) := rfl

/-- Entry (r, j, l) of the grouped view of the node features. -/
theorem groups_apply (h : FA S50000x160) (r : Fin 50000) (j : Fin 10) (l : Fin 16) :
    groups h (ix3 r j l) = h (ix2 r (feat j l)) := cast_split h _ r j l

/-- The floored length of group j of row r: the square root of the sum of squares, floored at eps. -/
theorem lengths_apply (g : FA S50000x10x16) (r : Fin 50000) (j : Fin 10) (c : Fin 1) :
    lengths g (ix3 r j c) = max (Ideal.sqrt (∑ l : Fin 16, g (ix3 r j l) * g (ix3 r j l))) eps := by
  unfold lengths
  rw [maximumf_apply, hostSqrt_apply, keep_apply, groupSum_apply, broadcastInDim_scalar_apply, constant_apply]
  rfl

/-- The normalisation at (r, i): the row-by-row function of the specification on row r. -/
theorem normalizeArr_apply (h : FA S50000x160) (r : Fin 50000) (i : Fin 160) :
    normalizeArr h (ix2 r i) = normalize (rowOf h r) i := by
  unfold normalizeArr
  rw [cast_merge, hostDivf_apply, spread16_apply, lengths_apply, groups_apply, feat_grp_sub]
  unfold Routing.normalize Routing.norm Routing.normSq Routing.rowOf
  simp only [groups_apply]

/-- The normalisation of a whole array is the specification's normalisation of every row. -/
theorem normalizeArr_eq (h : FA S50000x160) :
    normalizeArr h = fun idx => normalize (rowOf h (idx 0)) (idx 1) := by
  funext idx
  obtain ⟨r, i, rfl⟩ : ∃ (r : Fin 50000) (i : Fin 160), idx = ix2 r i := ⟨idx 0, idx 1, eq_ix2 idx⟩
  exact normalizeArr_apply h r i

theorem renorm_eq (agg xn : FA S50000x160) : normalizeArr (addf agg xn) = renormArr agg xn := by
  rw [normalizeArr_eq]
  rfl

end Cert.ReferenceIdeal.Read

end
-- ==== Proof.RefReadMessage.lean ====
/-
  The reference's message stage read at an index: per edge and group the agreement of the source and target rows, the
  softmax of the ten agreements shifted by their largest, and the source row weighed by it, are the specification's
  row-by-row message.
-/
import proofs.«157490_j26834955665983_2_alg».proof.Proof.Spec
import proofs.«157490_j26834955665983_2_alg».proof.Proof.RefChain
import proofs.«157490_j26834955665983_2_alg».proof.Proof.RefReadLayout
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout

noncomputable section

namespace Cert.ReferenceIdeal.Read

open Cert.ReferenceIdeal Cert.ReferenceIdeal.Gen Cert.ReferenceIdeal.Chain
open Cert.Routing
open Idealize.ShloMosaic Idealize.ShloMosaic.ValueIdx

/-! ## Reductions over a row's ten groups -/

/-- The maximum over the ten groups of row e, from the word c: the fold of max from c's value. -/
theorem rowMax_apply {n : Nat} (s : FVec Ideal ⟨2, ![n, 10]⟩ .f32) (c : BitVec 32)
    (h' : (⟨2, ![n, 10]⟩ : Shape).ReducesTo [1] ⟨1, ![n]⟩) (hu : 0 < (⟨0, ![]⟩ : Shape).numel) (e : Fin n) :
    Host.reduce FloatOps.maximumf s (constant (F := Ideal) ⟨0, ![]⟩ .f32 c) h' hu (ix1 e)
      = (Finset.univ : Finset (Fin 10)).fold max (Ideal.ofBits .f32 c) (fun j => s (ix2 e j)) := by
  have h : (⟨2, ![n, 10]⟩ : Shape).Reduces [1] ⟨1, ![n]⟩ := ⟨h'.1, Nat.succ_pos 0, h'.2⟩
  refine (Host.reduce_eq_fold_single FloatOps.maximumf s _ h' h hu (ix1 e)).trans ?_
  have hl : (s ∘ h.lift (ix1 e)) = fun j : Fin 10 => s (ix2 e j) :=
    funext fun k => congrArg s (funext fun a => by
      match a with
      | ⟨0, _⟩ => rfl
      | ⟨1, _⟩ => rfl)
  rw [hl]
  rfl

/-- The sum over the ten groups of row e from the zero word. -/
theorem rowSum_apply {n : Nat} (s : FVec Ideal ⟨2, ![n, 10]⟩ .f32)
    (h' : (⟨2, ![n, 10]⟩ : Shape).ReducesTo [1] ⟨1, ![n]⟩) (hu : 0 < (⟨0, ![]⟩ : Shape).numel) (e : Fin n) :
    Host.reduceAdd (F := Ideal) s (constant (F := Ideal) ⟨0, ![]⟩ .f32 0x00000000#32) h' hu (ix1 e)
      = ∑ j : Fin 10, s (ix2 e j) := by
  have h : (⟨2, ![n, 10]⟩ : Shape).Reduces [1] ⟨1, ![n]⟩ := ⟨h'.1, Nat.succ_pos 0, h'.2⟩
  refine (hostReduceAdd_apply s _ h' hu (ix1 e)).trans ?_
  refine (Ideal.hostReduceAdd_single h' h s _ (ix1 e)).trans ?_
  rw [constant_apply, Ideal.ofBits_zero_f32, zero_add]
  refine Finset.sum_congr rfl fun j _ => congrArg s (funext fun a => ?_)
  match a with
  | ⟨0, _⟩ => rfl
  | ⟨1, _⟩ => rfl

/-! ## The message stage at an index -/

/-- The host's exponential at an index is the extended reals' exponential of the element. -/
theorem hostExp_apply {s : Shape} {φ : FTy} (a : FVec Ideal s φ) (i : s.Idx) : Host.exp a i = Ideal.exp (a i) := rfl

/-- Entry (e, j, l) of the grouped view of the edge rows. -/
theorem egroups_apply (z : FA S800000x160) (e : Fin 800000) (j : Fin 10) (l : Fin 16) :
    egroups z (ix3 e j l) = z (ix2 e (feat j l)) := cast_split z _ e j l

/-- The agreement of edge e on group j. -/
theorem scores_apply (zg ug : FA S800000x10x16) (e : Fin 800000) (j : Fin 10) :
    scores zg ug (ix2 e j) = Ideal.div (∑ l : Fin 16, zg (ix3 e j l) * ug (ix3 e j l)) one := by
  unfold scores
  rw [hostDivf_apply, groupSum_apply, broadcastInDim_scalar_apply, constant_apply]
  rfl

/-- A per-edge number spread over the groups reads the edge's number. -/
theorem spread_apply (v : FA S800000) (e : Fin 800000) (j : Fin 10) : spread v (ix2 e j) = v (ix1 e) := by
  unfold spread
  rw [spread10_apply, col_apply]

/-- The largest agreement of edge e. -/
theorem tops_apply (s : FA S800000x10) (e : Fin 800000) : tops s (ix1 e) = top (fun j => s (ix2 e j)) := by
  unfold tops
  rw [maximumf_apply, broadcastInDim_scalar_apply, constant_apply, rowMax_apply]
  rfl

/-- The shifted exponential of edge e's agreement on group j. -/
theorem expShift_apply (s : FA S800000x10) (e : Fin 800000) (j : Fin 10) :
    expShift s (ix2 e j) = Ideal.exp (s (ix2 e j) - top (fun j' => s (ix2 e j'))) := by
  unfold expShift
  rw [hostExp_apply, subf_apply, spread_apply, tops_apply]

/-- The softmax of edge e's agreements at group j. -/
theorem softmaxArr_apply (s : FA S800000x10) (e : Fin 800000) (j : Fin 10) :
    softmaxArr s (ix2 e j) = softmax (fun j' => s (ix2 e j')) j := by
  unfold softmaxArr
  rw [hostDivf_apply, spread_apply, rowSum_apply, expShift_apply]
  simp only [expShift_apply]
  rfl

/-- The message of edge e at feature i. -/
theorem messageArr_apply (z u : FA S800000x160) (e : Fin 800000) (i : Fin 160) :
    Chain.messageArr z u (ix2 e i) = message (rowOf z e) (rowOf u e) i := by
  have hs : (fun j' => scores (egroups z) (egroups u) (ix2 e j')) = score (rowOf z e) (rowOf u e) :=
    funext fun j' => by
      rw [scores_apply]
      simp only [egroups_apply]
      rfl
  unfold Chain.messageArr
  rw [cast_merge, mulf_apply, spread16_apply, keep_apply, softmaxArr_apply, egroups_apply, feat_grp_sub, hs]
  rfl

theorem message_eq (z u : FA S800000x160) : Chain.messageArr z u = Routing.messageArr z u := by
  funext idx
  obtain ⟨e, i, rfl⟩ : ∃ (e : Fin 800000) (i : Fin 160), idx = ix2 e i := ⟨idx 0, idx 1, eq_ix2 idx⟩
  exact messageArr_apply z u e i

end Cert.ReferenceIdeal.Read

end
-- ==== Proof.RefReadEmbed.lean ====
/-
  The reference's first layer read at an index: the product with the weights plus the bias row, then jnp's leaky rectifier,
  is the specification's rectified affine layer on each row; with the normalisation it is the specification's embedding.
-/
import proofs.«157490_j26834955665983_2_alg».proof.Proof.Spec
import proofs.«157490_j26834955665983_2_alg».proof.Proof.RefChain
import proofs.«157490_j26834955665983_2_alg».proof.Proof.RefReadLayout
import proofs.«157490_j26834955665983_2_alg».proof.Proof.RefReadNorm
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout
import Idealize.ShloMosaic.Lib.StackMember

noncomputable section

namespace Cert.ReferenceIdeal.Read

open Cert.ReferenceIdeal Cert.ReferenceIdeal.Gen Cert.ReferenceIdeal.Chain
open Cert.Routing
open Idealize.ShloMosaic Idealize.ShloMosaic.ValueIdx

/-! ## The rectifier and the affine layer at an index -/

/-- The first layer's product is the plain product of a [50000, 500] by a [500, 160] matrix. -/
theorem dot1_eq : dot_S50000x500_S500x160_S50000x160_1_0_0_1_n_n = DotDims.plain 50000 500 160 := rfl

/-- jnp's leaky rectifier with the slope word wd, at (r, i). -/
theorem leakyArr_apply (h : FA S50000x160) (wd : BitVec 32) (r : Fin 50000) (i : Fin 160) :
    leakyArr h (constant (F := Ideal) S_ .f32 wd) (ix2 r i)
      = Scalar.select (Ideal.cmp .oge (h (ix2 r i)) 0) (h (ix2 r i)) (Ideal.ofBits .f32 wd * h (ix2 r i)) := by
  unfold leakyArr
  rw [select_apply, cmpf_apply, mulf_apply, broadcastInDim_scalar_apply, broadcastInDim_scalar_apply,
    constant_apply, constant_apply, Ideal.ofBits_zero_f32]
  rfl

/-- The first layer at (r, i): the rectifier of the affine layer on row r. -/
theorem firstLayer_apply (x : FA S50000x500) (w : FA S500x160) (b : FA S160) (r : Fin 50000) (i : Fin 160) :
    firstLayer x w b (ix2 r i) = leaky (affine (rowOf x r) (ent w) (ent1 b) i) := by
  unfold firstLayer
  rw [leakyArr_apply, addf_apply, dot1_eq, StackMember.dotGeneral_plain_apply, rows_apply, row_apply]
  rfl

theorem embed_eq (x : FA S50000x500) (w : FA S500x160) (b : FA S160) :
    normalizeArr (firstLayer x w b) = embedArr x w b := by
  have hrow : ∀ r : Fin 50000, rowOf (firstLayer x w b) r = fun i => leaky (affine (rowOf x r) (ent w) (ent1 b) i) :=
    fun r => funext fun i => firstLayer_apply x w b r i
  rw [normalizeArr_eq]
  unfold embedArr
  funext idx
  exact congrArg (fun f => Routing.normalize f (idx 1)) (hrow (idx 0))

end Cert.ReferenceIdeal.Read

end
-- ==== Proof.RefReadClassify.lean ====
/-
  The reference's last stage read at an index: the last round's normalised update, jnp's leaky rectifier, the product with
  the classifier's weights and the bias row are the specification's classifier on each row.
-/
import proofs.«157490_j26834955665983_2_alg».proof.Proof.Spec
import proofs.«157490_j26834955665983_2_alg».proof.Proof.RefChain
import proofs.«157490_j26834955665983_2_alg».proof.Proof.RefReadLayout
import proofs.«157490_j26834955665983_2_alg».proof.Proof.RefReadNorm
import proofs.«157490_j26834955665983_2_alg».proof.Proof.RefReadEmbed
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout
import Idealize.ShloMosaic.Lib.StackMember

noncomputable section

namespace Cert.ReferenceIdeal.Read

open Cert.ReferenceIdeal Cert.ReferenceIdeal.Gen Cert.ReferenceIdeal.Chain
open Cert.Routing
open Idealize.ShloMosaic Idealize.ShloMosaic.ValueIdx

/-- The classifier's product is the plain product of a [50000, 160] by a [160, 40] matrix. -/
theorem dot2_eq : dot_S50000x160_S160x40_S50000x40_1_0_0_1_n_n = DotDims.plain 50000 160 40 := rfl

theorem classify_eq (agg xn : FA S50000x160) (w2 : FA S160x40) (b2 : FA S40) :
    addf (Host.dotGeneral dot_S50000x160_S160x40_S50000x40_1_0_0_1_n_n none
        (leakyArr (normalizeArr (addf agg xn)) (constant (F := Ideal) S_ .f32 0x3C23D70A#32)) w2)
      (broadcastInDim S50000x40 ![0, 1] bcast_S1x40_S50000x40_0_1 (broadcastInDim S1x40 ![1] bcast_S40_S1x40_1 b2))
    = classifyArr agg xn w2 b2 := by
  funext idx
  obtain ⟨r, n, rfl⟩ : ∃ (r : Fin 50000) (n : Fin 40), idx = ix2 r n := ⟨idx 0, idx 1, eq_ix2 idx⟩
  rw [addf_apply, dot2_eq, StackMember.dotGeneral_plain_apply, rows_apply, row_apply]
  simp only [leakyArr_apply, normalizeArr_apply]
  rfl

end Cert.ReferenceIdeal.Read

end
-- ==== Proof.RefWhole.lean ====
/-
  The reference's chain of stages is the network: each computed stage is the specification's row function on every row
  (the four stage theorems), and the gathers and scatter-adds between them are the same terms on both sides.
-/
import proofs.«157490_j26834955665983_2_alg».proof.Proof.Whole
import proofs.«157490_j26834955665983_2_alg».proof.Proof.RefChain
import proofs.«157490_j26834955665983_2_alg».proof.Proof.RefReadNorm
import proofs.«157490_j26834955665983_2_alg».proof.Proof.RefReadMessage
import proofs.«157490_j26834955665983_2_alg».proof.Proof.RefReadEmbed
import proofs.«157490_j26834955665983_2_alg».proof.Proof.RefReadClassify

noncomputable section

namespace Cert.ReferenceIdeal.Read

open Cert.ReferenceIdeal Cert.ReferenceIdeal.Gen

/-- The reference, stage by stage, is the network of the specification's row functions. -/
theorem result_eq (x : Chain.FA S50000x500) (ei : Chain.IA S2x800000) (w : Chain.FA S500x160) (b : Chain.FA S160)
    (w2 : Chain.FA S160x40) (b2 : Chain.FA S40) :
    Chain.result x ei w b w2 b2 = Cert.Routing.network x ei w b w2 b2 := by
  unfold Chain.result Chain.aggregate Cert.Routing.network Cert.Routing.summed Cert.Routing.sources
  dsimp only
  rw [classify_eq, embed_eq]
  simp only [message_eq, renorm_eq]

end Cert.ReferenceIdeal.Read

end
-- ==== Proof.lean ====
/-
  The certificate of a disentangled-routing graph network: seven tiled regions (an embedding layer with a per-group
  normalisation; three routing rounds, each a per-edge softmax weighting between a host row gather and a host row
  scatter-add, followed by a renormalising update; the last update fused with the classifier) against the plain array
  program, equal on the extended reals.

  Both programs compute `Cert.Routing.network` of the six arguments (Proof/Whole.lean over Proof/Spec.lean). The tiled
  program: its run names the result buffer's final contents (Proof/KRun.lean), which is the network of the launch contents
  (Proof/FoldResult.lean: the regions' output arrays from their blocks, Proof/Region*.lean over the bodies' arithmetic
  read at an index, Proof/Body*.lean; the host stretches between them evaluated, Proof/FoldWalk.lean, Proof/FoldStages.lean;
  the 0/1 matrices with which the tiled bodies sum and spread over factor groups are the group matrix, Proof/GroupTable.lean,
  Proof/GroupMatrix.lean). The plain program: its run, written out over its operation list (Proof/RefOps.lean,
  Proof/RefSeq.lean, Proof/RefRun.lean), ends at its stages' composition (Proof/RefChain.lean), each stage of which is the
  specification's row function (Proof/RefRead*.lean, Proof/RefWhole.lean). The law that joins the two sides is that a
  product with a 0/1 group matrix is the sum over the group, which holds for every extended real, so the finiteness of the
  inputs is never used. The frames of the two tiled programs are the generated frame certificates; the plain
  program's frame is its run with the result dropped; the idealisation rewrote nothing.
-/
import proofs.«157490_j26834955665983_2_alg».proof.Defs
import proofs.«157490_j26834955665983_2_alg».proof.Proof.Gen.Kernel
import proofs.«157490_j26834955665983_2_alg».proof.Proof.Gen.KernelIdeal
import proofs.«157490_j26834955665983_2_alg».proof.Proof.Gen.ReferenceIdeal
import proofs.«157490_j26834955665983_2_alg».proof.Proof.Gen.Pre_finite_inputs
import proofs.«157490_j26834955665983_2_alg».proof.Proof.PatchedKernelFrame
import proofs.«157490_j26834955665983_2_alg».proof.Proof.PatchedKernelIdealFrame
import proofs.«157490_j26834955665983_2_alg».proof.Proof.KRun
import proofs.«157490_j26834955665983_2_alg».proof.Proof.FoldResult
import proofs.«157490_j26834955665983_2_alg».proof.Proof.RefRun
import proofs.«157490_j26834955665983_2_alg».proof.Proof.RefWhole
import Idealize.ShloMosaic.Adequacy
import Idealize.ShloMosaic.Init

noncomputable section

namespace Cert.Proof

open Idealize.ShloMosaic Idealize.ShloMosaic.TcCoe Idealize.SL.Sem

/-- The word-level tiled program runs and keeps its arguments: the generated frame certificate. -/
theorem frame_k : Cert.frame_Kernel := fun m ρ _ => Cert.Kernel.GenP.frame m ρ

/-- The idealised tiled program runs and keeps its arguments: the generated frame certificate. -/
theorem frame_ki : Cert.frame_KernelIdeal := fun m ρ _ => Cert.KernelIdeal.GenP.frame m ρ

/-- The plain program runs and keeps its arguments: its run, the result dropped. -/
theorem frame_ri : Cert.frame_ReferenceIdeal := fun m ρ _ =>
  (θ_run Cert.ReferenceIdeal.defs _ _).mono (fun _ h c => (h c).2) (Cert.ReferenceIdeal.Run.run m ρ)

/-- Both programs end with the network of their (agreeing) arguments in their result buffers. -/
theorem algebraic : Cert.algebraic_KernelIdeal_ReferenceIdeal := by
  intro m ρ m' ρ' _ hagree
  refine ⟨fun c => Cert.Routing.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.Fold.result m ρ c), (h c).2⟩) (Cert.KernelIdeal.KRun.run m ρ)
  · refine (θ_run Cert.ReferenceIdeal.defs _ _).mono (fun r h c => ⟨?_, (h c).2⟩) (Cert.ReferenceIdeal.Run.run m' ρ')
    rw [(h c).1, Cert.ReferenceIdeal.Read.result_eq, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
